-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bitsLt_bf16_f32 : FTy.bits .bf16 < FTy.bits .f32
  bcast_S_S5x32x256 : S_.BroadcastsInDim S5x32x256 (![] : Fin 0 → Fin S5x32x256.rank)
  reducesTo_S5x32x256_S_d0_1_2 : S5x32x256.ReducesTo [0, 1, 2] S_
  bcast_S_S1x256 : S_.BroadcastsInDim S1x256 (![] : Fin 0 → Fin S1x256.rank)
  reducesTo_S1x256_S_d0_1 : S1x256.ReducesTo [0, 1] S_
  bcast_S_S5x128x256 : S_.BroadcastsInDim S5x128x256 (![] : Fin 0 → Fin S5x128x256.rank)
  reducesTo_S5x128x256_S_d0_1_2 : S5x128x256.ReducesTo [0, 1, 2] S_
  bcast_S_S5x128x128 : S_.BroadcastsInDim S5x128x128 (![] : Fin 0 → Fin S5x128x128.rank)
  reducesTo_S5x128x128_S_d0_1_2 : S5x128x128.ReducesTo [0, 1, 2] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg10 : FVec F S1x128 .f32) (main_v47 : IVec S_ 1) (main_v51 : IVec S128x128 1) (main_c_17 : IVec S_ 1) : IVec S_ 1 :=
  let main_v52 : IVec S_ 1 := (fun x v => Host.reduce IntOp.andi x v reducesTo_S128x128_S_d0_1 h_S_) main_v51 main_c_17
  let main_v53 : IVec S_ 1 := andi main_v47 main_v52
  let main_v54 : FVec F S1x128 .f32 := Host.absf main_arg10
  let main_cst_18 : FVec F S_ .f32 := constant S_ .f32 0x7F800000#32
  let main_v55 : FVec F S1x128 .f32 := broadcastInDim S1x128 ![] bcast_S_S1x128 main_cst_18
  let main_v56 : IVec S1x128 1 := cmpf .olt main_v54 main_v55
  let main_c_19 : IVec S_ 1 := constantI S_ 1 1#1
  let main_v57 : IVec S_ 1 := (fun x v => Host.reduce IntOp.andi x v reducesTo_S1x128_S_d0_1 h_S_) main_v56 main_c_19
  let main_v58 : IVec S_ 1 := andi main_v53 main_v57
  main_v58

def fn_part2 {F : FTy → Type} [FloatOps F] (main_arg7 : FVec F S128x128 .bf16) (main_arg8 : FVec F S1x128 .f32) (main_arg9 : FVec F S128x128 .bf16) (main_arg10 : FVec F S1x128 .f32) (main_v31 : IVec S_ 1) (main_v34 : IVec S1x128 1) : IVec S_ 1 :=
  let main_c_11 : IVec S_ 1 := constantI S_ 1 1#1
  let main_v35 : IVec S_ 1 := (fun x v => Host.reduce IntOp.andi x v reducesTo_S1x128_S_d0_1 h_S_) main_v34 main_c_11
  let main_v36 : IVec S_ 1 := andi main_v31 main_v35
  let main_v37 : FVec F S128x128 .f32 := (extf .f32 · bitsLt_bf16_f32) main_arg7
  let main_v38 : FVec F S128x128 .f32 := Host.absf main_v37
  let main_cst_12 : FVec F S_ .f32 := constant S_ .f32 0x7F800000#32
  let main_v39 : FVec F S128x128 .f32 := broadcastInDim S128x128 ![] bcast_S_S128x128 main_cst_12
  let main_v40 : IVec S128x128 1 := cmpf .olt main_v38 main_v39
  let main_c_13 : IVec S_ 1 := constantI S_ 1 1#1
  let main_v41 : IVec S_ 1 := (fun x v => Host.reduce IntOp.andi x v reducesTo_S128x128_S_d0_1 h_S_) main_v40 main_c_13
  let main_v42 : IVec S_ 1 := andi main_v36 main_v41
  let main_v43 : FVec F S1x128 .f32 := Host.absf main_arg8
  let main_cst_14 : FVec F S_ .f32 := constant S_ .f32 0x7F800000#32
  let main_v44 : FVec F S1x128 .f32 := broadcastInDim S1x128 ![] bcast_S_S1x128 main_cst_14
  let main_v45 : IVec S1x128 1 := cmpf .olt main_v43 main_v44
  let main_c_15 : IVec S_ 1 := constantI S_ 1 1#1
  let main_v46 : IVec S_ 1 := (fun x v => Host.reduce IntOp.andi x v reducesTo_S1x128_S_d0_1 h_S_) main_v45 main_c_15
  let main_v47 : IVec S_ 1 := andi main_v42 main_v46
  let main_v48 : FVec F S128x128 .f32 := (extf .f32 · bitsLt_bf16_f32) main_arg9
  let main_v49 : FVec F S128x128 .f32 := Host.absf main_v48
  let main_cst_16 : FVec F S_ .f32 := constant S_ .f32 0x7F800000#32
  let main_v50 : FVec F S128x128 .f32 := broadcastInDim S128x128 ![] bcast_S_S128x128 main_cst_16
  let main_v51 : IVec S128x128 1 := cmpf .olt main_v49 main_v50
  let main_c_17 : IVec S_ 1 := constantI S_ 1 1#1
  fn_part3 (F := F) main_arg10 main_v47 main_v51 main_c_17

def fn_part1 {F : FTy → Type} [FloatOps F] (main_arg4 : FVec F S1x256 .f32) (main_arg5 : FVec F S5x128x128 .bf16) (main_arg6 : FVec F S1x128 .f32) (main_arg7 : FVec F S128x128 .bf16) (main_arg8 : FVec F S1x128 .f32) (main_arg9 : FVec F S128x128 .bf16) (main_arg10 : FVec F S1x128 .f32) (main_v14 : IVec S_ 1) (main_v16 : FVec F S5x128x256 .f32) (main_cst_4 : FVec F S_ .f32) : IVec S_ 1 :=
  let main_v17 : FVec F S5x128x256 .f32 := broadcastInDim S5x128x256 ![] bcast_S_S5x128x256 main_cst_4
  let main_v18 : IVec S5x128x256 1 := cmpf .olt main_v16 main_v17
  let main_c_5 : IVec S_ 1 := constantI S_ 1 1#1
  let main_v19 : IVec S_ 1 := (fun x v => Host.reduce IntOp.andi x v reducesTo_S5x128x256_S_d0_1_2 h_S_) main_v18 main_c_5
  let main_v20 : IVec S_ 1 := andi main_v14 main_v19
  let main_v21 : FVec F S1x256 .f32 := Host.absf main_arg4
  let main_cst_6 : FVec F S_ .f32 := constant S_ .f32 0x7F800000#32
  let main_v22 : FVec F S1x256 .f32 := broadcastInDim S1x256 ![] bcast_S_S1x256 main_cst_6
  let main_v23 : IVec S1x256 1 := cmpf .olt main_v21 main_v22
  let main_c_7 : IVec S_ 1 := constantI S_ 1 1#1
  let main_v24 : IVec S_ 1 := (fun x v => Host.reduce IntOp.andi x v reducesTo_S1x256_S_d0_1 h_S_) main_v23 main_c_7
  let main_v25 : IVec S_ 1 := andi main_v20 main_v24
  let main_v26 : FVec F S5x128x128 .f32 := (extf .f32 · bitsLt_bf16_f32) main_arg5
  let main_v27 : FVec F S5x128x128 .f32 := Host.absf main_v26
  let main_cst_8 : FVec F S_ .f32 := constant S_ .f32 0x7F800000#32
  let main_v28 : FVec F S5x128x128 .f32 := broadcastInDim S5x128x128 ![] bcast_S_S5x128x128 main_cst_8
  let main_v29 : IVec S5x128x128 1 := cmpf .olt main_v27 main_v28
  let main_c_9 : IVec S_ 1 := constantI S_ 1 1#1
  let main_v30 : IVec S_ 1 := (fun x v => Host.reduce IntOp.andi x v reducesTo_S5x128x128_S_d0_1_2 h_S_) main_v29 main_c_9
  let main_v31 : IVec S_ 1 := andi main_v25 main_v30
  let main_v32 : FVec F S1x128 .f32 := Host.absf main_arg6
  let main_cst_10 : FVec F S_ .f32 := constant S_ .f32 0x7F800000#32
  let main_v33 : FVec F S1x128 .f32 := broadcastInDim S1x128 ![] bcast_S_S1x128 main_cst_10
  let main_v34 : IVec S1x128 1 := cmpf .olt main_v32 main_v33
  fn_part2 (F := F) main_arg7 main_arg8 main_arg9 main_arg10 main_v31 main_v34

def fn {F : FTy → Type} [FloatOps F] (main_arg0 : FVec F S16384x1x28x28 .f32) (main_arg1 : FVec F S5x32x256 .bf16) (main_arg2 : FVec F S1x256 .f32) (main_arg3 : FVec F S5x128x256 .bf16) (main_arg4 : FVec F S1x256 .f32) (main_arg5 : FVec F S5x128x128 .bf16) (main_arg6 : FVec F S1x128 .f32) (main_arg7 : FVec F S128x128 .bf16) (main_arg8 : FVec F S1x128 .f32) (main_arg9 : FVec F S128x128 .bf16) (main_arg10 : FVec F S1x128 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S5x32x256 .f32 := (extf .f32 · bitsLt_bf16_f32) main_arg1
  let main_v5 : FVec F S5x32x256 .f32 := Host.absf main_v4
  let main_cst_0 : FVec F S_ .f32 := constant S_ .f32 0x7F800000#32
  let main_v6 : FVec F S5x32x256 .f32 := broadcastInDim S5x32x256 ![] bcast_S_S5x32x256 main_cst_0
  let main_v7 : IVec S5x32x256 1 := cmpf .olt main_v5 main_v6
  let main_c_1 : IVec S_ 1 := constantI S_ 1 1#1
  let main_v8 : IVec S_ 1 := (fun x v => Host.reduce IntOp.andi x v reducesTo_S5x32x256_S_d0_1_2 h_S_) main_v7 main_c_1
  let main_v9 : IVec S_ 1 := andi main_v3 main_v8
  let main_v10 : FVec F S1x256 .f32 := Host.absf main_arg2
  let main_cst_2 : FVec F S_ .f32 := constant S_ .f32 0x7F800000#32
  let main_v11 : FVec F S1x256 .f32 := broadcastInDim S1x256 ![] bcast_S_S1x256 main_cst_2
  let main_v12 : IVec S1x256 1 := cmpf .olt main_v10 main_v11
  let main_c_3 : IVec S_ 1 := constantI S_ 1 1#1
  let main_v13 : IVec S_ 1 := (fun x v => Host.reduce IntOp.andi x v reducesTo_S1x256_S_d0_1 h_S_) main_v12 main_c_3
  let main_v14 : IVec S_ 1 := andi main_v9 main_v13
  let main_v15 : FVec F S5x128x256 .f32 := (extf .f32 · bitsLt_bf16_f32) main_arg3
  let main_v16 : FVec F S5x128x256 .f32 := Host.absf main_v15
  let main_cst_4 : FVec F S_ .f32 := constant S_ .f32 0x7F800000#32
  fn_part1 (F := F) main_arg4 main_arg5 main_arg6 main_arg7 main_arg8 main_arg9 main_arg10 main_v14 main_v16 main_cst_4
-- ==== Kernel.lean ====
abbrev S16384x1x28x28 : Shape := ⟨4, ![16384, 1, 28, 28]⟩
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S16384x28x28 : Shape := ⟨3, ![16384, 28, 28]⟩
abbrev S_ : Shape := ⟨0, ![]⟩
abbrev S16384x32x28 : Shape := ⟨3, ![16384, 32, 28]⟩
abbrev S524288x28 : Shape := ⟨2, ![524288, 28]⟩
abbrev S5x28x256 : Shape := ⟨3, ![5, 28, 256]⟩
abbrev S140x256 : Shape := ⟨2, ![140, 256]⟩
abbrev S2x128x256 : Shape := ⟨3, ![2, 128, 256]⟩
abbrev S256x256 : Shape := ⟨2, ![256, 256]⟩
abbrev S1x128x256 : Shape := ⟨3, ![1, 128, 256]⟩
abbrev S128x256 : Shape := ⟨2, ![128, 256]⟩
abbrev S640x128 : Shape := ⟨2, ![640, 128]⟩
abbrev S16384x128 : Shape := ⟨2, ![16384, 128]⟩
abbrev S2048x28 : Shape := ⟨2, ![2048, 28]⟩
abbrev S64x128 : Shape := ⟨2, ![64, 128]⟩
abbrev S2044x28 : Shape := ⟨2, ![2044, 28]⟩
abbrev S2044x140 : Shape := ⟨2, ![2044, 140]⟩
abbrev S2044x256 : Shape := ⟨2, ![2044, 256]⟩
abbrev S2044x128 : Shape := ⟨2, ![2044, 128]⟩
abbrev S4x128 : Shape := ⟨2, ![4, 128]⟩
abbrev S2048x128 : Shape := ⟨2, ![2048, 128]⟩
abbrev S1024x2x128 : Shape := ⟨3, ![1024, 2, 128]⟩
abbrev S1024x1x128 : Shape := ⟨3, ![1024, 1, 128]⟩
abbrev S1024x128 : Shape := ⟨2, ![1024, 128]⟩
abbrev S1020x128 : Shape := ⟨2, ![1020, 128]⟩
abbrev S1020x256 : Shape := ⟨2, ![1020, 256]⟩
abbrev S512x2x128 : Shape := ⟨3, ![512, 2, 128]⟩
abbrev S512x1x128 : Shape := ⟨3, ![512, 1, 128]⟩
abbrev S512x128 : Shape := ⟨2, ![512, 128]⟩
abbrev S64x8x128 : Shape := ⟨3, ![64, 8, 128]⟩
abbrev S64x1x128 : Shape := ⟨3, ![64, 1, 128]⟩
abbrev S64x640 : Shape := ⟨2, ![64, 640]⟩
abbrev S16384x10 : Shape := ⟨2, ![16384, 10]⟩

abbrev nBuf : Space → Nat
  | .hbm => 28
  | .vmem => 16
  | .smem => 0
  | _ => 0

abbrev bufTy : (tb : Table) → Fin (tcTables nBuf tb) → BufTy
  | .hbm, ⟨0, _⟩ => ⟨S16384x1x28x28, .f32⟩
  | .hbm, ⟨1, _⟩ => ⟨S5x32x256, .bf16⟩
  | .hbm, ⟨2, _⟩ => ⟨S1x256, .f32⟩
  | .hbm, ⟨3, _⟩ => ⟨S5x128x256, .bf16⟩
  | .hbm, ⟨4, _⟩ => ⟨S1x256, .f32⟩
  | .hbm, ⟨5, _⟩ => ⟨S5x128x128, .bf16⟩
  | .hbm, ⟨6, _⟩ => ⟨S1x128, .f32⟩
  | .hbm, ⟨7, _⟩ => ⟨S128x128, .bf16⟩
  | .hbm, ⟨8, _⟩ => ⟨S1x128, .f32⟩
  | .hbm, ⟨9, _⟩ => ⟨S128x128, .bf16⟩
  | .hbm, ⟨10, _⟩ => ⟨S1x128, .f32⟩
  | .hbm, ⟨11, _⟩ => ⟨S16384x28x28, .f32⟩
  | .hbm, ⟨12, _⟩ => ⟨S_, .i32⟩
  | .hbm, ⟨13, _⟩ => ⟨S_, .f32⟩
  | .hbm, ⟨14, _⟩ => ⟨S16384x32x28, .f32⟩
  | .hbm, ⟨15, _⟩ => ⟨S16384x32x28, .bf16⟩
  | .hbm, ⟨16, _⟩ => ⟨S524288x28, .bf16⟩
  | .hbm, ⟨17, _⟩ => ⟨S5x28x256, .bf16⟩
  | .hbm, ⟨18, _⟩ => ⟨S140x256, .bf16⟩
  | .hbm, ⟨19, _⟩ => ⟨S2x128x256, .bf16⟩
  | .hbm, ⟨20, _⟩ => ⟨S256x256, .bf16⟩
  | .hbm, ⟨21, _⟩ => ⟨S2x128x256, .bf16⟩
  | .hbm, ⟨22, _⟩ => ⟨S256x256, .bf16⟩
  | .hbm, ⟨23, _⟩ => ⟨S1x128x256, .bf16⟩
  | .hbm, ⟨24, _⟩ => ⟨S128x256, .bf16⟩
  | .hbm, ⟨25, _⟩ => ⟨S640x128, .bf16⟩
  | .hbm, ⟨26, _⟩ => ⟨S16384x128, .f32⟩
  | .hbm, ⟨27, _⟩ => ⟨S16384x10, .f32⟩
  | .local _ .vmem, ⟨0, _⟩ => ⟨S2048x28, .bf16⟩
  | .local _ .vmem, ⟨1, _⟩ => ⟨S2048x28, .bf16⟩
  | .local _ .vmem, ⟨2, _⟩ => ⟨S140x256, .bf16⟩
  | .local _ .vmem, ⟨3, _⟩ => ⟨S1x256, .f32⟩
  | .local _ .vmem, ⟨4, _⟩ => ⟨S256x256, .bf16⟩
  | .local _ .vmem, ⟨5, _⟩ => ⟨S256x256, .bf16⟩
  | .local _ .vmem, ⟨6, _⟩ => ⟨S128x256, .bf16⟩
  | .local _ .vmem, ⟨7, _⟩ => ⟨S1x256, .f32⟩
  | .local _ .vmem, ⟨8, _⟩ => ⟨S640x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S64x128, .f32⟩
  | .local _ .vmem, ⟨15, _⟩ => ⟨S64x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x28 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S140x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S16384x1x28x28_S16384x28x28 : S16384x1x28x28.ShapeCasts S16384x28x28
  pads_S16384x28x28_S16384x32x28_000_220_000 : S16384x28x28.Pads (![0, 2, 0] : Fin 3 → Nat) ![0, 2, 0] ![0, 0, 0] S16384x32x28
  h_S_ : 0 < S_.numel
  bitsLt_bf16_f32 : FTy.bits .bf16 < FTy.bits .f32
  shapeCasts_S16384x32x28_S524288x28 : S16384x32x28.ShapeCasts S524288x28
  slices_S5x32x256_S5x28x256_0_2_0 : S5x32x256.Slices ![0, 2, 0] S5x28x256
  shapeCasts_S5x28x256_S140x256 : S5x28x256.ShapeCasts S140x256
  slices_S5x128x256_S2x128x256_0_0_0 : S5x128x256.Slices ![0, 0, 0] S2x128x256
  shapeCasts_S2x128x256_S256x256 : S2x128x256.ShapeCasts S256x256
  slices_S5x128x256_S2x128x256_2_0_0 : S5x128x256.Slices ![2, 0, 0] S2x128x256
  slices_S5x128x256_S1x128x256_4_0_0 : S5x128x256.Slices ![4, 0, 0] S1x128x256
  shapeCasts_S1x128x256_S128x256 : S1x128x256.ShapeCasts S128x256
  shapeCasts_S5x128x128_S640x128 : S5x128x128.ShapeCasts S640x128
  inb_S2048x28_S2048x28_0_0 : ∀ a, (![0, 0] : Fin 2 → Nat) a + S2048x28.size a ≤ S2048x28.size a
  h_S2048x28 : 0 < S2048x28.numel
  shapeCasts_S2048x28_S2048x28 : S2048x28.ShapeCasts S2048x28
  slices_S2048x28_o0_0_S2044x28 : S2048x28.Slices ![0, 0] S2044x28
  slices_S2048x28_o1_0_S2044x28 : S2048x28.Slices ![1, 0] S2044x28
  slices_S2048x28_o2_0_S2044x28 : S2048x28.Slices ![2, 0] S2044x28
  slices_S2048x28_o3_0_S2044x28 : S2048x28.Slices ![3, 0] S2044x28
  slices_S2048x28_o4_0_S2044x28 : S2048x28.Slices ![4, 0] S2044x28
  concatenates_S2044x28_S2044x28_S2044x28_S2044x28_S2044x28_S2044x140_d1 : Shape.Concatenates [S2044x28, S2044x28, S2044x28, S2044x28, S2044x28] S2044x140 1
  inb_S140x256_S140x256_0_0 : ∀ a, (![0, 0] : Fin 2 → Nat) a + S140x256.size a ≤ S140x256.size a
  h_S140x256 : 0 < S140x256.numel
  shapeCasts_S140x256_S140x256 : S140x256.ShapeCasts S140x256
  inb_S1x256_S1x256_0_0 : ∀ a, (![0, 0] : Fin 2 → Nat) a + S1x256.size a ≤ S1x256.size a
  h_S1x256 : 0 < S1x256.numel
  broadcasts_S1x256_S2044x256 : S1x256.Broadcasts S2044x256
  slices_S2044x256_o0_0_S2044x128 : S2044x256.Slices ![0, 0] S2044x128
  slices_S2044x256_o0_128_S2044x128 : S2044x256.Slices ![0, 128] S2044x128
  concatenates_S2044x128_S4x128_S2048x128_d0 : Shape.Concatenates [S2044x128, S4x128] S2048x128 0
  shapeCasts_S2048x128_S1024x2x128 : S2048x128.ShapeCasts S1024x2x128
  slices_S1024x2x128_o0_0_0_S1024x1x128 : S1024x2x128.Slices ![0, 0, 0] S1024x1x128
  shapeCasts_S1024x1x128_S1024x128 : S1024x1x128.ShapeCasts S1024x128
  slices_S1024x2x128_o0_1_0_S1024x1x128 : S1024x2x128.Slices ![0, 1, 0] S1024x1x128
  slices_S1024x128_o0_0_S1020x128 : S1024x128.Slices ![0, 0] S1020x128
  slices_S1024x128_o1_0_S1020x128 : S1024x128.Slices ![1, 0] S1020x128
  concatenates_S1020x128_S1020x128_S1020x256_d1 : Shape.Concatenates [S1020x128, S1020x128] S1020x256 1
  slices_S1024x128_o2_0_S1020x128 : S1024x128.Slices ![2, 0] S1020x128
  slices_S1024x128_o3_0_S1020x128 : S1024x128.Slices ![3, 0] S1020x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1024x128_o4_0_S1020x128 : S1024x128.Slices ![4, 0] S1020x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S1020x256 : S1x256.Broadcasts S1020x256
  slices_S1020x256_o0_0_S1020x128 : S1020x256.Slices ![0, 0] S1020x128
  slices_S1020x256_o0_128_S1020x128 : S1020x256.Slices ![0, 128] S1020x128
  concatenates_S1020x128_S4x128_S1024x128_d0 : Shape.Concatenates [S1020x128, S4x128] S1024x128 0
  shapeCasts_S1024x128_S512x2x128 : S1024x128.ShapeCasts S512x2x128
  slices_S512x2x128_o0_0_0_S512x1x128 : S512x2x128.Slices ![0, 0, 0] S512x1x128
  shapeCasts_S512x1x128_S512x128 : S512x1x128.ShapeCasts S512x128
  slices_S512x2x128_o0_1_0_S512x1x128 : S512x2x128.Slices ![0, 1, 0] S512x1x128
  shapeCasts_S512x128_S64x8x128 : S512x128.ShapeCasts S64x8x128
  slices_S64x8x128_o0_0_0_S64x1x128 : S64x8x128.Slices ![0, 0, 0] S64x1x128
  shapeCasts_S64x1x128_S64x128 : S64x1x128.ShapeCasts S64x128
  slices_S64x8x128_o0_1_0_S64x1x128 : S64x8x128.Slices ![0, 1, 0] S64x1x128
  slices_S64x8x128_o0_2_0_S64x1x128 : S64x8x128.Slices ![0, 2, 0] S64x1x128
  slices_S64x8x128_o0_3_0_S64x1x128 : S64x8x128.Slices ![0, 3, 0] S64x1x128
  slices_S64x8x128_o0_4_0_S64x1x128 : S64x8x128.Slices ![0, 4, 0] S64x1x128
  concatenates_S64x128_S64x128_S64x128_S64x128_S64x128_S64x640_d1 : Shape.Concatenates [S64x128, S64x128, S64x128, S64x128, S64x128] S64x640 1
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S1x128_S1x128_0_0 : ∀ a, (![0, 0] : Fin 2 → Nat) a + S1x128.size a ≤ S1x128.size a
  h_S1x128 : 0 < S1x128.numel
  broadcasts_S1x128_S64x128 : S1x128.Broadcasts S64x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  slices_S16384x128_S16384x10_0_0 : S16384x128.Slices ![0, 0] S16384x10
  dot_S2044x140_S140x256_S2044x256_1_0_0_1_n_n_wf : DotDims.WF S2044x140 S140x256 S2044x256 [1] [0] [0] [1] [] []
  dot_S1020x256_S256x256_S1020x256_1_0_0_1_n_n_wf : DotDims.WF S1020x256 S256x256 S1020x256 [1] [0] [0] [1] [] []
  dot_S1020x128_S128x256_S1020x256_1_0_0_1_n_n_wf : DotDims.WF S1020x128 S128x256 S1020x256 [1] [0] [0] [1] [] []
  dot_S64x640_S640x128_S64x128_1_0_0_1_n_n_wf : DotDims.WF S64x640 S640x128 S64x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x28.size a ≤ S524288x28.size a
  hwx0_0 : ∀ i : grid0.Coords, EltTy.bits .bf16 = 32 ∨ (Rect.block (s := S524288x28) S2048x28.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S140x256.size a ≤ S140x256.size a
  hwx0_1 : ∀ i : grid0.Coords, EltTy.bits .bf16 = 32 ∨ (Rect.block (s := S140x256) S140x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S640x128.size a ≤ S640x128.size a
  hwx0_7 : ∀ i : grid0.Coords, EltTy.bits .bf16 = 32 ∨ (Rect.block (s := S640x128) S640x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S16384x128.size a
  hwx0_13 : ∀ i : grid0.Coords, EltTy.bits .f32 = 32 ∨ (Rect.block (s := S16384x128) S64x128.size (cc0_transform_13 i) (hinb0_13 i)).WholeWords (EltTy.packing .f32)

variable [Facts₀]

def dot_S2044x140_S140x256_S2044x256_1_0_0_1_n_n : DotDims S2044x140 S140x256 S2044x256 where
  lhsContracting := [1]
  rhsContracting := [0]
  lhsNonContracting := [0]
  rhsNonContracting := [1]
  lhsBatch := []
  rhsBatch := []
  wf := dot_S2044x140_S140x256_S2044x256_1_0_0_1_n_n_wf
def dot_S1020x256_S256x256_S1020x256_1_0_0_1_n_n : DotDims S1020x256 S256x256 S1020x256 where
  lhsContracting := [1]
  rhsContracting := [0]
  lhsNonContracting := [0]
  rhsNonContracting := [1]
  lhsBatch := []
  rhsBatch := []
  wf := dot_S1020x256_S256x256_S1020x256_1_0_0_1_n_n_wf
def dot_S1020x128_S128x256_S1020x256_1_0_0_1_n_n : DotDims S1020x128 S128x256 S1020x256 where
  lhsContracting := [1]
  rhsContracting := [0]
  lhsNonContracting := [0]
  rhsNonContracting := [1]
  lhsBatch := []
  rhsBatch := []
  wf := dot_S1020x128_S128x256_S1020x256_1_0_0_1_n_n_wf
def dot_S64x640_S640x128_S64x128_1_0_0_1_n_n : DotDims S64x640 S640x128 S64x128 where
  lhsContracting := [1]
  rhsContracting := [0]
  lhsNonContracting := [0]
  rhsNonContracting := [1]
  lhsBatch := []
  rhsBatch := []
  wf := dot_S64x640_S640x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v3) S2048x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S140x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S640x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S64x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S16384x28x28 : Shape := ⟨3, ![16384, 28, 28]⟩
abbrev S_ : Shape := ⟨0, ![]⟩
abbrev S16384x32x32 : Shape := ⟨3, ![16384, 32, 32]⟩
abbrev S524288x32 : Shape := ⟨2, ![524288, 32]⟩
abbrev S16384x128 : Shape := ⟨2, ![16384, 128]⟩
abbrev S1024x32 : Shape := ⟨2, ![1024, 32]⟩
abbrev S32x128 : Shape := ⟨2, ![32, 128]⟩
abbrev S1020x32 : Shape := ⟨2, ![1020, 32]⟩
abbrev S1x32x256 : Shape := ⟨3, ![1, 32, 256]⟩
abbrev S32x256 : Shape := ⟨2, ![32, 256]⟩
abbrev S1020x256 : Shape := ⟨2, ![1020, 256]⟩
abbrev S1020x128 : Shape := ⟨2, ![1020, 128]⟩
abbrev S1019x128 : Shape := ⟨2, ![1019, 128]⟩
abbrev S1011x128 : Shape := ⟨2, ![1011, 128]⟩
abbrev S1x128x256 : Shape := ⟨3, ![1, 128, 256]⟩
abbrev S128x256 : Shape := ⟨2, ![128, 256]⟩
abbrev S1011x256 : Shape := ⟨2, ![1011, 256]⟩
abbrev S1009x128 : Shape := ⟨2, ![1009, 128]⟩
abbrev S993x128 : Shape := ⟨2, ![993, 128]⟩
abbrev S1x128x128 : Shape := ⟨3, ![1, 128, 128]⟩
abbrev S32x993 : Shape := ⟨2, ![32, 993]⟩
abbrev S16384x10 : Shape := ⟨2, ![16384, 10]⟩

abbrev nBuf : Space → Nat
  | .hbm => 18
  | .vmem => 14
  | .smem => 0
  | _ => 0

abbrev bufTy : (tb : Table) → Fin (tcTables nBuf tb) → BufTy
  | .hbm, ⟨0, _⟩ => ⟨S16384x1x28x28, .f32⟩
  | .hbm, ⟨1, _⟩ => ⟨S5x32x256, .bf16⟩
  | .hbm, ⟨2, _⟩ => ⟨S1x256, .f32⟩
  | .hbm, ⟨3, _⟩ => ⟨S5x128x256, .bf16⟩
  | .hbm, ⟨4, _⟩ => ⟨S1x256, .f32⟩
  | .hbm, ⟨5, _⟩ => ⟨S5x128x128, .bf16⟩
  | .hbm, ⟨6, _⟩ => ⟨S1x128, .f32⟩
  | .hbm, ⟨7, _⟩ => ⟨S128x128, .bf16⟩
  | .hbm, ⟨8, _⟩ => ⟨S1x128, .f32⟩
  | .hbm, ⟨9, _⟩ => ⟨S128x128, .bf16⟩
  | .hbm, ⟨10, _⟩ => ⟨S1x128, .f32⟩
  | .hbm, ⟨11, _⟩ => ⟨S16384x28x28, .f32⟩
  | .hbm, ⟨12, _⟩ => ⟨S_, .i32⟩
  | .hbm, ⟨13, _⟩ => ⟨S_, .f32⟩
  | .hbm, ⟨14, _⟩ => ⟨S16384x32x32, .f32⟩
  | .hbm, ⟨15, _⟩ => ⟨S524288x32, .f32⟩
  | .hbm, ⟨16, _⟩ => ⟨S16384x128, .f32⟩
  | .hbm, ⟨17, _⟩ => ⟨S16384x10, .f32⟩
  | .local _ .vmem, ⟨0, _⟩ => ⟨S1024x32, .f32⟩
  | .local _ .vmem, ⟨1, _⟩ => ⟨S1024x32, .f32⟩
  | .local _ .vmem, ⟨2, _⟩ => ⟨S5x32x256, .bf16⟩
  | .local _ .vmem, ⟨3, _⟩ => ⟨S1x256, .f32⟩
  | .local _ .vmem, ⟨4, _⟩ => ⟨S5x128x256, .bf16⟩
  | .local _ .vmem, ⟨5, _⟩ => ⟨S1x256, .f32⟩
  | .local _ .vmem, ⟨6, _⟩ => ⟨S5x128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S32x128, .f32⟩
  | .local _ .vmem, ⟨13, _⟩ => ⟨S32x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16384x1x28x28_S16384x28x28 : S16384x1x28x28.ShapeCasts S16384x28x28
  pads_S16384x28x28_S16384x32x32_000_220_220 : S16384x28x28.Pads (![0, 2, 2] : Fin 3 → Nat) ![0, 2, 2] ![0, 0, 0] S16384x32x32
  h_S_ : 0 < S_.numel
  shapeCasts_S16384x32x32_S524288x32 : S16384x32x32.ShapeCasts S524288x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  slices_S1024x32_o0_0_S1020x32 : S1024x32.Slices ![0, 0] S1020x32
  inb_S5x32x256_S1x32x256_0_0_0 : ∀ a, (![0, 0, 0] : Fin 3 → Nat) a + S1x32x256.size a ≤ S5x32x256.size a
  h_S1x32x256 : 0 < S1x32x256.numel
  shapeCasts_S1x32x256_S32x256 : S1x32x256.ShapeCasts S32x256
  slices_S1024x32_o1_0_S1020x32 : S1024x32.Slices ![1, 0] S1020x32
  inb_S5x32x256_S1x32x256_1_0_0 : ∀ a, (![1, 0, 0] : Fin 3 → Nat) a + S1x32x256.size a ≤ S5x32x256.size a
  slices_S1024x32_o2_0_S1020x32 : S1024x32.Slices ![2, 0] S1020x32
  inb_S5x32x256_S1x32x256_2_0_0 : ∀ a, (![2, 0, 0] : Fin 3 → Nat) a + S1x32x256.size a ≤ S5x32x256.size a
  slices_S1024x32_o3_0_S1020x32 : S1024x32.Slices ![3, 0] S1020x32
  inb_S5x32x256_S1x32x256_3_0_0 : ∀ a, (![3, 0, 0] : Fin 3 → Nat) a + S1x32x256.size a ≤ S5x32x256.size a
  slices_S1024x32_o4_0_S1020x32 : S1024x32.Slices ![4, 0] S1020x32
  inb_S5x32x256_S1x32x256_4_0_0 : ∀ a, (![4, 0, 0] : Fin 3 → Nat) a + S1x32x256.size a ≤ S5x32x256.size a
  inb_S1x256_S1x256_0_0 : ∀ a, (![0, 0] : Fin 2 → Nat) a + S1x256.size a ≤ S1x256.size a
  h_S1x256 : 0 < S1x256.numel
  broadcasts_S1x256_S1020x256 : S1x256.Broadcasts S1020x256
  slices_S1020x256_o0_0_S1020x128 : S1020x256.Slices ![0, 0] S1020x128
  slices_S1020x256_o0_128_S1020x128 : S1020x256.Slices ![0, 128] S1020x128
  slices_S1020x128_o0_0_S1019x128 : S1020x128.Slices ![0, 0] S1019x128
  slices_S1020x128_o1_0_S1019x128 : S1020x128.Slices ![1, 0] S1019x128
  slices_S1019x128_o0_0_S1011x128 : S1019x128.Slices ![0, 0] S1011x128
  inb_S5x128x256_S1x128x256_0_0_0 : ∀ a, (![0, 0, 0] : Fin 3 → Nat) a + S1x128x256.size a ≤ S5x128x256.size a
  h_S1x128x256 : 0 < S1x128x256.numel
  shapeCasts_S1x128x256_S128x256 : S1x128x256.ShapeCasts S128x256
  slices_S1019x128_o2_0_S1011x128 : S1019x128.Slices ![2, 0] S1011x128
  inb_S5x128x256_S1x128x256_1_0_0 : ∀ a, (![1, 0, 0] : Fin 3 → Nat) a + S1x128x256.size a ≤ S5x128x256.size a
  slices_S1019x128_o4_0_S1011x128 : S1019x128.Slices ![4, 0] S1011x128
  inb_S5x128x256_S1x128x256_2_0_0 : ∀ a, (![2, 0, 0] : Fin 3 → Nat) a + S1x128x256.size a ≤ S5x128x256.size a
  slices_S1019x128_o6_0_S1011x128 : S1019x128.Slices ![6, 0] S1011x128
  inb_S5x128x256_S1x128x256_3_0_0 : ∀ a, (![3, 0, 0] : Fin 3 → Nat) a + S1x128x256.size a ≤ S5x128x256.size a
  slices_S1019x128_o8_0_S1011x128 : S1019x128.Slices ![8, 0] S1011x128
  inb_S5x128x256_S1x128x256_4_0_0 : ∀ a, (![4, 0, 0] : Fin 3 → Nat) a + S1x128x256.size a ≤ S5x128x256.size a
  broadcasts_S1x256_S1011x256 : S1x256.Broadcasts S1011x256
  slices_S1011x256_o0_0_S1011x128 : S1011x256.Slices ![0, 0] S1011x128
  slices_S1011x256_o0_128_S1011x128 : S1011x256.Slices ![0, 128] S1011x128
  slices_S1011x128_o0_0_S1009x128 : S1011x128.Slices ![0, 0] S1009x128
  slices_S1011x128_o2_0_S1009x128 : S1011x128.Slices ![2, 0] S1009x128
  slices_S1009x128_o0_0_S993x128 : S1009x128.Slices ![0, 0] S993x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  slices_S1009x128_o4_0_S993x128 : S1009x128.Slices ![4, 0] S993x128
  inb_S5x128x128_S1x128x128_1_0_0 : ∀ a, (![1, 0, 0] : Fin 3 → Nat) a + S1x128x128.size a ≤ S5x128x128.size a
  slices_S1009x128_o8_0_S993x128 : S1009x128.Slices ![8, 0] S993x128
  inb_S5x128x128_S1x128x128_2_0_0 : ∀ a, (![2, 0, 0] : Fin 3 → Nat) a + S1x128x128.size a ≤ S5x128x128.size a
  slices_S1009x128_o12_0_S993x128 : S1009x128.Slices ![12, 0] S993x128
  inb_S5x128x128_S1x128x128_3_0_0 : ∀ a, (![3, 0, 0] : Fin 3 → Nat) a + S1x128x128.size a ≤ S5x128x128.size a
  slices_S1009x128_o16_0_S993x128 : S1009x128.Slices ![16, 0] S993x128
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  h_S1x128 : 0 < S1x128.numel
  broadcasts_S1x128_S993x128 : S1x128.Broadcasts S993x128
  iota_S32x993_d0_w32 : S32x993.Iotas .tc 32 [0]
  iota_S32x993_d1_w32 : S32x993.Iotas .tc 32 [1]
  natLt_1_32 : 1 < 32
  inb_S128x128_S128x128_0_0 : ∀ a, (![0, 0] : Fin 2 → Nat) a + S128x128.size a ≤ S128x128.size a
  h_S128x128 : 0 < S128x128.numel
  broadcasts_S1x128_S32x128 : S1x128.Broadcasts S32x128
  inb_S32x128_S32x128_0_0 : ∀ a, (![0, 0] : Fin 2 → Nat) a + S32x128.size a ≤ S32x128.size a
  h_S32x128 : 0 < S32x128.numel
  slices_S16384x128_S16384x10_0_0 : S16384x128.Slices ![0, 0] S16384x10
  dot_S1020x32_S32x256_S1020x256_1_0_0_1_n_n_wf : DotDims.WF S1020x32 S32x256 S1020x256 [1] [0] [0] [1] [] []
  dot_S1011x128_S128x256_S1011x256_1_0_0_1_n_n_wf : DotDims.WF S1011x128 S128x256 S1011x256 [1] [0] [0] [1] [] []
  dot_S993x128_S128x128_S993x128_1_0_0_1_n_n_wf : DotDims.WF S993x128 S128x128 S993x128 [1] [0] [0] [1] [] []
  dot_S32x993_S993x128_S32x128_1_0_0_1_n_n_wf : DotDims.WF S32x993 S993x128 S32x128 [1] [0] [0] [1] [] []
  dot_S32x128_S128x128_S32x128_1_0_0_1_n_n_wf : DotDims.WF S32x128 S128x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S524288x32.size a
  hwx0_0 : ∀ i : grid0.Coords, EltTy.bits .f32 = 32 ∨ (Rect.block (s := S524288x32) S1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32x256.size a ≤ S5x32x256.size a
  hwx0_1 : ∀ i : grid0.Coords, EltTy.bits .bf16 = 32 ∨ (Rect.block (s := S5x32x256) S5x32x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128x256.size a ≤ S5x128x256.size a
  hwx0_3 : ∀ i : grid0.Coords, EltTy.bits .bf16 = 32 ∨ (Rect.block (s := S5x128x256) S5x128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .bf16 = 32 ∨ (Rect.block (s := S5x128x128) S5x128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x128.size a ≤ S16384x128.size a
  hwx0_11 : ∀ i : grid0.Coords, EltTy.bits .f32 = 32 ∨ (Rect.block (s := S16384x128) S32x128.size (cc0_transform_11 i) (hinb0_11 i)).WholeWords (EltTy.packing .f32)

variable [Facts₀]

def dot_S1020x32_S32x256_S1020x256_1_0_0_1_n_n : DotDims S1020x32 S32x256 S1020x256 where
  lhsContracting := [1]
  rhsContracting := [0]
  lhsNonContracting := [0]
  rhsNonContracting := [1]
  lhsBatch := []
  rhsBatch := []
  wf := dot_S1020x32_S32x256_S1020x256_1_0_0_1_n_n_wf
def dot_S1011x128_S128x256_S1011x256_1_0_0_1_n_n : DotDims S1011x128 S128x256 S1011x256 where
  lhsContracting := [1]
  rhsContracting := [0]
  lhsNonContracting := [0]
  rhsNonContracting := [1]
  lhsBatch := []
  rhsBatch := []
  wf := dot_S1011x128_S128x256_S1011x256_1_0_0_1_n_n_wf
def dot_S993x128_S128x128_S993x128_1_0_0_1_n_n : DotDims S993x128 S128x128 S993x128 where
  lhsContracting := [1]
  rhsContracting := [0]
  lhsNonContracting := [0]
  rhsNonContracting := [1]
  lhsBatch := []
  rhsBatch := []
  wf := dot_S993x128_S128x128_S993x128_1_0_0_1_n_n_wf
def dot_S32x993_S993x128_S32x128_1_0_0_1_n_n : DotDims S32x993 S993x128 S32x128 where
  lhsContracting := [1]
  rhsContracting := [0]
  lhsNonContracting := [0]
  rhsNonContracting := [1]
  lhsBatch := []
  rhsBatch := []
  wf := dot_S32x993_S993x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf

abbrev win0_0 : Pipeline.Window sig grid0 :=
  Pipeline.Window.ofSpec (Memref.whole main_v2) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S32x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibNat2.lean ====
/-
  Arrays read at natural-number coordinates, over the library and LibPlainDot only, at the ideal values.
  nat2 v i j is the matrix v's entry (i, j), zero outside the matrix (nat3 likewise for rank 3): a total function of the
  coordinates, so that a stage of a kernel that works on flat rows can be stated without index types. Then how the vector
  operations of a kernel body act on such reads, at the ideal values: a slice shifts the coordinates, a matrix product
  into a zero accumulator is the sum over the contraction index, a row broadcast reads the one row, the pointwise
  operations act entry by entry, a concatenation along the lanes or the rows reads the piece the coordinate falls in, and
  regrouping g consecutive rows ([g·a, b] → [a, g, b], member k of each group, → [a, b]) reads row g·j + k.
-/
import proofs.«108140_g2000503430470147_pallaspilot1_141_3_alg».proof.Proof.LibPlainDot
import Idealize.ShloMosaic.Lib.Pipeline.Value
import Idealize.ShloMosaic.Lib.ValueLayout
import Idealize.ShloMosaic.PureOps.Ideal.Laws

noncomputable section

namespace Cert.LibNat2

open Idealize.ShloMosaic Idealize.ShloMosaic.ValueIdx

/-- A matrix read at natural-number coordinates; zero outside it. -/
def nat2 {a b : ℕ} (v : (⟨2, ![a, b]⟩ : Shape).Idx → EReal) (i j : ℕ) : EReal :=
  if h : i < a ∧ j < b then v (ix2 ⟨i, h.1⟩ ⟨j, h.2⟩) else 0

theorem nat2_eq {a b : ℕ} (v : (⟨2, ![a, b]⟩ : Shape).Idx → EReal) (i : Fin a) (j : Fin b) :
    nat2 v i.val j.val = v (ix2 i j) := by
  unfold nat2; rw [dif_pos ⟨i.isLt, j.isLt⟩]

theorem nat2_of_lt {a b : ℕ} (v : (⟨2, ![a, b]⟩ : Shape).Idx → EReal) (i j : ℕ) (hi : i < a) (hj : j < b) :
    nat2 v i j = v (ix2 ⟨i, hi⟩ ⟨j, hj⟩) := by
  unfold nat2; rw [dif_pos ⟨hi, hj⟩]

/-- A rank-3 array read at natural-number coordinates; zero outside it. -/
def nat3 {a b c : ℕ} (v : (⟨3, ![a, b, c]⟩ : Shape).Idx → EReal) (i j k : ℕ) : EReal :=
  if h : i < a ∧ j < b ∧ k < c then v (ix3 ⟨i, h.1⟩ ⟨j, h.2.1⟩ ⟨k, h.2.2⟩) else 0

theorem nat3_eq {a b c : ℕ} (v : (⟨3, ![a, b, c]⟩ : Shape).Idx → EReal) (i : Fin a) (j : Fin b) (k : Fin c) :
    nat3 v i.val j.val k.val = v (ix3 i j k) := by
  unfold nat3; rw [dif_pos ⟨i.isLt, j.isLt, k.isLt⟩]

theorem nat3_of_lt {a b c : ℕ} (v : (⟨3, ![a, b, c]⟩ : Shape).Idx → EReal) (i j k : ℕ) (hi : i < a) (hj : j < b) (hk : k < c) :
    nat3 v i j k = v (ix3 ⟨i, hi⟩ ⟨j, hj⟩ ⟨k, hk⟩) := by
  unfold nat3; rw [dif_pos ⟨hi, hj, hk⟩]

/-- A slice reads the operand at the shifted coordinates. -/
theorem nat2_slice {a b a' b' : ℕ} (o0 o1 : ℕ) (x : (⟨2, ![a, b]⟩ : Shape).Idx → EReal)
    (h : (⟨2, ![a, b]⟩ : Shape).Slices ![o0, o1] ⟨2, ![a', b']⟩) (ha : o0 + a' ≤ a) (hb : o1 + b' ≤ b)
    (i j : ℕ) (hi : i < a') (hj : j < b') :
    nat2 (extractStridedSlice ⟨2, ![a', b']⟩ ![o0, o1] x h) i j = nat2 x (o0 + i) (o1 + j) := by
  rw [nat2_of_lt _ _ _ hi hj, nat2_of_lt _ _ _ (show o0 + i < a by omega) (show o1 + j < b by omega)]
  exact extractStridedSlice_apply _ x h _ _ (fun ax => by match ax with | ⟨0, _⟩ => rfl | ⟨1, _⟩ => rfl)

/-- A plain matrix product into a zero accumulator is the sum over the contraction index. -/
theorem nat2_matmul (M K N : ℕ) {φ₁ φ₂ : FTy} (prec : Option ContractPrecision) (l : FVec Ideal ⟨2, ![M, K]⟩ φ₁)
    (r : FVec Ideal ⟨2, ![K, N]⟩ φ₂) (i j : ℕ) (hi : i < M) (hj : j < N) :
    nat2 (matmul (F := Ideal) (DotDims.plain M K N) prec l r (constant ⟨2, ![M, N]⟩ .f32 0x00000000#32)) i j
      = ∑ k : Fin K, nat2 l i k.val * nat2 r k.val j := by
  rw [nat2_of_lt _ _ _ hi hj]
  refine (Cert.LibPlainDot.matmul_plain M K N prec l r _).trans ?_
  refine Finset.sum_congr rfl fun k _ => ?_
  rw [nat2_of_lt l i k.val hi k.isLt, nat2_of_lt r k.val j k.isLt hj]
  rfl

/-- A [1, b] row broadcast over a rows reads the row. -/
theorem nat2_bcastRow {a b : ℕ} (v : (⟨2, ![1, b]⟩ : Shape).Idx → EReal) (h : (⟨2, ![1, b]⟩ : Shape).Broadcasts ⟨2, ![a, b]⟩)
    (i j : ℕ) (hi : i < a) (hj : j < b) : nat2 (broadcastTo ⟨2, ![a, b]⟩ v h) i j = nat2 v 0 j := by
  rw [nat2_of_lt _ _ _ hi hj, nat2_of_lt v 0 j Nat.one_pos hj]
  exact broadcastTo_1b_ab_apply v h ⟨i, hi⟩ ⟨j, hj⟩

theorem nat2_addf {a b : ℕ} {φ : FTy} (x y : FVec Ideal ⟨2, ![a, b]⟩ φ) (i j : ℕ) :
    nat2 (addf x y) i j = nat2 x i j + nat2 y i j := by
  unfold nat2; split
  · rfl
  · exact (add_zero _).symm

theorem nat2_maximumf {a b : ℕ} {φ : FTy} (x y : FVec Ideal ⟨2, ![a, b]⟩ φ) (i j : ℕ) :
    nat2 (maximumf x y) i j = max (nat2 x i j) (nat2 y i j) := by
  unfold nat2; split
  · rfl
  · exact (max_self _).symm

theorem nat2_truncf {a b : ℕ} {φ ψ : FTy} (x : FVec Ideal ⟨2, ![a, b]⟩ φ) (h : ψ.bits < φ.bits) (i j : ℕ) :
    nat2 (truncf ψ x h : FVec Ideal ⟨2, ![a, b]⟩ ψ) i j = nat2 x i j := rfl

theorem nat2_shapeCast_self {a b : ℕ} (x : (⟨2, ![a, b]⟩ : Shape).Idx → EReal) (h : (⟨2, ![a, b]⟩ : Shape).ShapeCasts ⟨2, ![a, b]⟩)
    (i j : ℕ) : nat2 (shapeCast ⟨2, ![a, b]⟩ x h) i j = nat2 x i j := by
  rw [shapeCast_self]

/-- The zero word splat over a matrix. -/
theorem nat2_zero_splat {a b : ℕ} (i j : ℕ) :
    nat2 (broadcast (⟨2, ![a, b]⟩ : Shape) (Scalar.ofBits (F := Ideal) .f32 0x00000000#32)) i j = 0 := by
  unfold nat2; split
  · exact Ideal.ofBits_zero_f32
  · rfl

/-- Piece k of a concatenation along the lanes (axis 1), the pieces before it pre lanes wide in all. -/
theorem nat2_concat1 {a w Wd : ℕ} (xs : List ((s : Shape) × (s.Idx → EReal)))
    (h : Shape.Concatenates (xs.map (·.1)) ⟨2, ![a, Wd]⟩ 1) (k : ℕ) (hk : k < xs.length)
    (x : (⟨2, ![a, w]⟩ : Shape).Idx → EReal) (hx : xs[k] = ⟨⟨2, ![a, w]⟩, x⟩) (pre : ℕ)
    (hpre : (((xs.take k).map (·.1)).map fun s => if h : s.rank = 2 then s.size ((1 : Fin 2).cast h.symm) else 0).sum = pre)
    (i j : ℕ) (hi : i < a) (hj : j < w) (hW : pre + j < Wd) :
    nat2 (concatenate ⟨2, ![a, Wd]⟩ 1 xs h) i (pre + j) = nat2 x i j := by
  rw [nat2_of_lt _ _ _ hi hW, nat2_of_lt _ _ _ hi hj]
  refine concatenate_apply_piece (t := ⟨2, ![a, Wd]⟩) (1 : Fin 2) xs h (ix2 ⟨i, hi⟩ ⟨pre + j, hW⟩) k hk ⟨2, ![a, w]⟩ x hx rfl pre hpre
    (ix2 ⟨i, hi⟩ ⟨j, hj⟩) (fun b hb => ?_) rfl
  match b with
  | ⟨0, _⟩ => rfl
  | ⟨1, _⟩ => exact absurd rfl hb

/-- The first piece of a two-piece concatenation along the rows (axis 0). -/
theorem nat2_concat0_left {a a₂ A b : ℕ} (x₁ : (⟨2, ![a, b]⟩ : Shape).Idx → EReal) (x₂ : (⟨2, ![a₂, b]⟩ : Shape).Idx → EReal)
    (h : Shape.Concatenates [⟨2, ![a, b]⟩, ⟨2, ![a₂, b]⟩] ⟨2, ![A, b]⟩ 0) (i j : ℕ) (hi : i < a) (hA : i < A) (hj : j < b) :
    nat2 (concatenate ⟨2, ![A, b]⟩ 0 [⟨⟨2, ![a, b]⟩, x₁⟩, ⟨⟨2, ![a₂, b]⟩, x₂⟩] h) i j = nat2 x₁ i j := by
  rw [nat2_of_lt _ _ _ hA hj, nat2_of_lt _ _ _ hi hj]
  refine concatenate_pair_apply_left (t := ⟨2, ![A, b]⟩) (s₁ := ⟨2, ![a, b]⟩) (s₂ := ⟨2, ![a₂, b]⟩) (0 : Fin 2) x₁ x₂ h
    (ix2 ⟨i, hA⟩ ⟨j, hj⟩) rfl (ix2 ⟨i, hi⟩ ⟨j, hj⟩) (fun bx => ?_)
  match bx with
  | ⟨0, _⟩ => rfl
  | ⟨1, _⟩ => rfl

/-- Rows regrouped g at a time, member k of each group: row j of the result is row g·j + k. -/
theorem nat2_rowGroup {A a g b : ℕ} (k : ℕ) (hk : k < g) (hA : A = a * g) (v : (⟨2, ![A, b]⟩ : Shape).Idx → EReal)
    (h1 : (⟨2, ![A, b]⟩ : Shape).ShapeCasts ⟨3, ![a, g, b]⟩)
    (h2 : (⟨3, ![a, g, b]⟩ : Shape).Slices ![0, k, 0] ⟨3, ![a, 1, b]⟩)
    (h3 : (⟨3, ![a, 1, b]⟩ : Shape).ShapeCasts ⟨2, ![a, b]⟩) (j q : ℕ) (hj : j < a) (hq : q < b) :
    nat2 (shapeCast ⟨2, ![a, b]⟩ (extractStridedSlice ⟨3, ![a, 1, b]⟩ ![0, k, 0] (shapeCast ⟨3, ![a, g, b]⟩ v h1) h2) h3) j q
      = nat2 v (g * j + k) q := by
  have hlt : g * j + k < A := by
    subst hA
    calc g * j + k < g * j + g := by omega
      _ = g * (j + 1) := by ring
      _ ≤ g * a := Nat.mul_le_mul_left g (by omega)
      _ = a * g := Nat.mul_comm g a
  rw [nat2_of_lt _ _ _ hj hq, nat2_of_lt _ _ _ hlt hq]
  refine (shapeCast_apply _ h3 (ix2 ⟨j, hj⟩ ⟨q, hq⟩) (ix3 ⟨j, hj⟩ (0 : Fin 1) ⟨q, hq⟩) ?_).trans ?_
  · rw [Shape.rowMajor_val_three, Shape.rowMajor_val_two]
    show (j * 1 + 0) * b + q = j * b + q
    simp
  refine (extractStridedSlice_apply _ _ h2 _ (ix3 ⟨j, hj⟩ ⟨k, hk⟩ ⟨q, hq⟩) (fun ax => by
    match ax with
    | ⟨0, _⟩ => show j = 0 + j; omega
    | ⟨1, _⟩ => show k = k + 0; omega
    | ⟨2, _⟩ => show q = 0 + q; omega)).trans ?_
  refine shapeCast_apply v h1 _ (ix2 ⟨g * j + k, hlt⟩ ⟨q, hq⟩) ?_
  rw [Shape.rowMajor_val_three, Shape.rowMajor_val_two]
  show (g * j + k) * b + q = (j * g + k) * b + q
  rw [Nat.mul_comm g j]

end Cert.LibNat2

end
-- ==== Proof.Net.lean ====
/-
  The LeNet-5 forward pass as ONE function of the argument arrays, on the extended reals.

  Rows are FLAT: image b of the batch owns the 32 consecutive rows 32·b … 32·b+31 of the H-padded input (rows 0, 1, 30, 31
  of each frame are zero, rows 2 … 29 the image's 28 rows), each row 28 lanes wide. Every stage is written over such
  flat rows, as a total function of natural-number coordinates:
    conv1  r n   the 5×5 convolution with the W direction folded into the banded matrix T1: Σ_dy Σ_w X(r+dy, w)·T1(dy, w+2, n) + B1 n
                 (the padded lanes 0, 1, 30, 31 of T1 never meet an image entry);
    pool1  j q   the 2×2 max-pool and the positive part: lanes q and q+128 are the even and odd columns, rows 2j and 2j+1
                 the row pair — so pooled row j = 16·b + i is row pair i of image b;
    conv3, pool3 the same one level down (row u = 8·b + i);
    feat   b n   the third convolution, which consumes rows 8·b … 8·b+4 and leaves one row per image; then two dense layers.
  logit_congr : the result for image b is a function of that image's 32 input rows only — what lets a program cut the batch
  into tiles of any size.
-/
import proofs.«108140_g2000503430470147_pallaspilot1_141_3_alg».proof.Proof.LibNat2
import Idealize.ShloMosaic.PureOps.Ideal
import Idealize.ShloMosaic.Lib.ValueIdx

noncomputable section

namespace Cert.LeNet

open Idealize.ShloMosaic Idealize.ShloMosaic.ValueIdx

export Cert.LibNat2 (nat2 nat2_eq nat2_of_lt nat3 nat3_eq nat3_of_lt nat2_slice nat2_matmul nat2_bcastRow nat2_addf nat2_maximumf
  nat2_truncf nat2_shapeCast_self nat2_zero_splat nat2_concat1 nat2_concat0_left nat2_rowGroup)

/-- The H-padded input as flat rows: row r = 32·b + h of lane w is image b's entry (h − 2, w) for 2 ≤ h < 30, zero on the
    two padding rows above and below. -/
def Xof (img : (⟨4, ![16384, 1, 28, 28]⟩ : Shape).Idx → EReal) (r w : ℕ) : EReal :=
  if h : r < 524288 ∧ w < 28 ∧ 2 ≤ r % 32 ∧ r % 32 < 30 then
    img (ix4 (⟨r / 32, by omega⟩ : Fin 16384) (0 : Fin 1) (⟨r % 32 - 2, by omega⟩ : Fin 28) (⟨w, h.2.1⟩ : Fin 28))
  else 0

/-- The network's weights at natural-number coordinates. -/
structure Wts where
  T1 : ℕ → ℕ → ℕ → EReal
  B1 : ℕ → EReal
  T3 : ℕ → ℕ → ℕ → EReal
  B3 : ℕ → EReal
  T5 : ℕ → ℕ → ℕ → EReal
  B5 : ℕ → EReal
  W6 : ℕ → ℕ → EReal
  B6 : ℕ → EReal
  WO : ℕ → ℕ → EReal
  BO : ℕ → EReal

/-- The weights record of the ten weight arrays. -/
def wtsOf (T1 : (⟨3, ![5, 32, 256]⟩ : Shape).Idx → EReal) (B1 : (⟨2, ![1, 256]⟩ : Shape).Idx → EReal)
    (T3 : (⟨3, ![5, 128, 256]⟩ : Shape).Idx → EReal) (B3 : (⟨2, ![1, 256]⟩ : Shape).Idx → EReal)
    (T5 : (⟨3, ![5, 128, 128]⟩ : Shape).Idx → EReal) (B5 : (⟨2, ![1, 128]⟩ : Shape).Idx → EReal)
    (W6 : (⟨2, ![128, 128]⟩ : Shape).Idx → EReal) (B6 : (⟨2, ![1, 128]⟩ : Shape).Idx → EReal)
    (WO : (⟨2, ![128, 128]⟩ : Shape).Idx → EReal) (BO : (⟨2, ![1, 128]⟩ : Shape).Idx → EReal) : Wts where
  T1 := nat3 T1
  B1 := nat2 B1 0
  T3 := nat3 T3
  B3 := nat2 B3 0
  T5 := nat3 T5
  B5 := nat2 B5 0
  W6 := nat2 W6
  B6 := nat2 B6 0
  WO := nat2 WO
  BO := nat2 BO 0

variable (W : Wts) (X : ℕ → ℕ → EReal)

/-- First convolution at flat row r, output lane n. -/
def conv1 (r n : ℕ) : EReal := (∑ dy : Fin 5, ∑ w : Fin 28, X (r + dy.val) w.val * W.T1 dy.val (w.val + 2) n) + W.B1 n

/-- First pooling (columns q | q+128, rows 2j | 2j+1) and positive part, at pooled row j. -/
def pool1 (j q : ℕ) : EReal :=
  max (max (max (conv1 W X (2 * j) q) (conv1 W X (2 * j) (q + 128)))
           (max (conv1 W X (2 * j + 1) q) (conv1 W X (2 * j + 1) (q + 128)))) 0

/-- Second convolution at pooled row j. -/
def conv3 (j n : ℕ) : EReal := (∑ dy : Fin 5, ∑ q : Fin 128, pool1 W X (j + dy.val) q.val * W.T3 dy.val q.val n) + W.B3 n

/-- Second pooling and positive part, at twice-pooled row u. -/
def pool3 (u q : ℕ) : EReal :=
  max (max (max (conv3 W X (2 * u) q) (conv3 W X (2 * u) (q + 128)))
           (max (conv3 W X (2 * u + 1) q) (conv3 W X (2 * u + 1) (q + 128)))) 0

/-- Third convolution (one row per image) and positive part. -/
def feat (b n : ℕ) : EReal :=
  max ((∑ dy : Fin 5, ∑ q : Fin 128, pool3 W X (8 * b + dy.val) q.val * W.T5 dy.val q.val n) + W.B5 n) 0

/-- First dense layer and positive part. -/
def hid (b n : ℕ) : EReal := max ((∑ k : Fin 128, feat W X b k.val * W.W6 k.val n) + W.B6 n) 0

/-- Output layer. -/
def logit (b n : ℕ) : EReal := (∑ k : Fin 128, hid W X b k.val * W.WO k.val n) + W.BO n

/-- The whole result: output lane n < 10 of every image of the batch, as a function of the eleven argument arrays. -/
def result (img : (⟨4, ![16384, 1, 28, 28]⟩ : Shape).Idx → EReal)
    (T1 : (⟨3, ![5, 32, 256]⟩ : Shape).Idx → EReal) (B1 : (⟨2, ![1, 256]⟩ : Shape).Idx → EReal)
    (T3 : (⟨3, ![5, 128, 256]⟩ : Shape).Idx → EReal) (B3 : (⟨2, ![1, 256]⟩ : Shape).Idx → EReal)
    (T5 : (⟨3, ![5, 128, 128]⟩ : Shape).Idx → EReal) (B5 : (⟨2, ![1, 128]⟩ : Shape).Idx → EReal)
    (W6 : (⟨2, ![128, 128]⟩ : Shape).Idx → EReal) (B6 : (⟨2, ![1, 128]⟩ : Shape).Idx → EReal)
    (WO : (⟨2, ![128, 128]⟩ : Shape).Idx → EReal) (BO : (⟨2, ![1, 128]⟩ : Shape).Idx → EReal) :
    (⟨2, ![16384, 10]⟩ : Shape).Idx → EReal :=
  fun i => logit (wtsOf T1 B1 T3 B3 T5 B5 W6 B6 WO BO) (Xof img) (i 0).val (i 1).val

/-! ## Locality: image b's result reads image b's 32 rows only -/

variable {W} {X} {X' : ℕ → ℕ → EReal}

theorem conv1_congr {r r' : ℕ} (h : ∀ dy < 5, ∀ w < 28, X (r + dy) w = X' (r' + dy) w) (n : ℕ) :
    conv1 W X r n = conv1 W X' r' n := by
  unfold conv1
  refine congrArg (· + W.B1 n) ?_
  refine Finset.sum_congr rfl fun dy _ => Finset.sum_congr rfl fun w _ => ?_
  rw [h dy.val dy.isLt w.val w.isLt]

theorem pool1_congr {j j' : ℕ} (h0 : ∀ n, conv1 W X (2 * j) n = conv1 W X' (2 * j') n)
    (h1 : ∀ n, conv1 W X (2 * j + 1) n = conv1 W X' (2 * j' + 1) n) (q : ℕ) :
    pool1 W X j q = pool1 W X' j' q := by
  unfold pool1
  rw [h0, h0, h1, h1]

theorem conv3_congr {j j' : ℕ} (h : ∀ dy < 5, ∀ q, pool1 W X (j + dy) q = pool1 W X' (j' + dy) q) (n : ℕ) :
    conv3 W X j n = conv3 W X' j' n := by
  unfold conv3
  refine congrArg (· + W.B3 n) ?_
  refine Finset.sum_congr rfl fun dy _ => Finset.sum_congr rfl fun q _ => ?_
  rw [h dy.val dy.isLt q.val]

theorem pool3_congr {u u' : ℕ} (h0 : ∀ n, conv3 W X (2 * u) n = conv3 W X' (2 * u') n)
    (h1 : ∀ n, conv3 W X (2 * u + 1) n = conv3 W X' (2 * u' + 1) n) (q : ℕ) :
    pool3 W X u q = pool3 W X' u' q := by
  unfold pool3
  rw [h0, h0, h1, h1]

theorem feat_congr {b b' : ℕ} (h : ∀ dy < 5, ∀ q, pool3 W X (8 * b + dy) q = pool3 W X' (8 * b' + dy) q) (n : ℕ) :
    feat W X b n = feat W X' b' n := by
  unfold feat
  refine congrArg (fun z => max (z + W.B5 n) 0) ?_
  refine Finset.sum_congr rfl fun dy _ => Finset.sum_congr rfl fun q _ => ?_
  rw [h dy.val dy.isLt q.val]

theorem hid_congr {b b' : ℕ} (h : ∀ n, feat W X b n = feat W X' b' n) (n : ℕ) : hid W X b n = hid W X' b' n := by
  unfold hid
  refine congrArg (fun z => max (z + W.B6 n) 0) ?_
  exact Finset.sum_congr rfl fun k _ => by rw [h k.val]

theorem logit_congr_hid {b b' : ℕ} (h : ∀ n, hid W X b n = hid W X' b' n) (n : ℕ) : logit W X b n = logit W X' b' n := by
  unfold logit
  refine congrArg (· + W.BO n) ?_
  exact Finset.sum_congr rfl fun k _ => by rw [h k.val]

/-- Two inputs that agree on the 32 rows of image b (of the one) and image b' (of the other) give those images the same
    result. -/
theorem logit_congr {b b' : ℕ} (h : ∀ k < 32, ∀ w < 28, X (32 * b + k) w = X' (32 * b' + k) w) (n : ℕ) :
    logit W X b n = logit W X' b' n := by
  have c1 : ∀ k < 28, ∀ n, conv1 W X (32 * b + k) n = conv1 W X' (32 * b' + k) n := fun k hk n =>
    conv1_congr (fun dy hdy w hw => by
      have := h (k + dy) (by omega) w hw
      rwa [← Nat.add_assoc, ← Nat.add_assoc] at this) n
  have p1 : ∀ i < 14, ∀ q, pool1 W X (16 * b + i) q = pool1 W X' (16 * b' + i) q := fun i hi q => by
    have e : ∀ c : ℕ, 2 * (16 * c + i) = 32 * c + 2 * i := fun c => by omega
    have e' : ∀ c : ℕ, 2 * (16 * c + i) + 1 = 32 * c + (2 * i + 1) := fun c => by omega
    refine pool1_congr (fun n => ?_) (fun n => ?_) q
    · rw [e, e]; exact c1 (2 * i) (by omega) n
    · rw [e', e']; exact c1 (2 * i + 1) (by omega) n
  have c3 : ∀ i < 10, ∀ n, conv3 W X (16 * b + i) n = conv3 W X' (16 * b' + i) n := fun i hi n =>
    conv3_congr (fun dy hdy q => by
      have := p1 (i + dy) (by omega) q
      rwa [← Nat.add_assoc, ← Nat.add_assoc] at this) n
  have p3 : ∀ i < 5, ∀ q, pool3 W X (8 * b + i) q = pool3 W X' (8 * b' + i) q := fun i hi q => by
    have e : ∀ c : ℕ, 2 * (8 * c + i) = 16 * c + 2 * i := fun c => by omega
    have e' : ∀ c : ℕ, 2 * (8 * c + i) + 1 = 16 * c + (2 * i + 1) := fun c => by omega
    refine pool3_congr (fun n => ?_) (fun n => ?_) q
    · rw [e, e]; exact c3 (2 * i) (by omega) n
    · rw [e', e']; exact c3 (2 * i + 1) (by omega) n
  exact logit_congr_hid (hid_congr (feat_congr (fun dy hdy q => p3 dy hdy q))) n

/-! ## Two laws the programs' spellings of a stage differ by -/

/-- The positive part may be taken before or after a 2×2 maximum. -/
theorem relu_pool (a b c d : EReal) :
    max (max (max a 0) (max b 0)) (max (max c 0) (max d 0)) = max (max (max a b) (max c d)) 0 := by
  simp only [max_assoc, max_comm, max_left_comm, max_self]

end Cert.LeNet

end
-- ==== Proof.KBody0.lean ====
/-
  The fused kernel's stored value, cut into the network's stages: each definition is a stretch of the body's pure
  operations over the previous stages' vectors, and the stored value is their composition.
    xc1  five row-shifted copies of the input tile laid side by side (lanes 28·dy + w)
    c1   the first convolution: one matrix product with the stacked taps, plus the bias row
    p1   lane halves maximised, four zero rows appended, row pairs maximised, positive part     (2044 → 1024 rows)
    xa3, xb3, xe3  the pooled rows shifted by 0|1, by 2|3 (side by side) and by 4
    c3   the second convolution: three products summed, plus the bias row
    p3   the same pooling one level down                                                        (1020 → 512 rows)
    xc5  rows regrouped eight to an image, members 0…4 side by side
    f5   the third convolution: one product, bias, positive part;  d6, d7  the two dense layers
-/
import proofs.«108140_g2000503430470147_pallaspilot1_141_3_alg».proof.Proof.Gen.KernelIdeal.Skeleton
import Idealize.ShloMosaic.PureOps.Ideal

noncomputable section

namespace Cert.KernelIdeal.Body

open Idealize.ShloMosaic Cert.KernelIdeal Cert.KernelIdeal.Gen

def xc1 (v0 : FVec Ideal S2048x28 .bf16) : FVec Ideal S2044x140 .bf16 :=
  have v1 : FVec Ideal S2048x28 .bf16 := shapeCast S2048x28 v0 shapeCasts_S2048x28_S2048x28
  have v2 : FVec Ideal S2044x28 .bf16 := extractStridedSlice S2044x28 ![0, 0] v1 slices_S2048x28_o0_0_S2044x28
  have v3 : FVec Ideal S2044x28 .bf16 := extractStridedSlice S2044x28 ![1, 0] v1 slices_S2048x28_o1_0_S2044x28
  have v4 : FVec Ideal S2044x28 .bf16 := extractStridedSlice S2044x28 ![2, 0] v1 slices_S2048x28_o2_0_S2044x28
  have v5 : FVec Ideal S2044x28 .bf16 := extractStridedSlice S2044x28 ![3, 0] v1 slices_S2048x28_o3_0_S2044x28
  have v6 : FVec Ideal S2044x28 .bf16 := extractStridedSlice S2044x28 ![4, 0] v1 slices_S2048x28_o4_0_S2044x28
  have v7 : FVec Ideal S2044x140 .bf16 := concatenate S2044x140 1 [⟨S2044x28, v2⟩, ⟨S2044x28, v3⟩, ⟨S2044x28, v4⟩, ⟨S2044x28, v5⟩, ⟨S2044x28, v6⟩] concatenates_S2044x28_S2044x28_S2044x28_S2044x28_S2044x28_S2044x140_d1
  v7

def c1 (v7 : FVec Ideal S2044x140 .bf16) (v8 : FVec Ideal S140x256 .bf16) (v11 : FVec Ideal S1x256 .f32) : FVec Ideal S2044x256 .f32 :=
  have v9 : FVec Ideal S140x256 .bf16 := shapeCast S140x256 v8 shapeCasts_S140x256_S140x256
  have cst : FVec Ideal S2044x256 .f32 := constant S2044x256 .f32 0x00000000#32
  have v10 : FVec Ideal S2044x256 .f32 := matmul dot_S2044x140_S140x256_S2044x256_1_0_0_1_n_n none v7 v9 cst
  have v12 : FVec Ideal S2044x256 .f32 := broadcastTo S2044x256 v11 broadcasts_S1x256_S2044x256
  have v13 : FVec Ideal S2044x256 .f32 := addf v10 v12
  v13

def p1 (v13 : FVec Ideal S2044x256 .f32) : FVec Ideal S1024x128 .bf16 :=
  have v14 : FVec Ideal S2044x128 .f32 := extractStridedSlice S2044x128 ![0, 0] v13 slices_S2044x256_o0_0_S2044x128
  have v15 : FVec Ideal S2044x128 .f32 := extractStridedSlice S2044x128 ![0, 128] v13 slices_S2044x256_o0_128_S2044x128
  have v16 : FVec Ideal S2044x128 .f32 := maximumf v14 v15
  have cst_5 : Ideal .f32 := Scalar.ofBits .f32 0x00000000#32
  have v17 : FVec Ideal S4x128 .f32 := broadcast S4x128 cst_5
  have v18 : FVec Ideal S2048x128 .f32 := concatenate S2048x128 0 [⟨S2044x128, v16⟩, ⟨S4x128, v17⟩] concatenates_S2044x128_S4x128_S2048x128_d0
  have v19 : FVec Ideal S1024x2x128 .f32 := shapeCast S1024x2x128 v18 shapeCasts_S2048x128_S1024x2x128
  have v20 : FVec Ideal S1024x1x128 .f32 := extractStridedSlice S1024x1x128 ![0, 0, 0] v19 slices_S1024x2x128_o0_0_0_S1024x1x128
  have v21 : FVec Ideal S1024x128 .f32 := shapeCast S1024x128 v20 shapeCasts_S1024x1x128_S1024x128
  have v22 : FVec Ideal S1024x1x128 .f32 := extractStridedSlice S1024x1x128 ![0, 1, 0] v19 slices_S1024x2x128_o0_1_0_S1024x1x128
  have v23 : FVec Ideal S1024x128 .f32 := shapeCast S1024x128 v22 shapeCasts_S1024x1x128_S1024x128
  have v24 : FVec Ideal S1024x128 .f32 := maximumf v21 v23
  have cst_6 : Ideal .f32 := Scalar.ofBits .f32 0x00000000#32
  have v25 : FVec Ideal S1024x128 .f32 := broadcast S1024x128 cst_6
  have v26 : FVec Ideal S1024x128 .f32 := maximumf v24 v25
  have v27 : FVec Ideal S1024x128 .bf16 := truncf .bf16 v26 bitsLt_bf16_f32
  v27

def xa3 (v27 : FVec Ideal S1024x128 .bf16) : FVec Ideal S1020x256 .bf16 :=
  have v28 : FVec Ideal S1020x128 .bf16 := extractStridedSlice S1020x128 ![0, 0] v27 slices_S1024x128_o0_0_S1020x128
  have v29 : FVec Ideal S1020x128 .bf16 := extractStridedSlice S1020x128 ![1, 0] v27 slices_S1024x128_o1_0_S1020x128
  have v30 : FVec Ideal S1020x256 .bf16 := concatenate S1020x256 1 [⟨S1020x128, v28⟩, ⟨S1020x128, v29⟩] concatenates_S1020x128_S1020x128_S1020x256_d1
  v30

def xb3 (v27 : FVec Ideal S1024x128 .bf16) : FVec Ideal S1020x256 .bf16 :=
  have v31 : FVec Ideal S1020x128 .bf16 := extractStridedSlice S1020x128 ![2, 0] v27 slices_S1024x128_o2_0_S1020x128
  have v32 : FVec Ideal S1020x128 .bf16 := extractStridedSlice S1020x128 ![3, 0] v27 slices_S1024x128_o3_0_S1020x128
  have v33 : FVec Ideal S1020x256 .bf16 := concatenate S1020x256 1 [⟨S1020x128, v31⟩, ⟨S1020x128, v32⟩] concatenates_S1020x128_S1020x128_S1020x256_d1
  v33

def xe3 (v27 : FVec Ideal S1024x128 .bf16) : FVec Ideal S1020x128 .bf16 :=
  have v41 : FVec Ideal S1020x128 .bf16 := extractStridedSlice S1020x128 ![4, 0] v27 slices_S1024x128_o4_0_S1020x128
  v41

def c3 (v30 v33 : FVec Ideal S1020x256 .bf16) (v41 : FVec Ideal S1020x128 .bf16) (v34 v37 : FVec Ideal S256x256 .bf16)
    (v42 : FVec Ideal S128x256 .bf16) (v46 : FVec Ideal S1x256 .f32) : FVec Ideal S1020x256 .f32 :=
  have v35 : FVec Ideal S256x256 .bf16 := shapeCast S256x256 v34 shapeCasts_S256x256_S256x256
  have cst_9 : FVec Ideal S1020x256 .f32 := constant S1020x256 .f32 0x00000000#32
  have v36 : FVec Ideal S1020x256 .f32 := matmul dot_S1020x256_S256x256_S1020x256_1_0_0_1_n_n none v30 v35 cst_9
  have v38 : FVec Ideal S256x256 .bf16 := shapeCast S256x256 v37 shapeCasts_S256x256_S256x256
  have cst_12 : FVec Ideal S1020x256 .f32 := constant S1020x256 .f32 0x00000000#32
  have v39 : FVec Ideal S1020x256 .f32 := matmul dot_S1020x256_S256x256_S1020x256_1_0_0_1_n_n none v33 v38 cst_12
  have v40 : FVec Ideal S1020x256 .f32 := addf v36 v39
  have v43 : FVec Ideal S128x256 .bf16 := shapeCast S128x256 v42 shapeCasts_S128x256_S128x256
  have cst_15 : FVec Ideal S1020x256 .f32 := constant S1020x256 .f32 0x00000000#32
  have v44 : FVec Ideal S1020x256 .f32 := matmul dot_S1020x128_S128x256_S1020x256_1_0_0_1_n_n none v41 v43 cst_15
  have v45 : FVec Ideal S1020x256 .f32 := addf v40 v44
  have v47 : FVec Ideal S1020x256 .f32 := broadcastTo S1020x256 v46 broadcasts_S1x256_S1020x256
  have v48 : FVec Ideal S1020x256 .f32 := addf v45 v47
  v48

def p3 (v48 : FVec Ideal S1020x256 .f32) : FVec Ideal S512x128 .bf16 :=
  have v49 : FVec Ideal S1020x128 .f32 := extractStridedSlice S1020x128 ![0, 0] v48 slices_S1020x256_o0_0_S1020x128
  have v50 : FVec Ideal S1020x128 .f32 := extractStridedSlice S1020x128 ![0, 128] v48 slices_S1020x256_o0_128_S1020x128
  have v51 : FVec Ideal S1020x128 .f32 := maximumf v49 v50
  have cst_18 : Ideal .f32 := Scalar.ofBits .f32 0x00000000#32
  have v52 : FVec Ideal S4x128 .f32 := broadcast S4x128 cst_18
  have v53 : FVec Ideal S1024x128 .f32 := concatenate S1024x128 0 [⟨S1020x128, v51⟩, ⟨S4x128, v52⟩] concatenates_S1020x128_S4x128_S1024x128_d0
  have v54 : FVec Ideal S512x2x128 .f32 := shapeCast S512x2x128 v53 shapeCasts_S1024x128_S512x2x128
  have v55 : FVec Ideal S512x1x128 .f32 := extractStridedSlice S512x1x128 ![0, 0, 0] v54 slices_S512x2x128_o0_0_0_S512x1x128
  have v56 : FVec Ideal S512x128 .f32 := shapeCast S512x128 v55 shapeCasts_S512x1x128_S512x128
  have v57 : FVec Ideal S512x1x128 .f32 := extractStridedSlice S512x1x128 ![0, 1, 0] v54 slices_S512x2x128_o0_1_0_S512x1x128
  have v58 : FVec Ideal S512x128 .f32 := shapeCast S512x128 v57 shapeCasts_S512x1x128_S512x128
  have v59 : FVec Ideal S512x128 .f32 := maximumf v56 v58
  have cst_19 : Ideal .f32 := Scalar.ofBits .f32 0x00000000#32
  have v60 : FVec Ideal S512x128 .f32 := broadcast S512x128 cst_19
  have v61 : FVec Ideal S512x128 .f32 := maximumf v59 v60
  have v62 : FVec Ideal S512x128 .bf16 := truncf .bf16 v61 bitsLt_bf16_f32
  v62

def xc5 (v62 : FVec Ideal S512x128 .bf16) : FVec Ideal S64x640 .bf16 :=
  have v63 : FVec Ideal S64x8x128 .bf16 := shapeCast S64x8x128 v62 shapeCasts_S512x128_S64x8x128
  have v64 : FVec Ideal S64x1x128 .bf16 := extractStridedSlice S64x1x128 ![0, 0, 0] v63 slices_S64x8x128_o0_0_0_S64x1x128
  have v65 : FVec Ideal S64x128 .bf16 := shapeCast S64x128 v64 shapeCasts_S64x1x128_S64x128
  have v66 : FVec Ideal S64x1x128 .bf16 := extractStridedSlice S64x1x128 ![0, 1, 0] v63 slices_S64x8x128_o0_1_0_S64x1x128
  have v67 : FVec Ideal S64x128 .bf16 := shapeCast S64x128 v66 shapeCasts_S64x1x128_S64x128
  have v68 : FVec Ideal S64x1x128 .bf16 := extractStridedSlice S64x1x128 ![0, 2, 0] v63 slices_S64x8x128_o0_2_0_S64x1x128
  have v69 : FVec Ideal S64x128 .bf16 := shapeCast S64x128 v68 shapeCasts_S64x1x128_S64x128
  have v70 : FVec Ideal S64x1x128 .bf16 := extractStridedSlice S64x1x128 ![0, 3, 0] v63 slices_S64x8x128_o0_3_0_S64x1x128
  have v71 : FVec Ideal S64x128 .bf16 := shapeCast S64x128 v70 shapeCasts_S64x1x128_S64x128
  have v72 : FVec Ideal S64x1x128 .bf16 := extractStridedSlice S64x1x128 ![0, 4, 0] v63 slices_S64x8x128_o0_4_0_S64x1x128
  have v73 : FVec Ideal S64x128 .bf16 := shapeCast S64x128 v72 shapeCasts_S64x1x128_S64x128
  have v74 : FVec Ideal S64x640 .bf16 := concatenate S64x640 1 [⟨S64x128, v65⟩, ⟨S64x128, v67⟩, ⟨S64x128, v69⟩, ⟨S64x128, v71⟩, ⟨S64x128, v73⟩] concatenates_S64x128_S64x128_S64x128_S64x128_S64x128_S64x640_d1
  v74

def f5 (v74 : FVec Ideal S64x640 .bf16) (v75 : FVec Ideal S640x128 .bf16) (v78 : FVec Ideal S1x128 .f32) : FVec Ideal S64x128 .f32 :=
  have v76 : FVec Ideal S640x128 .bf16 := shapeCast S640x128 v75 shapeCasts_S640x128_S640x128
  have cst_22 : FVec Ideal S64x128 .f32 := constant S64x128 .f32 0x00000000#32
  have v77 : FVec Ideal S64x128 .f32 := matmul dot_S64x640_S640x128_S64x128_1_0_0_1_n_n none v74 v76 cst_22
  have v79 : FVec Ideal S64x128 .f32 := broadcastTo S64x128 v78 broadcasts_S1x128_S64x128
  have v80 : FVec Ideal S64x128 .f32 := addf v77 v79
  have cst_25 : Ideal .f32 := Scalar.ofBits .f32 0x00000000#32
  have v81 : FVec Ideal S64x128 .f32 := broadcast S64x128 cst_25
  have v82 : FVec Ideal S64x128 .f32 := maximumf v80 v81
  v82

def d6 (v82 : FVec Ideal S64x128 .f32) (v84 : FVec Ideal S128x128 .bf16) (v86 : FVec Ideal S1x128 .f32) : FVec Ideal S64x128 .f32 :=
  have v83 : FVec Ideal S64x128 .bf16 := truncf .bf16 v82 bitsLt_bf16_f32
  have cst_28 : FVec Ideal S64x128 .f32 := constant S64x128 .f32 0x00000000#32
  have v85 : FVec Ideal S64x128 .f32 := matmul dot_S64x128_S128x128_S64x128_1_0_0_1_n_n none v83 v84 cst_28
  have v87 : FVec Ideal S64x128 .f32 := broadcastTo S64x128 v86 broadcasts_S1x128_S64x128
  have v88 : FVec Ideal S64x128 .f32 := addf v85 v87
  have cst_31 : Ideal .f32 := Scalar.ofBits .f32 0x00000000#32
  have v89 : FVec Ideal S64x128 .f32 := broadcast S64x128 cst_31
  have v90 : FVec Ideal S64x128 .f32 := maximumf v88 v89
  v90

def d7 (v90 : FVec Ideal S64x128 .f32) (v92 : FVec Ideal S128x128 .bf16) (v94 : FVec Ideal S1x128 .f32) : FVec Ideal S64x128 .f32 :=
  have v91 : FVec Ideal S64x128 .bf16 := truncf .bf16 v90 bitsLt_bf16_f32
  have cst_34 : FVec Ideal S64x128 .f32 := constant S64x128 .f32 0x00000000#32
  have v93 : FVec Ideal S64x128 .f32 := matmul dot_S64x128_S128x128_S64x128_1_0_0_1_n_n none v91 v92 cst_34
  have v95 : FVec Ideal S64x128 .f32 := broadcastTo S64x128 v94 broadcasts_S1x128_S64x128
  have v96 : FVec Ideal S64x128 .f32 := addf v93 v95
  v96

/-- The stored value is the stages' composition. -/
theorem pay_eq (x0 : FVec Ideal S2048x28 .bf16) (x1 : FVec Ideal S140x256 .bf16) (x2 : FVec Ideal S1x256 .f32)
    (x3 x4 : FVec Ideal S256x256 .bf16) (x5 : FVec Ideal S128x256 .bf16) (x6 : FVec Ideal S1x256 .f32)
    (x7 : FVec Ideal S640x128 .bf16) (x8 : FVec Ideal S1x128 .f32) (x9 : FVec Ideal S128x128 .bf16) (x10 : FVec Ideal S1x128 .f32)
    (x11 : FVec Ideal S128x128 .bf16) (x12 : FVec Ideal S1x128 .f32) :
    k0_pay1 (F := Ideal) (k0_pay5 (k0_pay3 x0 x1 x2 x3 x4) (k0_pay4 x0 x1 x2) x5 x6 x7 x8 x9) x10 x11 x12
      = d7 (d6 (f5 (xc5 (p3 (c3 (xa3 (p1 (c1 (xc1 x0) x1 x2))) (xb3 (p1 (c1 (xc1 x0) x1 x2))) (xe3 (p1 (c1 (xc1 x0) x1 x2))) x3 x4 x5 x6))) x7 x8) x9 x10) x11 x12 := rfl

end Cert.KernelIdeal.Body

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.KBody1.lean ====
/-
  The first convolution and the first pooling of the fused kernel, read at natural-number coordinates.
-/
import proofs.«108140_g2000503430470147_pallaspilot1_141_3_alg».proof.Proof.KBody0
import proofs.«108140_g2000503430470147_pallaspilot1_141_3_alg».proof.Proof.Net
import proofs.«108140_g2000503430470147_pallaspilot1_141_3_alg».proof.Proof.LibNat2
import proofs.«108140_g2000503430470147_pallaspilot1_141_3_alg».proof.Proof.LibTileSums

noncomputable section

namespace Cert.KernelIdeal.Body

open Idealize.ShloMosaic Idealize.ShloMosaic.ValueIdx Cert.KernelIdeal Cert.KernelIdeal.Gen Cert.LeNet

/-- A row-shifted copy of the input tile. -/
theorem shift_at (x0 : FVec Ideal S2048x28 .bf16) (k : ℕ) (hk : k + 2044 ≤ 2048)
    (h : S2048x28.Slices ![k, 0] S2044x28) (ρ w : ℕ) (hρ : ρ < 2044) (hw : w < 28) :
    nat2 (extractStridedSlice S2044x28 ![k, 0] (shapeCast S2048x28 x0 shapeCasts_S2048x28_S2048x28) h) ρ w
      = nat2 x0 (ρ + k) w := by
  rw [nat2_slice k 0 _ h hk (by omega) ρ w hρ hw, nat2_shapeCast_self, Nat.zero_add, Nat.add_comm]

/-- Lane 28·dy + w of the side-by-side copies is lane w of the copy shifted by dy rows. -/
theorem xc1_at (x0 : FVec Ideal S2048x28 .bf16) (ρ : ℕ) (hρ : ρ < 2044) (dy : Fin 5) (w : Fin 28) :
    nat2 (xc1 x0) ρ (28 * dy.val + w.val) = nat2 x0 (ρ + dy.val) w.val := by
  have hw := w.isLt
  unfold xc1
  dsimp only
  match dy with
  | ⟨0, _⟩ =>
    exact (nat2_concat1 (w := 28) _ _ 0 (by show _ < 5; omega) _ rfl 0 rfl ρ w.val hρ hw (by omega)).trans
      (shift_at x0 0 (by omega) _ ρ w.val hρ hw)
  | ⟨1, _⟩ =>
    exact (nat2_concat1 (w := 28) _ _ 1 (by show _ < 5; omega) _ rfl 28 rfl ρ w.val hρ hw (by omega)).trans
      (shift_at x0 1 (by omega) _ ρ w.val hρ hw)
  | ⟨2, _⟩ =>
    exact (nat2_concat1 (w := 28) _ _ 2 (by show _ < 5; omega) _ rfl 56 rfl ρ w.val hρ hw (by omega)).trans
      (shift_at x0 2 (by omega) _ ρ w.val hρ hw)
  | ⟨3, _⟩ =>
    exact (nat2_concat1 (w := 28) _ _ 3 (by show _ < 5; omega) _ rfl 84 rfl ρ w.val hρ hw (by omega)).trans
      (shift_at x0 3 (by omega) _ ρ w.val hρ hw)
  | ⟨4, _⟩ =>
    exact (nat2_concat1 (w := 28) _ _ 4 (by show _ < 5; omega) _ rfl 112 rfl ρ w.val hρ hw (by omega)).trans
      (shift_at x0 4 (by omega) _ ρ w.val hρ hw)

/-- The first convolution at row ρ < 2044 of the tile: the five taps' products are one product over 140 lanes. -/
theorem c1_at (W : Wts) (X : ℕ → ℕ → EReal) (v7 : FVec Ideal S2044x140 .bf16) (x1 : FVec Ideal S140x256 .bf16)
    (x2 : FVec Ideal S1x256 .f32) (ρ n : ℕ) (hρ : ρ < 2044) (hn : n < 256)
    (h7 : ∀ (dy : Fin 5) (w : Fin 28), nat2 v7 ρ (28 * dy.val + w.val) = X (ρ + dy.val) w.val)
    (h1 : ∀ dy < 5, ∀ w < 28, ∀ n < 256, nat2 x1 (28 * dy + w) n = W.T1 dy (w + 2) n)
    (h2 : ∀ n < 256, nat2 x2 0 n = W.B1 n) :
    nat2 (c1 v7 x1 x2) ρ n = conv1 W X ρ n := by
  unfold c1 conv1
  dsimp only
  rw [nat2_addf, nat2_bcastRow _ _ ρ n hρ hn, h2 n hn]
  refine congrArg (· + W.B1 n) ?_
  refine (nat2_matmul 2044 140 256 none v7 _ ρ n hρ hn).trans ?_
  refine (Cert.LibTileSums.sum_blocks 5 28
    (fun k => nat2 v7 ρ k * nat2 (shapeCast S140x256 x1 shapeCasts_S140x256_S140x256) k n)).trans ?_
  refine Finset.sum_congr rfl fun dy _ => Finset.sum_congr rfl fun w _ => ?_
  rw [h7 dy w, nat2_shapeCast_self, h1 dy.val dy.isLt w.val w.isLt n hn]

/-- The first pooling at pooled row j < 1022: the maximum over lanes q | q+128 and rows 2j | 2j+1, and the positive part. -/
theorem p1_at (v13 : FVec Ideal S2044x256 .f32) (C : ℕ → ℕ → EReal)
    (hC : ∀ ρ < 2044, ∀ n < 256, nat2 v13 ρ n = C ρ n) (j q : ℕ) (hj : j < 1022) (hq : q < 128) :
    nat2 (p1 v13) j q
      = max (max (max (C (2 * j) q) (C (2 * j) (q + 128))) (max (C (2 * j + 1) q) (C (2 * j + 1) (q + 128)))) 0 := by
  unfold p1
  dsimp only
  rw [nat2_truncf, nat2_maximumf, nat2_zero_splat, nat2_maximumf,
    nat2_rowGroup 0 (by omega) (by norm_num) _ _ _ _ j q (by omega) hq,
    nat2_rowGroup 1 (by omega) (by norm_num) _ _ _ _ j q (by omega) hq,
    nat2_concat0_left _ _ _ (2 * j + 0) q (by omega) (by omega) hq,
    nat2_concat0_left _ _ _ (2 * j + 1) q (by omega) (by omega) hq,
    nat2_maximumf, nat2_maximumf,
    nat2_slice 0 0 _ _ (by omega) (by omega) (2 * j + 0) q (by omega) hq,
    nat2_slice 0 128 _ _ (by omega) (by omega) (2 * j + 0) q (by omega) hq,
    nat2_slice 0 0 _ _ (by omega) (by omega) (2 * j + 1) q (by omega) hq,
    nat2_slice 0 128 _ _ (by omega) (by omega) (2 * j + 1) q (by omega) hq,
    hC _ (by omega) _ (by omega), hC _ (by omega) _ (by omega), hC _ (by omega) _ (by omega), hC _ (by omega) _ (by omega)]
  simp only [Nat.zero_add, Nat.add_zero, Nat.add_comm 128 q]

end Cert.KernelIdeal.Body

end
-- ==== Proof.KBody2.lean ====
/-
  The second convolution and the second pooling of the fused kernel, read at natural-number coordinates.
-/
import proofs.«108140_g2000503430470147_pallaspilot1_141_3_alg».proof.Proof.KBody0
import proofs.«108140_g2000503430470147_pallaspilot1_141_3_alg».proof.Proof.Net
import proofs.«108140_g2000503430470147_pallaspilot1_141_3_alg».proof.Proof.LibNat2
import proofs.«108140_g2000503430470147_pallaspilot1_141_3_alg».proof.Proof.LibTileSums

noncomputable section

namespace Cert.KernelIdeal.Body

open Idealize.ShloMosaic Idealize.ShloMosaic.ValueIdx Cert.KernelIdeal Cert.KernelIdeal.Gen Cert.LeNet

/-- A sum over 256 lanes is the sum over its two halves. -/
theorem sum_two_halves (g : ℕ → EReal) :
    ∑ k : Fin 256, g k.val = ∑ q : Fin 128, g (128 * 0 + q.val) + ∑ q : Fin 128, g (128 * 1 + q.val) := by
  refine (Cert.LibTileSums.sum_blocks 2 128 g).trans ?_
  rw [Fin.sum_univ_two]
  rfl

/-- A sum over the five taps, written out. -/
theorem sum_five (f : ℕ → EReal) : ∑ dy : Fin 5, f dy.val = f 0 + f 1 + f 2 + f 3 + f 4 := by
  rw [Fin.sum_univ_five]
  rfl

theorem mm256 (l : FVec Ideal S1020x256 .bf16) (r : FVec Ideal S256x256 .bf16) (j n : ℕ) (hj : j < 1020) (hn : n < 256) :
    nat2 (matmul dot_S1020x256_S256x256_S1020x256_1_0_0_1_n_n none l r (constant S1020x256 .f32 0x00000000#32)) j n
      = ∑ k : Fin 256, nat2 l j k.val * nat2 r k.val n :=
  nat2_matmul 1020 256 256 none l r j n hj hn

theorem mm128 (l : FVec Ideal S1020x128 .bf16) (r : FVec Ideal S128x256 .bf16) (j n : ℕ) (hj : j < 1020) (hn : n < 256) :
    nat2 (matmul dot_S1020x128_S128x256_S1020x256_1_0_0_1_n_n none l r (constant S1020x256 .f32 0x00000000#32)) j n
      = ∑ k : Fin 128, nat2 l j k.val * nat2 r k.val n :=
  nat2_matmul 1020 128 256 none l r j n hj hn

/-- A row-shifted copy of the pooled rows. -/
theorem dshift_at (v27 : FVec Ideal S1024x128 .bf16) (k : ℕ) (hk : k + 1020 ≤ 1024)
    (h : S1024x128.Slices ![k, 0] S1020x128) (j q : ℕ) (hj : j < 1020) (hq : q < 128) :
    nat2 (extractStridedSlice S1020x128 ![k, 0] v27 h) j q = nat2 v27 (j + k) q := by
  rw [nat2_slice k 0 _ h hk (by omega) j q hj hq, Nat.zero_add, Nat.add_comm]

theorem xa3_at (v27 : FVec Ideal S1024x128 .bf16) (j : ℕ) (hj : j < 1020) (d q : ℕ) (hd : d < 2) (hq : q < 128) :
    nat2 (xa3 v27) j (128 * d + q) = nat2 v27 (j + d) q := by
  unfold xa3
  dsimp only
  match d, hd with
  | 0, _ =>
    exact (nat2_concat1 (w := 128) _ _ 0 (by show _ < 2; omega) _ rfl 0 rfl j q hj hq (by omega)).trans
      (dshift_at v27 0 (by omega) _ j q hj hq)
  | 1, _ =>
    exact (nat2_concat1 (w := 128) _ _ 1 (by show _ < 2; omega) _ rfl 128 rfl j q hj hq (by omega)).trans
      (dshift_at v27 1 (by omega) _ j q hj hq)

theorem xb3_at (v27 : FVec Ideal S1024x128 .bf16) (j : ℕ) (hj : j < 1020) (d q : ℕ) (hd : d < 2) (hq : q < 128) :
    nat2 (xb3 v27) j (128 * d + q) = nat2 v27 (j + (2 + d)) q := by
  unfold xb3
  dsimp only
  match d, hd with
  | 0, _ =>
    exact (nat2_concat1 (w := 128) _ _ 0 (by show _ < 2; omega) _ rfl 0 rfl j q hj hq (by omega)).trans
      (dshift_at v27 2 (by omega) _ j q hj hq)
  | 1, _ =>
    exact (nat2_concat1 (w := 128) _ _ 1 (by show _ < 2; omega) _ rfl 128 rfl j q hj hq (by omega)).trans
      (dshift_at v27 3 (by omega) _ j q hj hq)

theorem xe3_at (v27 : FVec Ideal S1024x128 .bf16) (j q : ℕ) (hj : j < 1020) (hq : q < 128) :
    nat2 (xe3 v27) j q = nat2 v27 (j + 4) q := by
  unfold xe3
  dsimp only
  exact dshift_at v27 4 (by omega) _ j q hj hq

/-- The second convolution at pooled row j < 1020 of the tile: taps 0|1 and 2|3 each one product over 256 lanes, tap 4 one
    over 128, summed — the sum over the five taps. -/
theorem c3_at (W : Wts) (P : ℕ → ℕ → EReal) (v30 v33 : FVec Ideal S1020x256 .bf16) (v41 : FVec Ideal S1020x128 .bf16)
    (x3 x4 : FVec Ideal S256x256 .bf16) (x5 : FVec Ideal S128x256 .bf16) (x6 : FVec Ideal S1x256 .f32)
    (j n : ℕ) (hj : j < 1020) (hn : n < 256)
    (ha : ∀ d < 2, ∀ q < 128, nat2 v30 j (128 * d + q) = P (j + d) q)
    (hb : ∀ d < 2, ∀ q < 128, nat2 v33 j (128 * d + q) = P (j + (2 + d)) q)
    (he : ∀ q < 128, nat2 v41 j q = P (j + 4) q)
    (h3 : ∀ dy < 2, ∀ q < 128, ∀ n < 256, nat2 x3 (128 * dy + q) n = W.T3 dy q n)
    (h4 : ∀ dy < 2, ∀ q < 128, ∀ n < 256, nat2 x4 (128 * dy + q) n = W.T3 (2 + dy) q n)
    (h5 : ∀ q < 128, ∀ n < 256, nat2 x5 q n = W.T3 4 q n)
    (h6 : ∀ n < 256, nat2 x6 0 n = W.B3 n) :
    nat2 (c3 v30 v33 v41 x3 x4 x5 x6) j n
      = (∑ dy : Fin 5, ∑ q : Fin 128, P (j + dy.val) q.val * W.T3 dy.val q.val n) + W.B3 n := by
  unfold c3
  dsimp only
  rw [nat2_addf, nat2_bcastRow _ _ j n hj hn, h6 n hn, nat2_addf, nat2_addf, mm256 _ _ j n hj hn, mm256 _ _ j n hj hn,
    mm128 _ _ j n hj hn]
  refine congrArg (· + W.B3 n) ?_
  rw [sum_two_halves (fun k => nat2 v30 j k * nat2 (shapeCast S256x256 x3 shapeCasts_S256x256_S256x256) k n),
    sum_two_halves (fun k => nat2 v33 j k * nat2 (shapeCast S256x256 x4 shapeCasts_S256x256_S256x256) k n),
    sum_five (fun d => ∑ q : Fin 128, P (j + d) q.val * W.T3 d q.val n)]
  have e0 : (∑ q : Fin 128, nat2 v30 j (128 * 0 + q.val) * nat2 (shapeCast S256x256 x3 shapeCasts_S256x256_S256x256) (128 * 0 + q.val) n)
      = ∑ q : Fin 128, P (j + 0) q.val * W.T3 0 q.val n :=
    Finset.sum_congr rfl fun q _ => by rw [ha 0 (by omega) q.val q.isLt, nat2_shapeCast_self, h3 0 (by omega) q.val q.isLt n hn]
  have e1 : (∑ q : Fin 128, nat2 v30 j (128 * 1 + q.val) * nat2 (shapeCast S256x256 x3 shapeCasts_S256x256_S256x256) (128 * 1 + q.val) n)
      = ∑ q : Fin 128, P (j + 1) q.val * W.T3 1 q.val n :=
    Finset.sum_congr rfl fun q _ => by rw [ha 1 (by omega) q.val q.isLt, nat2_shapeCast_self, h3 1 (by omega) q.val q.isLt n hn]
  have e2 : (∑ q : Fin 128, nat2 v33 j (128 * 0 + q.val) * nat2 (shapeCast S256x256 x4 shapeCasts_S256x256_S256x256) (128 * 0 + q.val) n)
      = ∑ q : Fin 128, P (j + 2) q.val * W.T3 2 q.val n :=
    Finset.sum_congr rfl fun q _ => by
      rw [hb 0 (by omega) q.val q.isLt, nat2_shapeCast_self, h4 0 (by omega) q.val q.isLt n hn]
  have e3 : (∑ q : Fin 128, nat2 v33 j (128 * 1 + q.val) * nat2 (shapeCast S256x256 x4 shapeCasts_S256x256_S256x256) (128 * 1 + q.val) n)
      = ∑ q : Fin 128, P (j + 3) q.val * W.T3 3 q.val n :=
    Finset.sum_congr rfl fun q _ => by
      rw [hb 1 (by omega) q.val q.isLt, nat2_shapeCast_self, h4 1 (by omega) q.val q.isLt n hn]
  have e4 : (∑ q : Fin 128, nat2 v41 j q.val * nat2 (shapeCast S128x256 x5 shapeCasts_S128x256_S128x256) q.val n)
      = ∑ q : Fin 128, P (j + 4) q.val * W.T3 4 q.val n :=
    Finset.sum_congr rfl fun q _ => by rw [he q.val q.isLt, nat2_shapeCast_self, h5 q.val q.isLt n hn]
  rw [e0, e1, e2, e3, e4, ← add_assoc]

/-- The second pooling at twice-pooled row u < 510; it reads the convolution's rows 2u and 2u+1 only. -/
theorem p3_at (v48 : FVec Ideal S1020x256 .f32) (C : ℕ → ℕ → EReal)
    (u q : ℕ) (hu : u < 510) (hq : q < 128) (hC : ∀ j < 2 * u + 2, ∀ n < 256, nat2 v48 j n = C j n) :
    nat2 (p3 v48) u q
      = max (max (max (C (2 * u) q) (C (2 * u) (q + 128))) (max (C (2 * u + 1) q) (C (2 * u + 1) (q + 128)))) 0 := by
  unfold p3
  dsimp only
  rw [nat2_truncf, nat2_maximumf, nat2_zero_splat, nat2_maximumf,
    nat2_rowGroup 0 (by omega) (by norm_num) _ _ _ _ u q (by omega) hq,
    nat2_rowGroup 1 (by omega) (by norm_num) _ _ _ _ u q (by omega) hq,
    nat2_concat0_left _ _ _ (2 * u + 0) q (by omega) (by omega) hq,
    nat2_concat0_left _ _ _ (2 * u + 1) q (by omega) (by omega) hq,
    nat2_maximumf, nat2_maximumf,
    nat2_slice 0 0 _ _ (by omega) (by omega) (2 * u + 0) q (by omega) hq,
    nat2_slice 0 128 _ _ (by omega) (by omega) (2 * u + 0) q (by omega) hq,
    nat2_slice 0 0 _ _ (by omega) (by omega) (2 * u + 1) q (by omega) hq,
    nat2_slice 0 128 _ _ (by omega) (by omega) (2 * u + 1) q (by omega) hq,
    hC _ (by omega) _ (by omega), hC _ (by omega) _ (by omega), hC _ (by omega) _ (by omega), hC _ (by omega) _ (by omega)]
  simp only [Nat.zero_add, Nat.add_zero, Nat.add_comm 128 q]

end Cert.KernelIdeal.Body

end
-- ==== Proof.KBody3.lean ====
/-
  The third convolution and the two dense layers of the fused kernel, read at natural-number coordinates.
-/
import proofs.«108140_g2000503430470147_pallaspilot1_141_3_alg».proof.Proof.KBody0
import proofs.«108140_g2000503430470147_pallaspilot1_141_3_alg».proof.Proof.Net
import proofs.«108140_g2000503430470147_pallaspilot1_141_3_alg».proof.Proof.LibNat2
import proofs.«108140_g2000503430470147_pallaspilot1_141_3_alg».proof.Proof.LibTileSums

noncomputable section

namespace Cert.KernelIdeal.Body

open Idealize.ShloMosaic Idealize.ShloMosaic.ValueIdx Cert.KernelIdeal Cert.KernelIdeal.Gen Cert.LeNet

/-- Lane 128·dy + q of image bl's side-by-side rows is lane q of its row dy: row 8·bl + dy of the twice-pooled rows. -/
theorem xc5_at (v62 : FVec Ideal S512x128 .bf16) (bl : ℕ) (hbl : bl < 64) (dy q : ℕ) (hdy : dy < 5) (hq : q < 128) :
    nat2 (xc5 v62) bl (128 * dy + q) = nat2 v62 (8 * bl + dy) q := by
  unfold xc5
  dsimp only
  match dy, hdy with
  | 0, _ =>
    exact (nat2_concat1 (w := 128) _ _ 0 (by show _ < 5; omega) _ rfl 0 rfl bl q hbl hq (by omega)).trans
      (nat2_rowGroup 0 (by omega) (by norm_num) v62 _ _ _ bl q hbl hq)
  | 1, _ =>
    exact (nat2_concat1 (w := 128) _ _ 1 (by show _ < 5; omega) _ rfl 128 rfl bl q hbl hq (by omega)).trans
      (nat2_rowGroup 1 (by omega) (by norm_num) v62 _ _ _ bl q hbl hq)
  | 2, _ =>
    exact (nat2_concat1 (w := 128) _ _ 2 (by show _ < 5; omega) _ rfl 256 rfl bl q hbl hq (by omega)).trans
      (nat2_rowGroup 2 (by omega) (by norm_num) v62 _ _ _ bl q hbl hq)
  | 3, _ =>
    exact (nat2_concat1 (w := 128) _ _ 3 (by show _ < 5; omega) _ rfl 384 rfl bl q hbl hq (by omega)).trans
      (nat2_rowGroup 3 (by omega) (by norm_num) v62 _ _ _ bl q hbl hq)
  | 4, _ =>
    exact (nat2_concat1 (w := 128) _ _ 4 (by show _ < 5; omega) _ rfl 512 rfl bl q hbl hq (by omega)).trans
      (nat2_rowGroup 4 (by omega) (by norm_num) v62 _ _ _ bl q hbl hq)

/-- The third convolution for image bl of the tile: one product over 640 lanes is the sum over the five taps. -/
theorem f5_at (W : Wts) (Q : ℕ → ℕ → EReal) (v74 : FVec Ideal S64x640 .bf16) (x7 : FVec Ideal S640x128 .bf16)
    (x8 : FVec Ideal S1x128 .f32) (bl n : ℕ) (hbl : bl < 64) (hn : n < 128)
    (h74 : ∀ dy < 5, ∀ q < 128, nat2 v74 bl (128 * dy + q) = Q (8 * bl + dy) q)
    (h7 : ∀ dy < 5, ∀ q < 128, ∀ n < 128, nat2 x7 (128 * dy + q) n = W.T5 dy q n)
    (h8 : ∀ n < 128, nat2 x8 0 n = W.B5 n) :
    nat2 (f5 v74 x7 x8) bl n
      = max ((∑ dy : Fin 5, ∑ q : Fin 128, Q (8 * bl + dy.val) q.val * W.T5 dy.val q.val n) + W.B5 n) 0 := by
  unfold f5
  dsimp only
  rw [nat2_maximumf, nat2_zero_splat, nat2_addf, nat2_bcastRow _ _ bl n hbl hn, h8 n hn]
  refine congrArg (fun z => max (z + W.B5 n) 0) ?_
  refine (nat2_matmul 64 640 128 none v74 _ bl n hbl hn).trans ?_
  refine (Cert.LibTileSums.sum_blocks 5 128
    (fun k => nat2 v74 bl k * nat2 (shapeCast S640x128 x7 shapeCasts_S640x128_S640x128) k n)).trans ?_
  refine Finset.sum_congr rfl fun dy _ => Finset.sum_congr rfl fun q _ => ?_
  rw [h74 dy.val dy.isLt q.val q.isLt, nat2_shapeCast_self, h7 dy.val dy.isLt q.val q.isLt n hn]

/-- The first dense layer. -/
theorem d6_at (W : Wts) (Fm : ℕ → EReal) (v82 : FVec Ideal S64x128 .f32) (x9 : FVec Ideal S128x128 .bf16)
    (x10 : FVec Ideal S1x128 .f32) (bl n : ℕ) (hbl : bl < 64) (hn : n < 128)
    (h82 : ∀ k < 128, nat2 v82 bl k = Fm k)
    (h9 : ∀ k < 128, ∀ n < 128, nat2 x9 k n = W.W6 k n)
    (h10 : ∀ n < 128, nat2 x10 0 n = W.B6 n) :
    nat2 (d6 v82 x9 x10) bl n = max ((∑ k : Fin 128, Fm k.val * W.W6 k.val n) + W.B6 n) 0 := by
  unfold d6
  dsimp only
  rw [nat2_maximumf, nat2_zero_splat, nat2_addf, nat2_bcastRow _ _ bl n hbl hn, h10 n hn]
  refine congrArg (fun z => max (z + W.B6 n) 0) ?_
  refine (nat2_matmul 64 128 128 none _ x9 bl n hbl hn).trans ?_
  refine Finset.sum_congr rfl fun k _ => ?_
  rw [nat2_truncf, h82 k.val k.isLt, h9 k.val k.isLt n hn]

/-- The output layer. -/
theorem d7_at (W : Wts) (Hm : ℕ → EReal) (v90 : FVec Ideal S64x128 .f32) (x11 : FVec Ideal S128x128 .bf16)
    (x12 : FVec Ideal S1x128 .f32) (bl n : ℕ) (hbl : bl < 64) (hn : n < 128)
    (h90 : ∀ k < 128, nat2 v90 bl k = Hm k)
    (h11 : ∀ k < 128, ∀ n < 128, nat2 x11 k n = W.WO k n)
    (h12 : ∀ n < 128, nat2 x12 0 n = W.BO n) :
    nat2 (d7 v90 x11 x12) bl n = (∑ k : Fin 128, Hm k.val * W.WO k.val n) + W.BO n := by
  unfold d7
  dsimp only
  rw [nat2_addf, nat2_bcastRow _ _ bl n hbl hn, h12 n hn]
  refine congrArg (· + W.BO n) ?_
  refine (nat2_matmul 64 128 128 none _ x11 bl n hbl hn).trans ?_
  refine Finset.sum_congr rfl fun k _ => ?_
  rw [nat2_truncf, h90 k.val k.isLt, h11 k.val k.isLt n hn]

end Cert.KernelIdeal.Body

end
-- ==== Proof.KBody.lean ====
/-
  One grid point of the fused kernel, as a value: the 64×128 block it stores is the network's output for the 64 images whose
  2048 flat input rows the point was given.

  The tile's rows are processed as one long strip, so a stage's rows near the end of the strip (and, after the zero rows
  appended before each pooling, the last pooled rows) are not rows of the network; but image bl's output reads twice-pooled
  rows 8·bl … 8·bl+4 ≤ 508, those read convolution rows ≤ 1017, those pooled rows ≤ 1021, those convolution rows ≤ 2043,
  those input rows ≤ 2047: every row the 64 outputs depend on is a true row of its stage.
-/
import proofs.«108140_g2000503430470147_pallaspilot1_141_3_alg».proof.Proof.Gen.KernelIdeal.Frame
import proofs.«108140_g2000503430470147_pallaspilot1_141_3_alg».proof.Proof.Net
import proofs.«108140_g2000503430470147_pallaspilot1_141_3_alg».proof.Proof.KBody1
import proofs.«108140_g2000503430470147_pallaspilot1_141_3_alg».proof.Proof.KBody2
import proofs.«108140_g2000503430470147_pallaspilot1_141_3_alg».proof.Proof.KBody3
import Idealize.ShloMosaic.Lib.Pipeline.Value

noncomputable section

namespace Cert.KernelIdeal.Body

open Idealize.ShloMosaic Idealize.ShloMosaic.ValueIdx Cert.KernelIdeal Cert.KernelIdeal.Gen Cert.LeNet

theorem hz2 : (![0, 0] : Fin 2 → Nat) = fun _ => 0 := funext fun a => by fin_cases a <;> rfl

/-- The composed stages at (bl, n): the network's output n for image bl of the tile. -/
theorem stages_eq (W : Wts) (x0 : FVec Ideal S2048x28 .bf16) (x1 : FVec Ideal S140x256 .bf16) (x2 : FVec Ideal S1x256 .f32)
    (x3 x4 : FVec Ideal S256x256 .bf16) (x5 : FVec Ideal S128x256 .bf16) (x6 : FVec Ideal S1x256 .f32)
    (x7 : FVec Ideal S640x128 .bf16) (x8 : FVec Ideal S1x128 .f32) (x9 : FVec Ideal S128x128 .bf16) (x10 : FVec Ideal S1x128 .f32)
    (x11 : FVec Ideal S128x128 .bf16) (x12 : FVec Ideal S1x128 .f32)
    (h1 : ∀ dy < 5, ∀ w < 28, ∀ n < 256, nat2 x1 (28 * dy + w) n = W.T1 dy (w + 2) n)
    (h2 : ∀ n < 256, nat2 x2 0 n = W.B1 n)
    (h3 : ∀ dy < 2, ∀ q < 128, ∀ n < 256, nat2 x3 (128 * dy + q) n = W.T3 dy q n)
    (h4 : ∀ dy < 2, ∀ q < 128, ∀ n < 256, nat2 x4 (128 * dy + q) n = W.T3 (2 + dy) q n)
    (h5 : ∀ q < 128, ∀ n < 256, nat2 x5 q n = W.T3 4 q n)
    (h6 : ∀ n < 256, nat2 x6 0 n = W.B3 n)
    (h7 : ∀ dy < 5, ∀ q < 128, ∀ n < 128, nat2 x7 (128 * dy + q) n = W.T5 dy q n)
    (h8 : ∀ n < 128, nat2 x8 0 n = W.B5 n)
    (h9 : ∀ k < 128, ∀ n < 128, nat2 x9 k n = W.W6 k n)
    (h10 : ∀ n < 128, nat2 x10 0 n = W.B6 n)
    (h11 : ∀ k < 128, ∀ n < 128, nat2 x11 k n = W.WO k n)
    (h12 : ∀ n < 128, nat2 x12 0 n = W.BO n)
    (bl n : ℕ) (hbl : bl < 64) (hn : n < 128) :
    nat2 (d7 (d6 (f5 (xc5 (p3 (c3 (xa3 (p1 (c1 (xc1 x0) x1 x2))) (xb3 (p1 (c1 (xc1 x0) x1 x2))) (xe3 (p1 (c1 (xc1 x0) x1 x2)))
      x3 x4 x5 x6))) x7 x8) x9 x10) x11 x12) bl n = logit W (nat2 x0) bl n := by
  -- the first convolution, every row of the strip that has its five input rows
  have C1 : ∀ ρ < 2044, ∀ m < 256, nat2 (c1 (xc1 x0) x1 x2) ρ m = conv1 W (nat2 x0) ρ m := fun ρ hρ m hm =>
    c1_at W (nat2 x0) (xc1 x0) x1 x2 ρ m hρ hm (fun dy w => xc1_at x0 ρ hρ dy w) h1 h2
  -- the first pooling, every pooled row made of two such rows
  have P1 : ∀ j < 1022, ∀ q < 128, nat2 (p1 (c1 (xc1 x0) x1 x2)) j q = pool1 W (nat2 x0) j q := fun j hj q hq =>
    p1_at _ (conv1 W (nat2 x0)) C1 j q hj hq
  generalize p1 (c1 (xc1 x0) x1 x2) = V27 at P1 ⊢
  -- the second convolution, every row whose five pooled rows are true ones
  have C3 : ∀ j < 1018, ∀ m < 256, nat2 (c3 (xa3 V27) (xb3 V27) (xe3 V27) x3 x4 x5 x6) j m = conv3 W (nat2 x0) j m :=
    fun j hj m hm => by
      rw [c3_at W (nat2 V27) (xa3 V27) (xb3 V27) (xe3 V27) x3 x4 x5 x6 j m (by omega) hm
        (fun d hd q hq => xa3_at V27 j (by omega) d q hd hq) (fun d hd q hq => xb3_at V27 j (by omega) d q hd hq)
        (fun q hq => xe3_at V27 j q (by omega) hq) h3 h4 h5 h6]
      unfold conv3
      refine congrArg (· + W.B3 m) (Finset.sum_congr rfl fun dy _ => Finset.sum_congr rfl fun q _ => ?_)
      rw [P1 (j + dy.val) (by have := dy.isLt; omega) q.val q.isLt]
  generalize c3 (xa3 V27) (xb3 V27) (xe3 V27) x3 x4 x5 x6 = V48 at C3 ⊢
  -- the second pooling
  have P3 : ∀ u < 509, ∀ q < 128, nat2 (p3 V48) u q = pool3 W (nat2 x0) u q := fun u hu q hq =>
    p3_at V48 (conv3 W (nat2 x0)) u q (by omega) hq (fun j hj m hm => C3 j (by omega) m hm)
  generalize p3 V48 = V62 at P3 ⊢
  -- the third convolution: image bl reads rows 8·bl … 8·bl + 4 ≤ 508
  have F5 : ∀ m < 128, nat2 (f5 (xc5 V62) x7 x8) bl m = feat W (nat2 x0) bl m := fun m hm =>
    f5_at W (pool3 W (nat2 x0)) (xc5 V62) x7 x8 bl m hbl hm
      (fun dy hdy q hq => (xc5_at V62 bl hbl dy q hdy hq).trans (P3 (8 * bl + dy) (by omega) q hq)) h7 h8
  generalize f5 (xc5 V62) x7 x8 = V82 at F5 ⊢
  have D6 : ∀ m < 128, nat2 (d6 V82 x9 x10) bl m = hid W (nat2 x0) bl m := fun m hm =>
    d6_at W (feat W (nat2 x0) bl) V82 x9 x10 bl m hbl hm F5 h9 h10
  generalize d6 V82 x9 x10 = V90 at D6 ⊢
  exact d7_at W (hid W (nat2 x0) bl) V90 x11 x12 bl n hbl hn D6 h11 h12

/-- What a grid point stores, entry (bl, n): the network's output n for image bl of the point's tile — given that the weight
    blocks are the network's weights in the kernel's packing (the taps of a convolution stacked along the contraction axis). -/
theorem out_eq (W : Wts) (x0 : Vec Ideal S2048x28 .bf16) (x1 : Vec Ideal S140x256 .bf16) (x2 : Vec Ideal S1x256 .f32)
    (x3 x4 : Vec Ideal S256x256 .bf16) (x5 : Vec Ideal S128x256 .bf16) (x6 : Vec Ideal S1x256 .f32)
    (x7 : Vec Ideal S640x128 .bf16) (x8 : Vec Ideal S1x128 .f32) (x9 : Vec Ideal S128x128 .bf16) (x10 : Vec Ideal S1x128 .f32)
    (x11 : Vec Ideal S128x128 .bf16) (x12 : Vec Ideal S1x128 .f32)
    (h1 : ∀ dy < 5, ∀ w < 28, ∀ n < 256, nat2 x1 (28 * dy + w) n = W.T1 dy (w + 2) n)
    (h2 : ∀ n < 256, nat2 x2 0 n = W.B1 n)
    (h3 : ∀ dy < 2, ∀ q < 128, ∀ n < 256, nat2 x3 (128 * dy + q) n = W.T3 dy q n)
    (h4 : ∀ dy < 2, ∀ q < 128, ∀ n < 256, nat2 x4 (128 * dy + q) n = W.T3 (2 + dy) q n)
    (h5 : ∀ q < 128, ∀ n < 256, nat2 x5 q n = W.T3 4 q n)
    (h6 : ∀ n < 256, nat2 x6 0 n = W.B3 n)
    (h7 : ∀ dy < 5, ∀ q < 128, ∀ n < 128, nat2 x7 (128 * dy + q) n = W.T5 dy q n)
    (h8 : ∀ n < 128, nat2 x8 0 n = W.B5 n)
    (h9 : ∀ k < 128, ∀ n < 128, nat2 x9 k n = W.W6 k n)
    (h10 : ∀ n < 128, nat2 x10 0 n = W.B6 n)
    (h11 : ∀ k < 128, ∀ n < 128, nat2 x11 k n = W.WO k n)
    (h12 : ∀ n < 128, nat2 x12 0 n = W.BO n)
    (bl : Fin 64) (n : Fin 128) :
    Gen.out0_13 (F := Ideal) x0 x1 x2 x3 x4 x5 x6 x7 x8 x9 x10 x11 x12 (ix2 bl n) = logit W (nat2 x0) bl.val n.val := by
  unfold Gen.out0_13
  rw [View.canon_unit_zero hz2]
  simp only [View.ld_unit_zero (S := S2048x28) hz2, View.ld_unit_zero (S := S140x256) hz2, View.ld_unit_zero (S := S1x256) hz2,
    View.ld_unit_zero (S := S256x256) hz2, View.ld_unit_zero (S := S128x256) hz2, View.ld_unit_zero (S := S640x128) hz2,
    View.ld_unit_zero (S := S1x128) hz2, View.ld_unit_zero (S := S128x128) hz2]
  rw [pay_eq x0 x1 x2 x3 x4 x5 x6 x7 x8 x9 x10 x11 x12]
  refine (nat2_eq _ bl n).symm.trans ?_
  exact stages_eq W x0 x1 x2 x3 x4 x5 x6 x7 x8 x9 x10 x11 x12 h1 h2 h3 h4 h5 h6 h7 h8 h9 h10 h11 h12 bl.val n.val bl.isLt n.isLt

end Cert.KernelIdeal.Body

end
-- ==== Proof.KRunHost.lean ====
/-
  The arrays the fused kernel is launched with, read at an index: the host lines before the launch pad every image by two
  zero rows above and below and flatten the batch to rows of 28 lanes; they cut each convolution's weights to the lanes it
  uses and stack its taps along the contraction axis.
-/
import proofs.«108140_g2000503430470147_pallaspilot1_141_3_alg».proof.Proof.Gen.KernelIdeal.Frame
import proofs.«108140_g2000503430470147_pallaspilot1_141_3_alg».proof.Proof.Net
import Idealize.ShloMosaic.Lib.Pipeline.Value
import Idealize.ShloMosaic.Lib.ValueLayout
import Idealize.ShloMosaic.Lib.KernelVsHost
import Idealize.ShloMosaic.Lib.StableHlo.Run

noncomputable section

namespace Cert.KernelIdeal.Host

open Idealize.ShloMosaic Idealize.ShloMosaic.TcCoe Idealize.ShloMosaic.ValueIdx Idealize.SL.Sem
open Idealize.ShloMosaic.StableHlo
open Cert.KernelIdeal Cert.KernelIdeal.Gen Cert.LeNet

variable (m : (ℓ : Loc nD τ sig) → Buf (Elt Ideal) ℓ)

/-- The kernel's input array: the images, their rows padded by two above and below, flattened to rows. -/
theorem V_v3_term (c : Dev nD) : (V m c main_v3 : S524288x28.Idx → EReal)
    = shapeCast S524288x28 (truncf (F := Ideal) .bf16 (pad S16384x32x28 ![0, 2, 0] ![0, 2, 0] ![0, 0, 0]
        (shapeCast S16384x28x28 (m ((c : Thread nD τ).loc main_arg0) : S16384x1x28x28.Idx → EReal) shapeCasts_S16384x1x28x28_S16384x28x28)
        (sitofp (F := Ideal) .f32 (constantI S_ 32 0#32)) pads_S16384x28x28_S16384x32x28_000_220_000 h_S_) bitsLt_bf16_f32)
        shapeCasts_S16384x32x28_S524288x28 := by
  dsimp only [Gen.V, Gen.V0]
  simp only [Gen.hostOps0, Gen.hostOps0_1, Gen.hostOps0_2, List.flatten_cons, List.flatten_nil, List.append_nil, List.cons_append, List.nil_append]
  after_results
  rfl

theorem pad_value : (sitofp (F := Ideal) .f32 (constantI S_ 32 0#32) : S_.Idx → EReal) (Shape.Idx.first h_S_) = 0 := by
  rw [sitofp_apply]
  show Scalar.sitofp (F := Ideal) .f32 (0#32 : BitVec 32) = 0
  rw [Ideal.scalar_sitofp_def]
  simp

theorem v3_read (c : Dev nD) (r w : ℕ) (hr : r < 524288) (hw : w < 28) :
    nat2 (V m c main_v3 : S524288x28.Idx → EReal) r w = Xof (m ((c : Thread nD τ).loc main_arg0)) r w := by
  rw [nat2_of_lt _ _ _ hr hw, V_v3_term]
  refine (shapeCast_apply _ _ (ix2 (⟨r, hr⟩ : Fin 524288) (⟨w, hw⟩ : Fin 28))
    (ix3 (⟨r / 32, by omega⟩ : Fin 16384) (⟨r % 32, by omega⟩ : Fin 32) (⟨w, hw⟩ : Fin 28)) ?_).trans ?_
  · rw [Shape.rowMajor_val_three, Shape.rowMajor_val_two]
    show (r / 32 * 32 + r % 32) * 28 + w = r * 28 + w
    omega
  rw [truncf_apply]
  unfold Xof
  by_cases hin : 2 ≤ r % 32 ∧ r % 32 < 30
  · rw [dif_pos ⟨hr, hw, hin.1, hin.2⟩]
    refine (pad_apply_of_inside _ _ _ _ _ _ _ _
      (ix3 (⟨r / 32, by omega⟩ : Fin 16384) (⟨r % 32 - 2, by omega⟩ : Fin 28) (⟨w, hw⟩ : Fin 28)) ?_).trans ?_
    · intro a
      match a with
      | ⟨0, _⟩ => show r / 32 = 0 + r / 32 * (0 + 1); omega
      | ⟨1, _⟩ => show r % 32 = 2 + (r % 32 - 2) * (0 + 1); omega
      | ⟨2, _⟩ => show w = 0 + w * (0 + 1); omega
    · refine shapeCast_apply _ _ _ (ix4 (⟨r / 32, by omega⟩ : Fin 16384) (0 : Fin 1) (⟨r % 32 - 2, by omega⟩ : Fin 28) (⟨w, hw⟩ : Fin 28)) ?_
      rw [Shape.rowMajor_val_four, Shape.rowMajor_val_three]
      show ((r / 32 * 1 + 0) * 28 + (r % 32 - 2)) * 28 + w = (r / 32 * 28 + (r % 32 - 2)) * 28 + w
      omega
  · rw [dif_neg (fun h => hin ⟨h.2.2.1, h.2.2.2⟩)]
    refine (pad_apply_of_not_inside _ _ _ _ _ _ _ _ (1 : Fin 3) ?_).trans pad_value
    show ¬(2 ≤ r % 32 ∧ (r % 32 - 2) % (0 + 1) = 0 ∧ (r % 32 - 2) / (0 + 1) < 28)
    omega

/-! ## The weight arrays the kernel is launched with -/

theorem V_v5_term (c : Dev nD) : (V m c main_v5 : S140x256.Idx → EReal)
    = shapeCast S140x256 (extractStridedSlice S5x28x256 ![0, 2, 0] (m ((c : Thread nD τ).loc main_arg1) : S5x32x256.Idx → EReal)
        slices_S5x32x256_S5x28x256_0_2_0) shapeCasts_S5x28x256_S140x256 := by
  dsimp only [Gen.V, Gen.V0]
  simp only [Gen.hostOps0, Gen.hostOps0_1, Gen.hostOps0_2, List.flatten_cons, List.flatten_nil, List.append_nil, List.cons_append, List.nil_append]
  after_results
  rfl

/-- First convolution: tap dy's 28 used rows (lanes 2 … 29 of the 32) are rows 28·dy … 28·dy+27 of the stacked matrix. -/
theorem v5_read (c : Dev nD) (dy w n : ℕ) (hdy : dy < 5) (hw : w < 28) (hn : n < 256) :
    nat2 (V m c main_v5 : S140x256.Idx → EReal) (28 * dy + w) n = nat3 (m ((c : Thread nD τ).loc main_arg1)) dy (w + 2) n := by
  rw [nat2_of_lt _ _ _ (by omega : 28 * dy + w < 140) hn, V_v5_term, nat3_of_lt _ _ _ _ hdy (by omega : w + 2 < 32) hn]
  refine (shapeCast_apply _ _ (ix2 (⟨28 * dy + w, by omega⟩ : Fin 140) (⟨n, hn⟩ : Fin 256))
    (ix3 (⟨dy, hdy⟩ : Fin 5) (⟨w, hw⟩ : Fin 28) (⟨n, hn⟩ : Fin 256)) ?_).trans ?_
  · rw [Shape.rowMajor_val_three, Shape.rowMajor_val_two]
    show (dy * 28 + w) * 256 + n = (28 * dy + w) * 256 + n
    omega
  refine extractStridedSlice_apply _ _ _ _ (ix3 (⟨dy, hdy⟩ : Fin 5) (⟨w + 2, by omega⟩ : Fin 32) (⟨n, hn⟩ : Fin 256)) ?_
  intro a
  match a with
  | ⟨0, _⟩ => show dy = 0 + dy; omega
  | ⟨1, _⟩ => show w + 2 = 2 + w; omega
  | ⟨2, _⟩ => show n = 0 + n; omega

theorem V_v7_term (c : Dev nD) : (V m c main_v7 : S256x256.Idx → EReal)
    = shapeCast S256x256 (extractStridedSlice S2x128x256 ![0, 0, 0] (m ((c : Thread nD τ).loc main_arg3) : S5x128x256.Idx → EReal)
        slices_S5x128x256_S2x128x256_0_0_0) shapeCasts_S2x128x256_S256x256 := by
  dsimp only [Gen.V, Gen.V0]
  simp only [Gen.hostOps0, Gen.hostOps0_1, Gen.hostOps0_2, List.flatten_cons, List.flatten_nil, List.append_nil, List.cons_append, List.nil_append]
  after_results
  rfl

theorem V_v9_term (c : Dev nD) : (V m c main_v9 : S256x256.Idx → EReal)
    = shapeCast S256x256 (extractStridedSlice S2x128x256 ![2, 0, 0] (m ((c : Thread nD τ).loc main_arg3) : S5x128x256.Idx → EReal)
        slices_S5x128x256_S2x128x256_2_0_0) shapeCasts_S2x128x256_S256x256 := by
  dsimp only [Gen.V, Gen.V0]
  simp only [Gen.hostOps0, Gen.hostOps0_1, Gen.hostOps0_2, List.flatten_cons, List.flatten_nil, List.append_nil, List.cons_append, List.nil_append]
  after_results
  rfl

theorem V_v11_term (c : Dev nD) : (V m c main_v11 : S128x256.Idx → EReal)
    = shapeCast S128x256 (extractStridedSlice S1x128x256 ![4, 0, 0] (m ((c : Thread nD τ).loc main_arg3) : S5x128x256.Idx → EReal)
        slices_S5x128x256_S1x128x256_4_0_0) shapeCasts_S1x128x256_S128x256 := by
  dsimp only [Gen.V, Gen.V0]
  simp only [Gen.hostOps0, Gen.hostOps0_1, Gen.hostOps0_2, List.flatten_cons, List.flatten_nil, List.append_nil, List.cons_append, List.nil_append]
  after_results
  rfl

theorem V_v12_term (c : Dev nD) : (V m c main_v12 : S640x128.Idx → EReal)
    = shapeCast S640x128 (m ((c : Thread nD τ).loc main_arg5) : S5x128x128.Idx → EReal) shapeCasts_S5x128x128_S640x128 := by
  dsimp only [Gen.V, Gen.V0]
  simp only [Gen.hostOps0, Gen.hostOps0_1, Gen.hostOps0_2, List.flatten_cons, List.flatten_nil, List.append_nil, List.cons_append, List.nil_append]
  after_results
  rfl

/-- Second convolution, taps 0 and 1 stacked. -/
theorem v7_read (c : Dev nD) (dy q n : ℕ) (hdy : dy < 2) (hq : q < 128) (hn : n < 256) :
    nat2 (V m c main_v7 : S256x256.Idx → EReal) (128 * dy + q) n = nat3 (m ((c : Thread nD τ).loc main_arg3)) dy q n := by
  rw [nat2_of_lt _ _ _ (by omega : 128 * dy + q < 256) hn, V_v7_term, nat3_of_lt _ _ _ _ (by omega : dy < 5) hq hn]
  refine (shapeCast_apply _ _ (ix2 (⟨128 * dy + q, by omega⟩ : Fin 256) (⟨n, hn⟩ : Fin 256))
    (ix3 (⟨dy, hdy⟩ : Fin 2) (⟨q, hq⟩ : Fin 128) (⟨n, hn⟩ : Fin 256)) ?_).trans ?_
  · rw [Shape.rowMajor_val_three, Shape.rowMajor_val_two]
    show (dy * 128 + q) * 256 + n = (128 * dy + q) * 256 + n
    omega
  refine extractStridedSlice_apply _ _ _ _ (ix3 (⟨dy, by omega⟩ : Fin 5) (⟨q, hq⟩ : Fin 128) (⟨n, hn⟩ : Fin 256)) ?_
  intro a
  match a with
  | ⟨0, _⟩ => show dy = 0 + dy; omega
  | ⟨1, _⟩ => show q = 0 + q; omega
  | ⟨2, _⟩ => show n = 0 + n; omega

/-- Second convolution, taps 2 and 3 stacked. -/
theorem v9_read (c : Dev nD) (dy q n : ℕ) (hdy : dy < 2) (hq : q < 128) (hn : n < 256) :
    nat2 (V m c main_v9 : S256x256.Idx → EReal) (128 * dy + q) n = nat3 (m ((c : Thread nD τ).loc main_arg3)) (2 + dy) q n := by
  rw [nat2_of_lt _ _ _ (by omega : 128 * dy + q < 256) hn, V_v9_term, nat3_of_lt _ _ _ _ (by omega : 2 + dy < 5) hq hn]
  refine (shapeCast_apply _ _ (ix2 (⟨128 * dy + q, by omega⟩ : Fin 256) (⟨n, hn⟩ : Fin 256))
    (ix3 (⟨dy, hdy⟩ : Fin 2) (⟨q, hq⟩ : Fin 128) (⟨n, hn⟩ : Fin 256)) ?_).trans ?_
  · rw [Shape.rowMajor_val_three, Shape.rowMajor_val_two]
    show (dy * 128 + q) * 256 + n = (128 * dy + q) * 256 + n
    omega
  refine extractStridedSlice_apply _ _ _ _ (ix3 (⟨2 + dy, by omega⟩ : Fin 5) (⟨q, hq⟩ : Fin 128) (⟨n, hn⟩ : Fin 256)) ?_
  intro a
  match a with
  | ⟨0, _⟩ => show 2 + dy = 2 + dy; rfl
  | ⟨1, _⟩ => show q = 0 + q; omega
  | ⟨2, _⟩ => show n = 0 + n; omega

/-- Second convolution, tap 4. -/
theorem v11_read (c : Dev nD) (q n : ℕ) (hq : q < 128) (hn : n < 256) :
    nat2 (V m c main_v11 : S128x256.Idx → EReal) q n = nat3 (m ((c : Thread nD τ).loc main_arg3)) 4 q n := by
  rw [nat2_of_lt _ _ _ hq hn, V_v11_term, nat3_of_lt _ _ _ _ (by omega : 4 < 5) hq hn]
  refine (shapeCast_apply _ _ (ix2 (⟨q, hq⟩ : Fin 128) (⟨n, hn⟩ : Fin 256))
    (ix3 (0 : Fin 1) (⟨q, hq⟩ : Fin 128) (⟨n, hn⟩ : Fin 256)) ?_).trans ?_
  · rw [Shape.rowMajor_val_three, Shape.rowMajor_val_two]
    show (0 * 128 + q) * 256 + n = q * 256 + n
    omega
  refine extractStridedSlice_apply _ _ _ _ (ix3 (⟨4, by omega⟩ : Fin 5) (⟨q, hq⟩ : Fin 128) (⟨n, hn⟩ : Fin 256)) ?_
  intro a
  match a with
  | ⟨0, _⟩ => show 4 = 4 + 0; rfl
  | ⟨1, _⟩ => show q = 0 + q; omega
  | ⟨2, _⟩ => show n = 0 + n; omega

/-- Third convolution, its five taps stacked. -/
theorem v12_read (c : Dev nD) (dy q n : ℕ) (hdy : dy < 5) (hq : q < 128) (hn : n < 128) :
    nat2 (V m c main_v12 : S640x128.Idx → EReal) (128 * dy + q) n = nat3 (m ((c : Thread nD τ).loc main_arg5)) dy q n := by
  rw [nat2_of_lt _ _ _ (by omega : 128 * dy + q < 640) hn, V_v12_term, nat3_of_lt _ _ _ _ hdy hq hn]
  refine shapeCast_apply _ _ (ix2 (⟨128 * dy + q, by omega⟩ : Fin 640) (⟨n, hn⟩ : Fin 128))
    (ix3 (⟨dy, hdy⟩ : Fin 5) (⟨q, hq⟩ : Fin 128) (⟨n, hn⟩ : Fin 128)) ?_
  rw [Shape.rowMajor_val_three, Shape.rowMajor_val_two]
  show (dy * 128 + q) * 128 + n = (128 * dy + q) * 128 + n
  omega

end Cert.KernelIdeal.Host

end
-- ==== Proof.KRun.lean ====
/-
  The fused kernel's program, read as a value: from the generated frame run, each grid point's stored block (KBody) laid into the result array, the host lines before the launch read at an index (the H-padded, flattened input; the convolution weights with their taps stacked along the contraction axis) and the slice after it.
-/
import proofs.«108140_g2000503430470147_pallaspilot1_141_3_alg».proof.Proof.Gen.KernelIdeal.Frame
import proofs.«108140_g2000503430470147_pallaspilot1_141_3_alg».proof.Proof.Net
import proofs.«108140_g2000503430470147_pallaspilot1_141_3_alg».proof.Proof.KBody
import proofs.«108140_g2000503430470147_pallaspilot1_141_3_alg».proof.Proof.KRunHost
import Idealize.ShloMosaic.Lib.Pipeline.Value
import Idealize.ShloMosaic.Lib.ValueLayout
import Idealize.ShloMosaic.Lib.StableHlo.Run

noncomputable section

namespace Cert.KernelIdeal.Val

open Idealize.ShloMosaic Idealize.ShloMosaic.TcCoe Idealize.ShloMosaic.ValueIdx Idealize.SL.Sem
open Cert.KernelIdeal Cert.KernelIdeal.Gen Cert.LeNet

variable (m : (ℓ : Loc nD τ sig) → Buf (Elt Ideal) ℓ) (ρ : Dev nD → PrngReg)

/-! ## The windows' blocks -/

/-- The index maps of the two windows that move with the grid, decided over its points: block row t, block column 0. -/
theorem idx_moving : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- The weight windows stay at block (0, 0): each is its whole array at every point. -/
theorem idx_fixed : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The input window's block at point t is rows 2048·t … 2048·t + 2047 of the flattened input. -/
theorem blk0_apply (c : Dev nD) (t : Fin cfg0.N) (r : Fin 2048) (w : Fin 28) (k : S524288x28.Idx)
    (hk0 : (k 0).val = 2048 * t.val + r.val) (hk1 : (k 1).val = w.val) :
    (iblk m c 0 t : Vec Ideal S2048x28 .bf16) (ix2 r w) = (V m c main_v3 : S524288x28.Idx → EReal) k := by
  obtain ⟨e0, e1, -, -⟩ := idx_moving t
  show V m c main_v3 (((cfg0.win 0).blk t).view.emb (ix2 r w)) = V m c main_v3 k
  refine congrArg _ (funext fun a => Fin.ext ?_)
  match a with
  | ⟨0, _⟩ => show win0_0.index t (0 : Fin 2) * 2048 + 1 * r.val = (k 0).val; rw [e0, hk0]; omega
  | ⟨1, _⟩ => show win0_0.index t (1 : Fin 2) * 28 + 1 * w.val = (k 1).val; rw [e1, hk1]; omega

theorem blk1_eq (c : Dev nD) (t : Fin cfg0.N) : (iblk m c 1 t : Vec Ideal S140x256 .bf16) = (V m c main_v5 : S140x256.Idx → EReal) := by
  obtain ⟨e0, e1, -, -, -, -, -, -, -, -, -, -, -, -, -, -, -, -, -, -, -, -, -, -⟩ := idx_fixed t
  funext y
  show V m c main_v5 (((cfg0.win 1).blk t).view.emb y) = V m c main_v5 y
  refine congrArg _ (funext fun a => Fin.ext ?_)
  match a with
  | ⟨0, _⟩ => show win0_1.index t (0 : Fin 2) * 140 + 1 * (y 0).val = (y 0).val; rw [e0]; omega
  | ⟨1, _⟩ => show win0_1.index t (1 : Fin 2) * 256 + 1 * (y 1).val = (y 1).val; rw [e1]; omega

theorem blk2_eq (c : Dev nD) (t : Fin cfg0.N) : (iblk m c 2 t : Vec Ideal S1x256 .f32) = (V m c main_arg2 : S1x256.Idx → EReal) := by
  obtain ⟨-, -, e0, e1, -, -, -, -, -, -, -, -, -, -, -, -, -, -, -, -, -, -, -, -⟩ := idx_fixed t
  funext y
  show V m c main_arg2 (((cfg0.win 2).blk t).view.emb y) = V m c main_arg2 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem blk3_eq (c : Dev nD) (t : Fin cfg0.N) : (iblk m c 3 t : Vec Ideal S256x256 .bf16) = (V m c main_v7 : S256x256.Idx → EReal) := by
  obtain ⟨-, -, -, -, e0, e1, -, -, -, -, -, -, -, -, -, -, -, -, -, -, -, -, -, -⟩ := idx_fixed t
  funext y
  show V m c main_v7 (((cfg0.win 3).blk t).view.emb y) = V m c main_v7 y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem blk4_eq (c : Dev nD) (t : Fin cfg0.N) : (iblk m c 4 t : Vec Ideal S256x256 .bf16) = (V m c main_v9 : S256x256.Idx → EReal) := by
  obtain ⟨-, -, -, -, -, -, e0, e1, -, -, -, -, -, -, -, -, -, -, -, -, -, -, -, -⟩ := idx_fixed t
  funext y
  show V m c main_v9 (((cfg0.win 4).blk t).view.emb y) = V m c main_v9 y
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem blk5_eq (c : Dev nD) (t : Fin cfg0.N) : (iblk m c 5 t : Vec Ideal S128x256 .bf16) = (V m c main_v11 : S128x256.Idx → EReal) := by
  obtain ⟨-, -, -, -, -, -, -, -, e0, e1, -, -, -, -, -, -, -, -, -, -, -, -, -, -⟩ := idx_fixed t
  funext y
  show V m c main_v11 (((cfg0.win 5).blk t).view.emb y) = V m c main_v11 y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 256 + 1 * (y 1).val = (y 1).val; rw [e1]; omega

theorem blk6_eq (c : Dev nD) (t : Fin cfg0.N) : (iblk m c 6 t : Vec Ideal S1x256 .f32) = (V m c main_arg4 : S1x256.Idx → EReal) := by
  obtain ⟨-, -, -, -, -, -, -, -, -, -, e0, e1, -, -, -, -, -, -, -, -, -, -, -, -⟩ := idx_fixed t
  funext y
  show V m c main_arg4 (((cfg0.win 6).blk t).view.emb y) = V m c main_arg4 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

theorem blk7_eq (c : Dev nD) (t : Fin cfg0.N) : (iblk m c 7 t : Vec Ideal S640x128 .bf16) = (V m c main_v12 : S640x128.Idx → EReal) := by
  obtain ⟨-, -, -, -, -, -, -, -, -, -, -, -, e0, e1, -, -, -, -, -, -, -, -, -, -⟩ := idx_fixed t
  funext y
  show V m c main_v12 (((cfg0.win 7).blk t).view.emb y) = V m c main_v12 y
  refine congrArg _ (funext fun a => Fin.ext ?_)
  match a with
  | ⟨0, _⟩ => show win0_7.index t (0 : Fin 2) * 640 + 1 * (y 0).val = (y 0).val; rw [e0]; omega
  | ⟨1, _⟩ => show win0_7.index t (1 : Fin 2) * 128 + 1 * (y 1).val = (y 1).val; rw [e1]; omega

theorem blk8_eq (c : Dev nD) (t : Fin cfg0.N) : (iblk m c 8 t : Vec Ideal S1x128 .f32) = (V m c main_arg6 : S1x128.Idx → EReal) := by
  obtain ⟨-, -, -, -, -, -, -, -, -, -, -, -, -, -, e0, e1, -, -, -, -, -, -, -, -⟩ := idx_fixed t
  funext y
  show V m c main_arg6 (((cfg0.win 8).blk t).view.emb y) = V m c main_arg6 y
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

theorem blk9_eq (c : Dev nD) (t : Fin cfg0.N) : (iblk m c 9 t : Vec Ideal S128x128 .bf16) = (V m c main_arg7 : S128x128.Idx → EReal) := by
  obtain ⟨-, -, -, -, -, -, -, -, -, -, -, -, -, -, -, -, e0, e1, -, -, -, -, -, -⟩ := idx_fixed t
  funext y
  show V m c main_arg7 (((cfg0.win 9).blk t).view.emb y) = V m c main_arg7 y
  refine congrArg _ (funext fun a => Fin.ext ?_)
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

theorem blk10_eq (c : Dev nD) (t : Fin cfg0.N) : (iblk m c 10 t : Vec Ideal S1x128 .f32) = (V m c main_arg8 : S1x128.Idx → EReal) := by
  obtain ⟨-, -, -, -, -, -, -, -, -, -, -, -, -, -, -, -, -, -, e0, e1, -, -, -, -⟩ := idx_fixed t
  funext y
  show V m c main_arg8 (((cfg0.win 10).blk t).view.emb y) = V m c main_arg8 y
  refine congrArg _ (funext fun a => Fin.ext ?_)
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

theorem blk11_eq (c : Dev nD) (t : Fin cfg0.N) : (iblk m c 11 t : Vec Ideal S128x128 .bf16) = (V m c main_arg9 : S128x128.Idx → EReal) := by
  obtain ⟨-, -, -, -, -, -, -, -, -, -, -, -, -, -, -, -, -, -, -, -, e0, e1, -, -⟩ := idx_fixed t
  funext y
  show V m c main_arg9 (((cfg0.win 11).blk t).view.emb y) = V m c main_arg9 y
  refine congrArg _ (funext fun a => Fin.ext ?_)
  match a with
  | ⟨0, _⟩ => show win0_11.index t (0 : Fin 2) * 128 + 1 * (y 0).val = (y 0).val; rw [e0]; omega
  | ⟨1, _⟩ => show win0_11.index t (1 : Fin 2) * 128 + 1 * (y 1).val = (y 1).val; rw [e1]; omega

theorem blk12_eq (c : Dev nD) (t : Fin cfg0.N) : (iblk m c 12 t : Vec Ideal S1x128 .f32) = (V m c main_arg10 : S1x128.Idx → EReal) := by
  obtain ⟨-, -, -, -, -, -, -, -, -, -, -, -, -, -, -, -, -, -, -, -, -, -, e0, e1⟩ := idx_fixed t
  funext y
  show V m c main_arg10 (((cfg0.win 12).blk t).view.emb y) = V m c main_arg10 y
  refine congrArg _ (funext fun a => Fin.ext ?_)
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

/-! ## What a grid point writes back -/

/-- The network's weights as the program's ten weight arguments give them. -/
abbrev Wm (c : Dev nD) : Wts := wtsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The array the launch leaves: row b holds image b's output, all 128 lanes of it. -/
def Gfull (c : Dev nD) : S16384x128.Idx → EReal :=
  fun i => logit (Wm m c) (Xof (m ((c : Thread nD τ).loc main_arg0))) (i 0).val (i 1).val

theorem Gfull_apply (c : Dev nD) (i : S16384x128.Idx) :
    Gfull m c i = logit (Wm m c) (Xof (m ((c : Thread nD τ).loc main_arg0))) (i 0).val (i 1).val := rfl

/-- Point t's stored entry (bl, n) is output n of image 64·t + bl: the point's 2048 input rows are that tile's images' rows,
    and an image's output reads its own 32 rows only. -/
theorem point_eq (c : Dev nD) (t : Fin cfg0.N) (bl : Fin 64) (n : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 bl n)
      = logit (Wm m c) (Xof (m ((c : Thread nD τ).loc main_arg0))) (64 * t.val + bl.val) n.val := by
  have ht : t.val < cfg0.N := t.isLt
  have hN : cfg0.N = 256 := N_0
  have hbl : bl.val < 64 := bl.isLt
  refine (Cert.KernelIdeal.Body.out_eq (Wm m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    ?_ ?_ ?_ ?_ ?_ ?_ ?_ ?_ ?_ ?_ ?_ ?_ bl n).trans ?_
  · intro dy hdy w hw n hn; rw [blk1_eq]; exact Host.v5_read m c dy w n hdy hw hn
  · intro n hn; rw [blk2_eq, V_main_arg2]; rfl
  · intro dy hdy q hq n hn; rw [blk3_eq]; exact Host.v7_read m c dy q n hdy hq hn
  · intro dy hdy q hq n hn; rw [blk4_eq]; exact Host.v9_read m c dy q n hdy hq hn
  · intro q hq n hn; rw [blk5_eq]; exact Host.v11_read m c q n hq hn
  · intro n hn; rw [blk6_eq, V_main_arg4]; rfl
  · intro dy hdy q hq n hn; rw [blk7_eq]; exact Host.v12_read m c dy q n hdy hq hn
  · intro n hn; rw [blk8_eq, V_main_arg6]; rfl
  · intro k hk n hn; rw [blk9_eq, V_main_arg7]; rfl
  · intro n hn; rw [blk10_eq, V_main_arg8]; rfl
  · intro k hk n hn; rw [blk11_eq, V_main_arg9]; rfl
  · intro n hn; rw [blk12_eq, V_main_arg10]; rfl
  refine logit_congr (fun k hk w hw => ?_) n.val
  rw [show 32 * (64 * t.val + bl.val) + k = 2048 * t.val + (32 * bl.val + k) by omega,
    ← Host.v3_read m c (2048 * t.val + (32 * bl.val + k)) w (by omega) hw,
    nat2_of_lt _ _ _ (by omega : 32 * bl.val + k < 2048) hw,
    nat2_of_lt _ _ _ (by omega : 2048 * t.val + (32 * bl.val + k) < 524288) hw]
  exact blk0_apply m c t _ _ _ rfl rfl

/-- The same, read through the result window's block at point t. -/
theorem point_read (c : Dev nD) (t : Fin cfg0.N) (j : S64x128.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = Gfull m c (((cfg0.win 13).blk t).view.emb j) := by
  obtain ⟨bl, n, rfl⟩ : ∃ (bl : Fin 64) (n : Fin 128), j = ix2 bl n := ⟨j 0, j 1, eq_ix2 j⟩
  obtain ⟨-, -, e0, e1⟩ := idx_moving t
  have key : ∀ i : S16384x128.Idx, (i 0).val = 64 * t.val + bl.val → (i 1).val = n.val →
      logit (Wm m c) (Xof (m ((c : Thread nD τ).loc main_arg0))) (64 * t.val + bl.val) n.val = Gfull m c i := by
    intro i h0 h1; rw [Gfull_apply, h0, h1]
  refine (point_eq m c t bl n).trans (key _ ?_ ?_)
  · show win0_13.index t (0 : Fin 2) * 64 + 1 * bl.val = 64 * t.val + bl.val; rw [e0]; omega
  · show win0_13.index t (1 : Fin 2) * 128 + 1 * n.val = n.val; rw [e1]; omega

/-- What point t writes back is its block of the one array. -/
theorem flushed_eq (c : Dev nD) (t : Fin cfg0.N) :
    (dats m 0 c).flushed 13 t = ((cfg0.win 13).blk t).view.read (Elt Ideal) (Gfull m c) := by
  show (cfg0.win 13).cut (grid0.coords t) ((dats m 0 c).after 13 t) = _
  rw [after0_13]
  funext j
  exact point_read m c t j

/-! ## The array after the launch -/

/-- An index of the array is in point t's block iff each coordinate is in the block's range on its axis. -/
theorem mem_blk (t : Fin cfg0.N) (i : S16384x128.Idx) :
    i ∈ ((cfg0.win 13).blk t).view.set ↔ ∀ a : Fin 2, win0_13.index t a * S64x128.size a ≤ (i a).val ∧ (i a).val < win0_13.index t a * S64x128.size a + S64x128.size a := by
  show i ∈ ((View.whole main_v13).slice (win0_13.rect t)).set ↔ _
  rw [View.set_slice_whole, Rect.mem_set_unit]
  exact Iff.rfl

/-- Row r of the array is in the block of point r / 64. -/
theorem cover (i : S16384x128.Idx) : ∃ t : Fin cfg0.N, (cfg0.win 13).flush t = true ∧ i ∈ ((cfg0.win 13).blk t).view.set := by
  have hi0 : (i 0).val < 16384 := (i 0).isLt
  have hi1 : (i 1).val < 128 := (i 1).isLt
  have hN : cfg0.N = 256 := N_0
  obtain ⟨t, ht⟩ : ∃ t : Fin cfg0.N, t.val = (i 0).val / 64 := ⟨⟨(i 0).val / 64, by rw [hN]; omega⟩, rfl⟩
  obtain ⟨-, -, e0, e1⟩ := idx_moving t
  refine ⟨t, flush0_13 t, ?_⟩
  rw [mem_blk]
  intro a
  match a with
  | ⟨0, _⟩ => show win0_13.index t (0 : Fin 2) * 64 ≤ (i 0).val ∧ (i 0).val < win0_13.index t (0 : Fin 2) * 64 + 64; rw [e0, ht]; omega
  | ⟨1, _⟩ => show win0_13.index t (1 : Fin 2) * 128 ≤ (i 1).val ∧ (i 1).val < win0_13.index t (1 : Fin 2) * 128 + 128; rw [e1]; omega

/-- The blocks tile the array, so it ends holding every image's output. -/
theorem final (c : Dev nD) : (dats m 0 c).arrAt 13 cfg0.N = Gfull m c :=
  (dats m 0 c).arrAt_eq_of_cover 13 (Gfull m c) (fun t _ => flushed_eq m c t) cover

/-! ## The slice after the launch, and the run -/

/-- The program's result: the first ten lanes of every row of the array the launch left. -/
theorem tail_eq (c : Dev nD) :
    Pipeline.afterTail₀ cfgs (dats m) 0 (V0 m) [hostOps1] c main_v14
      = Cert.LeNet.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v14) = _
  after_results
  refine (congrArg (fun x => extractStridedSlice S16384x10 ![0, 0] x slices_S16384x128_S16384x10_0_0)
    ((Pipeline.withArrays_arr spec0 launch0.win.arr_inj c (V0 m c) (fun w => (dats m 0 c).arrAt w cfg0.N) 13).trans (final m c))).trans ?_
  funext i
  obtain ⟨b, n, rfl⟩ : ∃ (b : Fin 16384) (n : Fin 10), i = ix2 b n := ⟨i 0, i 1, eq_ix2 i⟩
  have hn : n.val < 10 := n.isLt
  refine (extractStridedSlice_apply _ _ _ _ (ix2 b (⟨n.val, by omega⟩ : Fin 128)) ?_).trans ?_
  · intro a
    match a with
    | ⟨0, _⟩ => show b.val = 0 + b.val; omega
    | ⟨1, _⟩ => show n.val = 0 + n.val; omega
  · rw [Gfull_apply]; rfl

/-- The program's run, read: it ends with its result array at the network's output of the argument arrays (first ten of the
    128 output lanes, every image of the batch), the arguments unchanged. -/
theorem run : θ_run (defs (F := Ideal)) (onTc (τ := τ) (main (F := Ideal))) ⟨m, fun _ => 0, ρ⟩ fun r => ∀ c : Dev nD,
      r.2.mem ((c : Thread nD τ).loc main_v14) = Cert.LeNet.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run (defs (F := Ideal)) _ _).mono (fun r h c => ⟨
      ((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).2 main_arg5 (Pipeline.mem_restRefs_of main_arg5 (by decide) (by decide))).trans (W_main_arg5 m (dats m) c),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c))),
      ((h c).1 10).trans (((dats m 0 c).arrAt_in 10 rfl _).trans ((A_eq m c 10).trans (V_main_arg8 m c))),
      ((h c).1 11).trans (((dats m 0 c).arrAt_in 11 rfl _).trans ((A_eq m c 11).trans (V_main_arg9 m c))),
      ((h c).1 12).trans (((dats m 0 c).arrAt_in 12 rfl _).trans ((A_eq m c 12).trans (V_main_arg10 m c)))⟩) (run_main m ρ)

end Cert.KernelIdeal.Val

end
-- ==== Proof.RBody0.lean ====
/-
  Shared steps of the reference body's value: one tap of a row-shifted convolution written as a matrix product, read at an
  index; a slab of a stacked weight block read through its sub-rectangle; dropping zero border lanes from a 32-term sum.
-/
import proofs.«108140_g2000503430470147_pallaspilot1_141_3_alg».proof.Proof.Gen.ReferenceIdeal.Frame
import proofs.«108140_g2000503430470147_pallaspilot1_141_3_alg».proof.Proof.Net
import proofs.«108140_g2000503430470147_pallaspilot1_141_3_alg».proof.Proof.LibPlainDot
import proofs.«108140_g2000503430470147_pallaspilot1_141_3_alg».proof.Proof.LibNat2
import Idealize.ShloMosaic.Lib.Pipeline.Value
import Idealize.ShloMosaic.Lib.ValueLayout
import Idealize.ShloMosaic.PureOps.Ideal.Laws

noncomputable section

namespace Cert.ReferenceIdeal.Body

open Idealize.ShloMosaic Idealize.ShloMosaic.ValueIdx Cert.ReferenceIdeal Cert.LeNet

/-- Slab o of a stack of five K×N matrices, loaded through its sub-rectangle and read at (0, k, n), is the stack at (o, k, n). -/
theorem ld_slab {K N : ℕ} {e : EltTy} (x : Vec Ideal ⟨3, ![5, K, N]⟩ e) (o : ℕ) (ho : o < 5)
    (inb : ∀ a, (![o, 0, 0] : Fin 3 → ℕ) a + (⟨3, ![1, K, N]⟩ : Shape).size a ≤ (⟨3, ![5, K, N]⟩ : Shape).size a)
    (k : Fin K) (n : Fin N) :
    View.ld x (Rect.unit (s := ⟨3, ![5, K, N]⟩) ![o, 0, 0] (⟨3, ![1, K, N]⟩ : Shape).size inb) (ix3 (0 : Fin 1) k n)
      = x (ix3 (⟨o, ho⟩ : Fin 5) k n) := by
  show x _ = x _
  refine congrArg x (funext fun a => Fin.ext ?_)
  match a with
  | ⟨0, _⟩ => show o + 1 * 0 = o; omega
  | ⟨1, _⟩ => show 0 + 1 * k.val = k.val; omega
  | ⟨2, _⟩ => show 0 + 1 * n.val = n.val; omega

/-- One tap: rows o' … of the source times slab o of the weights, at output (ρ, n), is Σ_k source(ρ + o', k) · weights(o, k, n). -/
theorem tap {M0 M K N : ℕ} {φ : FTy} (D : DotDims ⟨2, ![M, K]⟩ ⟨2, ![K, N]⟩ ⟨2, ![M, N]⟩) (hD : D = DotDims.plain M K N)
    (o' : ℕ) (src : FVec Ideal ⟨2, ![M0, K]⟩ φ) (hs : (⟨2, ![M0, K]⟩ : Shape).Slices ![o', 0] ⟨2, ![M, K]⟩)
    (x : Vec Ideal ⟨3, ![5, K, N]⟩ .bf16) (o : ℕ) (ho : o < 5)
    (inb : ∀ a, (![o, 0, 0] : Fin 3 → ℕ) a + (⟨3, ![1, K, N]⟩ : Shape).size a ≤ (⟨3, ![5, K, N]⟩ : Shape).size a)
    (hc : (⟨3, ![1, K, N]⟩ : Shape).ShapeCasts ⟨2, ![K, N]⟩)
    (ρ : Fin M) (n : Fin N) (hρ : ρ.val + o' < M0) :
    matmul (F := Ideal) (φ₂ := .bf16) D none (extractStridedSlice ⟨2, ![M, K]⟩ ![o', 0] src hs)
        (shapeCast (α := Ideal .bf16) ⟨2, ![K, N]⟩ (View.ld x (Rect.unit (s := ⟨3, ![5, K, N]⟩) ![o, 0, 0] (⟨3, ![1, K, N]⟩ : Shape).size inb)) hc)
        (constant ⟨2, ![M, N]⟩ .f32 0x00000000#32) (ix2 ρ n)
      = ∑ k : Fin K, nat2 src (ρ.val + o') k.val * nat3 x o k.val n.val := by
  subst hD
  refine (Cert.LibPlainDot.matmul_plain M K N none _ _ (ix2 ρ n)).trans ?_
  refine Finset.sum_congr rfl fun k _ => ?_
  show extractStridedSlice ⟨2, ![M, K]⟩ ![o', 0] src hs (ix2 ρ k)
      * shapeCast (α := Ideal .bf16) ⟨2, ![K, N]⟩ (View.ld x (Rect.unit (s := ⟨3, ![5, K, N]⟩) ![o, 0, 0] (⟨3, ![1, K, N]⟩ : Shape).size inb)) hc (ix2 k n) = _
  rw [slice2_axis0_apply o' src hs ρ k ⟨ρ.val + o', hρ⟩ (Nat.add_comm _ _),
    shapeCast_1ab_ab_apply _ hc k n, ld_slab x o ho inb k n,
    nat2_of_lt src (ρ.val + o') k.val hρ k.isLt, nat3_of_lt x o k.val n.val ho k.isLt n.isLt]

/-- The same tap read at natural-number coordinates. -/
theorem tap_nat {M0 M K N : ℕ} {φ : FTy} (D : DotDims ⟨2, ![M, K]⟩ ⟨2, ![K, N]⟩ ⟨2, ![M, N]⟩) (hD : D = DotDims.plain M K N)
    (o' : ℕ) (src : FVec Ideal ⟨2, ![M0, K]⟩ φ) (hs : (⟨2, ![M0, K]⟩ : Shape).Slices ![o', 0] ⟨2, ![M, K]⟩)
    (x : Vec Ideal ⟨3, ![5, K, N]⟩ .bf16) (o : ℕ) (ho : o < 5)
    (inb : ∀ a, (![o, 0, 0] : Fin 3 → ℕ) a + (⟨3, ![1, K, N]⟩ : Shape).size a ≤ (⟨3, ![5, K, N]⟩ : Shape).size a)
    (hc : (⟨3, ![1, K, N]⟩ : Shape).ShapeCasts ⟨2, ![K, N]⟩)
    (ρ n : ℕ) (hρM : ρ < M) (hn : n < N) (hρ : ρ + o' < M0) :
    nat2 (matmul (F := Ideal) (φ₂ := .bf16) D none (extractStridedSlice ⟨2, ![M, K]⟩ ![o', 0] src hs)
        (shapeCast (α := Ideal .bf16) ⟨2, ![K, N]⟩ (View.ld x (Rect.unit (s := ⟨3, ![5, K, N]⟩) ![o, 0, 0] (⟨3, ![1, K, N]⟩ : Shape).size inb)) hc)
        (constant ⟨2, ![M, N]⟩ .f32 0x00000000#32)) ρ n
      = ∑ k : Fin K, nat2 src (ρ + o') k.val * nat3 x o k.val n := by
  rw [nat2_of_lt _ _ _ hρM hn]
  exact tap D hD o' src hs x o ho inb hc ⟨ρ, hρM⟩ ⟨n, hn⟩ hρ

/-- Five taps added left to right, a bias and the positive part, as the doubly indexed sum of a convolution stage: tap d reads
    source row ρ + o_d, which is row r + d of the stage's input A. -/
theorem conv_close {M0 K a b c : ℕ} (v : (⟨2, ![M0, K]⟩ : Shape).Idx → EReal) (x : (⟨3, ![a, b, c]⟩ : Shape).Idx → EReal)
    (A : ℕ → ℕ → EReal) (T : ℕ → ℕ → ℕ → EReal) (B : EReal) (ρ r n o0 o1 o2 o3 o4 : ℕ)
    (h0 : ∀ k < K, nat2 v (ρ + o0) k = A (r + 0) k) (h1 : ∀ k < K, nat2 v (ρ + o1) k = A (r + 1) k)
    (h2 : ∀ k < K, nat2 v (ρ + o2) k = A (r + 2) k) (h3 : ∀ k < K, nat2 v (ρ + o3) k = A (r + 3) k)
    (h4 : ∀ k < K, nat2 v (ρ + o4) k = A (r + 4) k) (hT : ∀ d k, T d k n = nat3 x d k n) :
    max (((((∑ k : Fin K, nat2 v (ρ + o0) k.val * nat3 x 0 k.val n + ∑ k : Fin K, nat2 v (ρ + o1) k.val * nat3 x 1 k.val n)
        + ∑ k : Fin K, nat2 v (ρ + o2) k.val * nat3 x 2 k.val n) + ∑ k : Fin K, nat2 v (ρ + o3) k.val * nat3 x 3 k.val n)
        + ∑ k : Fin K, nat2 v (ρ + o4) k.val * nat3 x 4 k.val n) + B) 0
      = max ((∑ dy : Fin 5, ∑ k : Fin K, A (r + dy.val) k.val * T dy.val k.val n) + B) 0 := by
  rw [Fin.sum_univ_five]
  have e : ∀ (o d : ℕ), (∀ k < K, nat2 v (ρ + o) k = A (r + d) k) →
      ∑ k : Fin K, nat2 v (ρ + o) k.val * nat3 x d k.val n = ∑ k : Fin K, A (r + d) k.val * T d k.val n :=
    fun o d h => Finset.sum_congr rfl fun k _ => by rw [h k.val k.isLt, hT]
  rw [e o0 0 h0, e o1 1 h1, e o2 2 h2, e o3 3 h3, e o4 4 h4]
  rfl

/-- A plain product into the zero splat, read at natural-number coordinates, for any record equal to the plain one. -/
theorem nat2_matmul_of {M K N : ℕ} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (i j : ℕ) (hi : i < M) (hj : j < N) :
    nat2 (matmul (F := Ideal) D none l r (constant ⟨2, ![M, N]⟩ .f32 0x00000000#32)) i j
      = ∑ k : Fin K, nat2 l i k.val * nat2 r k.val j := by
  subst hD
  exact nat2_matmul M K N none l r i j hi hj

/-- A 32-term sum whose terms 0, 1, 30, 31 vanish is the sum of its 28 inner terms. -/
theorem sum32_28 (g : ℕ → EReal) (h0 : g 0 = 0) (h1 : g 1 = 0) (h30 : g 30 = 0) (h31 : g 31 = 0) :
    ∑ k : Fin 32, g k.val = ∑ w : Fin 28, g (w.val + 2) := by
  rw [Fin.sum_univ_eq_sum_range g 32, Fin.sum_univ_eq_sum_range (fun w => g (w + 2)) 28]
  rw [Finset.sum_range_succ, Finset.sum_range_succ, h30, h31, add_zero, add_zero]
  rw [Finset.sum_range_succ', Finset.sum_range_succ']
  show ∑ w ∈ Finset.range 28, g (w + 2) + g 1 + g 0 = _
  rw [h0, h1, add_zero, add_zero]

end Cert.ReferenceIdeal.Body

end
-- ==== Proof.RBody1.lean ====
/-
  First stage of the reference body: the five row-shifted products over the 32-lane input rows are the first convolution
  over the 28 inner lanes (the four border lanes are zero), with its bias and positive part, at every row whose five taps
  stay inside the block.
-/
import proofs.«108140_g2000503430470147_pallaspilot1_141_3_alg».proof.Proof.RBody0

noncomputable section

namespace Cert.ReferenceIdeal.Body

open Idealize.ShloMosaic Idealize.ShloMosaic.ValueIdx Cert.ReferenceIdeal Cert.LeNet

/-- The first convolution's block with its positive part, at row ρ < 1020 and lane n < 256. -/
theorem pay2_nat (x0 : Vec Ideal S1024x32 .f32) (x1 : Vec Ideal S5x32x256 .bf16) (x2 : Vec Ideal S1x256 .f32)
    (hpad : ∀ r < 1024, ∀ w < 32, (w < 2 ∨ 30 ≤ w) → nat2 x0 r w = 0)
    (W : Wts) (hT : ∀ d k n, W.T1 d k n = nat3 x1 d k n) (hB : ∀ n, W.B1 n = nat2 x2 0 n)
    (ρ n : ℕ) (hρ : ρ < 1020) (hn : n < 256) :
    nat2 (Gen.k0_pay2 (F := Ideal) x0 (View.ld x1 Gen.r0_1) (View.ld x1 Gen.r0_2) (View.ld x1 Gen.r0_3) (View.ld x1 Gen.r0_4)
        (View.ld x1 Gen.r0_5) x2) ρ n
      = max (conv1 W (fun r w => nat2 x0 r (w + 2)) ρ n) 0 := by
  unfold Gen.k0_pay2
  dsimp only
  rw [nat2_maximumf, nat2_zero_splat, nat2_addf, nat2_bcastRow _ _ _ _ hρ hn, nat2_addf, nat2_addf, nat2_addf, nat2_addf]
  rw [tap_nat dot_S1020x32_S32x256_S1020x256_1_0_0_1_n_n rfl 0 _ _ x1 0 (by omega) _ _ ρ n hρ hn (by omega),
    tap_nat dot_S1020x32_S32x256_S1020x256_1_0_0_1_n_n rfl 1 _ _ x1 1 (by omega) _ _ ρ n hρ hn (by omega),
    tap_nat dot_S1020x32_S32x256_S1020x256_1_0_0_1_n_n rfl 2 _ _ x1 2 (by omega) _ _ ρ n hρ hn (by omega),
    tap_nat dot_S1020x32_S32x256_S1020x256_1_0_0_1_n_n rfl 3 _ _ x1 3 (by omega) _ _ ρ n hρ hn (by omega),
    tap_nat dot_S1020x32_S32x256_S1020x256_1_0_0_1_n_n rfl 4 _ _ x1 4 (by omega) _ _ ρ n hρ hn (by omega)]
  simp only [nat2_truncf, nat2_shapeCast_self]
  have e : ∀ d, d < 5 → ∑ k : Fin 32, nat2 x0 (ρ + d) k.val * nat3 x1 d k.val n
      = ∑ w : Fin 28, nat2 x0 (ρ + d) (w.val + 2) * W.T1 d (w.val + 2) n := fun d hd => by
    rw [sum32_28 (fun k => nat2 x0 (ρ + d) k * nat3 x1 d k n)
      (by rw [hpad (ρ + d) (by omega) 0 (by omega) (by omega), zero_mul])
      (by rw [hpad (ρ + d) (by omega) 1 (by omega) (by omega), zero_mul])
      (by rw [hpad (ρ + d) (by omega) 30 (by omega) (by omega), zero_mul])
      (by rw [hpad (ρ + d) (by omega) 31 (by omega) (by omega), zero_mul])]
    exact Finset.sum_congr rfl fun w _ => by rw [hT]
  rw [e 0 (by omega), e 1 (by omega), e 2 (by omega), e 3 (by omega), e 4 (by omega)]
  unfold conv1
  rw [Fin.sum_univ_five, hB]
  rfl

end Cert.ReferenceIdeal.Body

end
-- ==== Proof.RBody2.lean ====
/-
  Second stage of the reference body: the lane halves of the first convolution, the maximum over lane halves and over the row
  pair (ρ, ρ + 1) — at an even row 2i the first pooling of row pair i —, and the second convolution read at even rows
  (tap d reads row 2j + 2d = 2(j + d)), with its bias, positive part and maximum over lane halves.
-/
import proofs.«108140_g2000503430470147_pallaspilot1_141_3_alg».proof.Proof.RBody1

noncomputable section

namespace Cert.ReferenceIdeal.Body

open Idealize.ShloMosaic Idealize.ShloMosaic.ValueIdx Cert.ReferenceIdeal Cert.LeNet

/-- The low lane half of the first convolution's block. -/
theorem pay3_nat (x0 : Vec Ideal S1024x32 .f32) (x1 : Vec Ideal S5x32x256 .bf16) (x2 : Vec Ideal S1x256 .f32)
    (hpad : ∀ r < 1024, ∀ w < 32, (w < 2 ∨ 30 ≤ w) → nat2 x0 r w = 0)
    (W : Wts) (hT : ∀ d k n, W.T1 d k n = nat3 x1 d k n) (hB : ∀ n, W.B1 n = nat2 x2 0 n)
    (ρ q : ℕ) (hρ : ρ < 1020) (hq : q < 128) :
    nat2 (Gen.k0_pay3 (F := Ideal) x0 (View.ld x1 Gen.r0_1) (View.ld x1 Gen.r0_2) (View.ld x1 Gen.r0_3) (View.ld x1 Gen.r0_4)
        (View.ld x1 Gen.r0_5) x2) ρ q
      = max (conv1 W (fun r w => nat2 x0 r (w + 2)) ρ q) 0 := by
  unfold Gen.k0_pay3
  dsimp only
  rw [nat2_slice 0 0 _ _ (by omega) (by omega) ρ q hρ hq, Nat.zero_add, Nat.zero_add]
  exact pay2_nat x0 x1 x2 hpad W hT hB ρ q hρ (by omega)

/-- The high lane half of the first convolution's block. -/
theorem pay4_nat (x0 : Vec Ideal S1024x32 .f32) (x1 : Vec Ideal S5x32x256 .bf16) (x2 : Vec Ideal S1x256 .f32)
    (hpad : ∀ r < 1024, ∀ w < 32, (w < 2 ∨ 30 ≤ w) → nat2 x0 r w = 0)
    (W : Wts) (hT : ∀ d k n, W.T1 d k n = nat3 x1 d k n) (hB : ∀ n, W.B1 n = nat2 x2 0 n)
    (ρ q : ℕ) (hρ : ρ < 1020) (hq : q < 128) :
    nat2 (Gen.k0_pay4 (F := Ideal) x0 (View.ld x1 Gen.r0_1) (View.ld x1 Gen.r0_2) (View.ld x1 Gen.r0_3) (View.ld x1 Gen.r0_4)
        (View.ld x1 Gen.r0_5) x2) ρ q
      = max (conv1 W (fun r w => nat2 x0 r (w + 2)) ρ (q + 128)) 0 := by
  unfold Gen.k0_pay4
  dsimp only
  rw [nat2_slice 0 128 _ _ (by omega) (by omega) ρ q hρ hq, Nat.zero_add, Nat.add_comm 128 q]
  exact pay2_nat x0 x1 x2 hpad W hT hB ρ (q + 128) hρ (by omega)

/-- The maximum over lane halves and over rows (ρ, ρ + 1), at an even row: the first pooling. -/
theorem pool1_nat (v32 v33 : FVec Ideal S1020x128 .f32) (W : Wts) (X : ℕ → ℕ → EReal)
    (h32 : ∀ ρ < 1020, ∀ q < 128, nat2 v32 ρ q = max (conv1 W X ρ q) 0)
    (h33 : ∀ ρ < 1020, ∀ q < 128, nat2 v33 ρ q = max (conv1 W X ρ (q + 128)) 0)
    (i q : ℕ) (hi : 2 * i + 1 < 1020) (hq : q < 128) :
    nat2 (truncf (F := Ideal) .bf16 (maximumf (extractStridedSlice S1019x128 ![0, 0] (maximumf v32 v33) Gen.slices_S1020x128_o0_0_S1019x128)
        (extractStridedSlice S1019x128 ![1, 0] (maximumf v32 v33) Gen.slices_S1020x128_o1_0_S1019x128)) Gen.bitsLt_bf16_f32) (2 * i) q
      = pool1 W X i q := by
  rw [nat2_truncf, nat2_maximumf, nat2_slice 0 0 _ _ (by omega) (by omega) (2 * i) q (by omega) hq,
    nat2_slice 1 0 _ _ (by omega) (by omega) (2 * i) q (by omega) hq, nat2_maximumf, nat2_maximumf,
    Nat.zero_add, Nat.zero_add, Nat.add_comm 1 (2 * i),
    h32 (2 * i) (by omega) q hq, h33 (2 * i) (by omega) q hq, h32 (2 * i + 1) (by omega) q hq, h33 (2 * i + 1) (by omega) q hq,
    relu_pool]
  rfl

/-- The second convolution's block read at the even row 2j, maximised over lane halves. -/
theorem pay5_nat (v32 v33 : FVec Ideal S1020x128 .f32) (x3 : Vec Ideal S5x128x256 .bf16) (x4 : Vec Ideal S1x256 .f32)
    (W : Wts) (X : ℕ → ℕ → EReal)
    (h32 : ∀ ρ < 1020, ∀ q < 128, nat2 v32 ρ q = max (conv1 W X ρ q) 0)
    (h33 : ∀ ρ < 1020, ∀ q < 128, nat2 v33 ρ q = max (conv1 W X ρ (q + 128)) 0)
    (hT : ∀ d k n, W.T3 d k n = nat3 x3 d k n) (hB : ∀ n, W.B3 n = nat2 x4 0 n)
    (j q : ℕ) (hj : 2 * j < 1011) (hq : q < 128) :
    nat2 (Gen.k0_pay5 (F := Ideal) v32 v33 (View.ld x3 Gen.r0_7) (View.ld x3 Gen.r0_8) (View.ld x3 Gen.r0_9) (View.ld x3 Gen.r0_10)
        (View.ld x3 Gen.r0_11) x4) (2 * j) q
      = max (max (conv3 W X j q) 0) (max (conv3 W X j (q + 128)) 0) := by
  unfold Gen.k0_pay5
  dsimp only
  rw [nat2_maximumf, nat2_slice 0 0 _ _ (by omega) (by omega) (2 * j) q hj hq,
    nat2_slice 0 128 _ _ (by omega) (by omega) (2 * j) q hj hq, Nat.zero_add, Nat.zero_add, Nat.add_comm 128 q]
  have key : ∀ (Bk : FVec Ideal S1011x256 .f32), (∀ n < 256, nat2 Bk (2 * j) n = max (conv3 W X j n) 0) →
      max (nat2 Bk (2 * j) q) (nat2 Bk (2 * j) (q + 128)) = max (max (conv3 W X j q) 0) (max (conv3 W X j (q + 128)) 0) :=
    fun Bk h => by rw [h q (by omega), h (q + 128) (by omega)]
  refine key _ fun n hn => ?_
  have hp : ∀ i k, 2 * i + 1 < 1020 → k < 128 → _ = pool1 W X i k := fun i k hi hk => pool1_nat v32 v33 W X h32 h33 i k hi hk
  rw [nat2_maximumf, nat2_zero_splat, nat2_addf, nat2_bcastRow _ _ _ _ hj hn, nat2_addf, nat2_addf, nat2_addf, nat2_addf]
  rw [tap_nat dot_S1011x128_S128x256_S1011x256_1_0_0_1_n_n rfl 0 _ _ x3 0 (by omega) _ _ (2 * j) n hj hn (by omega),
    tap_nat dot_S1011x128_S128x256_S1011x256_1_0_0_1_n_n rfl 2 _ _ x3 1 (by omega) _ _ (2 * j) n hj hn (by omega),
    tap_nat dot_S1011x128_S128x256_S1011x256_1_0_0_1_n_n rfl 4 _ _ x3 2 (by omega) _ _ (2 * j) n hj hn (by omega),
    tap_nat dot_S1011x128_S128x256_S1011x256_1_0_0_1_n_n rfl 6 _ _ x3 3 (by omega) _ _ (2 * j) n hj hn (by omega),
    tap_nat dot_S1011x128_S128x256_S1011x256_1_0_0_1_n_n rfl 8 _ _ x3 4 (by omega) _ _ (2 * j) n hj hn (by omega)]
  unfold conv3
  rw [hB]
  refine conv_close _ x3 (pool1 W X) W.T3 (nat2 x4 0 n) (2 * j) j n 0 2 4 6 8 ?_ ?_ ?_ ?_ ?_ (fun d k => hT d k n)
  · intro k hk; rw [show 2 * j + 0 = 2 * (j + 0) by omega]; exact hp (j + 0) k (by omega) hk
  · intro k hk; rw [show 2 * j + 2 = 2 * (j + 1) by omega]; exact hp (j + 1) k (by omega) hk
  · intro k hk; rw [show 2 * j + 4 = 2 * (j + 2) by omega]; exact hp (j + 2) k (by omega) hk
  · intro k hk; rw [show 2 * j + 6 = 2 * (j + 3) by omega]; exact hp (j + 3) k (by omega) hk
  · intro k hk; rw [show 2 * j + 8 = 2 * (j + 4) by omega]; exact hp (j + 4) k (by omega) hk

end Cert.ReferenceIdeal.Body

end
-- ==== Proof.RBody3.lean ====
/-
  Third stage of the reference body: the maximum over rows (ρ, ρ + 2) at a row 4u (the second pooling of row pair u), the
  third convolution read at the rows 32·b (tap d reads row 32b + 4d = 4(8b + d)), the one-hot selection product that keeps
  exactly those rows, and the two dense layers.
-/
import proofs.«108140_g2000503430470147_pallaspilot1_141_3_alg».proof.Proof.RBody0

noncomputable section

namespace Cert.ReferenceIdeal.Body

open Idealize.ShloMosaic Idealize.ShloMosaic.ValueIdx Cert.ReferenceIdeal Cert.LeNet

/-- The maximum over rows (ρ, ρ + 2) of the lane-maximised second convolution, at a row 4u: the second pooling. -/
theorem pool3_nat (v70 : FVec Ideal S1011x128 .f32) (W : Wts) (X : ℕ → ℕ → EReal)
    (h70 : ∀ j q, 2 * j < 1011 → q < 128 → nat2 v70 (2 * j) q = max (max (conv3 W X j q) 0) (max (conv3 W X j (q + 128)) 0))
    (u q : ℕ) (hu : 4 * u + 2 < 1011) (hq : q < 128) :
    nat2 (truncf (F := Ideal) .bf16 (maximumf (extractStridedSlice S1009x128 ![0, 0] v70 Gen.slices_S1011x128_o0_0_S1009x128)
        (extractStridedSlice S1009x128 ![2, 0] v70 Gen.slices_S1011x128_o2_0_S1009x128)) Gen.bitsLt_bf16_f32) (4 * u) q
      = pool3 W X u q := by
  rw [nat2_truncf, nat2_maximumf, nat2_slice 0 0 _ _ (by omega) (by omega) (4 * u) q (by omega) hq,
    nat2_slice 2 0 _ _ (by omega) (by omega) (4 * u) q (by omega) hq, Nat.zero_add, Nat.zero_add,
    show 4 * u = 2 * (2 * u) by omega, show 2 + 2 * (2 * u) = 2 * (2 * u + 1) by omega,
    h70 (2 * u) q (by omega) hq, h70 (2 * u + 1) q (by omega) hq, relu_pool]
  rfl

/-- The third convolution's block with its positive part, at row 32·bl: the feature row of image bl. -/
theorem pay6_nat (v70 : FVec Ideal S1011x128 .f32) (x5 : Vec Ideal S5x128x128 .bf16) (x6 : Vec Ideal S1x128 .f32)
    (W : Wts) (X : ℕ → ℕ → EReal)
    (h70 : ∀ j q, 2 * j < 1011 → q < 128 → nat2 v70 (2 * j) q = max (max (conv3 W X j q) 0) (max (conv3 W X j (q + 128)) 0))
    (hT : ∀ d k n, W.T5 d k n = nat3 x5 d k n) (hB : ∀ n, W.B5 n = nat2 x6 0 n)
    (bl n : ℕ) (hbl : bl < 32) (hn : n < 128) :
    nat2 (Gen.k0_pay6 (F := Ideal) v70 (View.ld x5 Gen.r0_12) (View.ld x5 Gen.r0_13) (View.ld x5 Gen.r0_14) (View.ld x5 Gen.r0_15)
        (View.ld x5 Gen.r0_16) x6) (32 * bl) n
      = feat W X bl n := by
  unfold Gen.k0_pay6
  dsimp only
  have hp : ∀ u k, 4 * u + 2 < 1011 → k < 128 → _ = pool3 W X u k := fun u k hu hk => pool3_nat v70 W X h70 u k hu hk
  have hρ : 32 * bl < 993 := by omega
  rw [nat2_maximumf, nat2_zero_splat, nat2_addf, nat2_bcastRow _ _ _ _ hρ hn, nat2_addf, nat2_addf, nat2_addf, nat2_addf]
  rw [tap_nat dot_S993x128_S128x128_S993x128_1_0_0_1_n_n rfl 0 _ _ x5 0 (by omega) _ _ (32 * bl) n hρ hn (by omega),
    tap_nat dot_S993x128_S128x128_S993x128_1_0_0_1_n_n rfl 4 _ _ x5 1 (by omega) _ _ (32 * bl) n hρ hn (by omega),
    tap_nat dot_S993x128_S128x128_S993x128_1_0_0_1_n_n rfl 8 _ _ x5 2 (by omega) _ _ (32 * bl) n hρ hn (by omega),
    tap_nat dot_S993x128_S128x128_S993x128_1_0_0_1_n_n rfl 12 _ _ x5 3 (by omega) _ _ (32 * bl) n hρ hn (by omega),
    tap_nat dot_S993x128_S128x128_S993x128_1_0_0_1_n_n rfl 16 _ _ x5 4 (by omega) _ _ (32 * bl) n hρ hn (by omega)]
  unfold feat
  rw [hB]
  refine conv_close _ x5 (pool3 W X) W.T5 (nat2 x6 0 n) (32 * bl) (8 * bl) n 0 4 8 12 16 ?_ ?_ ?_ ?_ ?_ (fun d k => hT d k n)
  · intro k hk; rw [show 32 * bl + 0 = 4 * (8 * bl + 0) by omega]; exact hp (8 * bl + 0) k (by omega) hk
  · intro k hk; rw [show 32 * bl + 4 = 4 * (8 * bl + 1) by omega]; exact hp (8 * bl + 1) k (by omega) hk
  · intro k hk; rw [show 32 * bl + 8 = 4 * (8 * bl + 2) by omega]; exact hp (8 * bl + 2) k (by omega) hk
  · intro k hk; rw [show 32 * bl + 12 = 4 * (8 * bl + 3) by omega]; exact hp (8 * bl + 3) k (by omega) hk
  · intro k hk; rw [show 32 * bl + 16 = 4 * (8 * bl + 4) by omega]; exact hp (8 * bl + 4) k (by omega) hk

/-- The selection matrix: entry (bl, c) is one when c = 32·bl and zero otherwise. -/
theorem sel_nat (bl c : ℕ) (hbl : bl < 32) (hc : c < 993) :
    nat2 (sitofp (F := Ideal) .f32 (extui 32 (cmpi .eq (iota .tc S32x993 32 [1] Gen.iota_S32x993_d1_w32)
        (muli (iota .tc S32x993 32 [0] Gen.iota_S32x993_d0_w32) Gen.k0_pay7)) Gen.natLt_1_32)) bl c
      = if c = 32 * bl then 1 else 0 := by
  rw [nat2_of_lt _ _ _ hbl hc]
  have hi1 : iota .tc S32x993 32 [1] Gen.iota_S32x993_d1_w32 (ix2 (⟨bl, hbl⟩ : Fin 32) (⟨c, hc⟩ : Fin 993)) = BitVec.ofNat 32 c :=
    iota_single_apply .tc S32x993 32 1 _ _
  have hi0 : iota .tc S32x993 32 [0] Gen.iota_S32x993_d0_w32 (ix2 (⟨bl, hbl⟩ : Fin 32) (⟨c, hc⟩ : Fin 993)) = BitVec.ofNat 32 bl :=
    iota_single_apply .tc S32x993 32 0 _ _
  show ((((IntOp.cmpi .eq (iota .tc S32x993 32 [1] Gen.iota_S32x993_d1_w32 (ix2 (⟨bl, hbl⟩ : Fin 32) (⟨c, hc⟩ : Fin 993)))
      (IntOp.muli (iota .tc S32x993 32 [0] Gen.iota_S32x993_d0_w32 (ix2 (⟨bl, hbl⟩ : Fin 32) (⟨c, hc⟩ : Fin 993))) (32#32))).setWidth 32).toInt : ℝ) : EReal) = _
  rw [hi1, hi0]
  by_cases h : c = 32 * bl
  · have e : IntOp.cmpi .eq (BitVec.ofNat 32 c) (IntOp.muli (BitVec.ofNat 32 bl) 32#32) = 1#1 :=
      IntOp.cmpi_eq.mpr (by
        subst h; unfold IntOp.muli; apply BitVec.eq_of_toNat_eq
        simp only [BitVec.toNat_mul, BitVec.toNat_ofNat]; omega)
    have e1 : ((1#1 : BitVec 1).setWidth 32).toInt = 1 := by decide
    rw [e, e1, if_pos h, Int.cast_one, EReal.coe_one]
  · have e : IntOp.cmpi .eq (BitVec.ofNat 32 c) (IntOp.muli (BitVec.ofNat 32 bl) 32#32) = 0#1 :=
      eq_zero_of_ne_one fun h1 => h (by
        have h2 := congrArg BitVec.toNat (IntOp.cmpi_eq.mp h1)
        unfold IntOp.muli at h2
        simp only [BitVec.toNat_mul, BitVec.toNat_ofNat] at h2; omega)
    have e0 : ((0#1 : BitVec 1).setWidth 32).toInt = 0 := by decide
    rw [e, e0, if_neg h, Int.cast_zero, EReal.coe_zero]

/-- The selection product and the two dense layers: the stored block at (bl, n) is the output n of image bl. -/
theorem pay1_nat (v103 : FVec Ideal S993x128 .f32) (x7 : Vec Ideal S128x128 .bf16) (x8 : Vec Ideal S1x128 .f32)
    (x9 : Vec Ideal S128x128 .bf16) (x10 : Vec Ideal S1x128 .f32) (W : Wts) (X : ℕ → ℕ → EReal)
    (h103 : ∀ bl n, bl < 32 → n < 128 → nat2 v103 (32 * bl) n = feat W X bl n)
    (hW6 : ∀ k n, W.W6 k n = nat2 x7 k n) (hB6 : ∀ n, W.B6 n = nat2 x8 0 n)
    (hWO : ∀ k n, W.WO k n = nat2 x9 k n) (hBO : ∀ n, W.BO n = nat2 x10 0 n)
    (bl n : ℕ) (hbl : bl < 32) (hn : n < 128) :
    nat2 (Gen.k0_pay1 (F := Ideal) v103 (iota .tc S32x993 32 [0] Gen.iota_S32x993_d0_w32) (iota .tc S32x993 32 [1] Gen.iota_S32x993_d1_w32)
        Gen.k0_pay7 x7 x8 x9 x10) bl n
      = logit W X bl n := by
  unfold Gen.k0_pay1
  dsimp only
  rw [nat2_addf, nat2_bcastRow _ _ _ _ hbl hn, nat2_matmul_of dot_S32x128_S128x128_S32x128_1_0_0_1_n_n rfl _ _ bl n hbl hn]
  unfold logit
  rw [hBO]
  refine congrArg (· + nat2 x10 0 n) (Finset.sum_congr rfl fun k _ => ?_)
  rw [hWO]
  refine congrArg (· * nat2 x9 k.val n) ?_
  rw [nat2_truncf, nat2_maximumf, nat2_zero_splat, nat2_addf, nat2_bcastRow _ _ _ _ hbl k.isLt,
    nat2_matmul_of dot_S32x128_S128x128_S32x128_1_0_0_1_n_n rfl _ _ bl k.val hbl k.isLt]
  unfold hid
  rw [hB6]
  refine congrArg (fun z => max (z + nat2 x8 0 k.val) 0) (Finset.sum_congr rfl fun m _ => ?_)
  rw [hW6]
  refine congrArg (· * nat2 x7 m.val k.val) ?_
  rw [nat2_truncf, nat2_matmul_of dot_S32x993_S993x128_S32x128_1_0_0_1_n_n rfl _ _ bl m.val hbl m.isLt]
  rw [Finset.sum_eq_single (⟨32 * bl, by omega⟩ : Fin 993)]
  · rw [sel_nat bl (32 * bl) hbl (by omega), if_pos rfl, one_mul]
    exact h103 bl m.val hbl m.isLt
  · intro c _ hc
    rw [sel_nat bl c.val hbl c.isLt, if_neg (fun h => hc (Fin.ext h)), zero_mul]
  · intro h; exact absurd (Finset.mem_univ _) h

end Cert.ReferenceIdeal.Body

end
-- ==== Proof.RBody.lean ====
/-
  One grid point of the reference kernel, as a value: the 32×128 block it stores is the network's output for the 32 images
  whose 1024 flat input rows (32 lanes wide, lanes 0, 1, 30, 31 zero padding) the point was given.
-/
import proofs.«108140_g2000503430470147_pallaspilot1_141_3_alg».proof.Proof.Gen.ReferenceIdeal.Frame
import proofs.«108140_g2000503430470147_pallaspilot1_141_3_alg».proof.Proof.Net
import proofs.«108140_g2000503430470147_pallaspilot1_141_3_alg».proof.Proof.LibPlainDot
import proofs.«108140_g2000503430470147_pallaspilot1_141_3_alg».proof.Proof.LibTileSums
import proofs.«108140_g2000503430470147_pallaspilot1_141_3_alg».proof.Proof.RBody2
import proofs.«108140_g2000503430470147_pallaspilot1_141_3_alg».proof.Proof.RBody3
import Idealize.ShloMosaic.Lib.Pipeline.Value
import Idealize.ShloMosaic.Lib.ValueLayout
import Idealize.ShloMosaic.PureOps.Ideal.Laws

noncomputable section

namespace Cert.ReferenceIdeal.Body

open Idealize.ShloMosaic Idealize.ShloMosaic.ValueIdx Cert.ReferenceIdeal Cert.LeNet

/-- A rank-2 offset of zeros, however spelt. -/
theorem hz2 : (![0, 0] : Fin 2 → ℕ) = fun _ => 0 := funext fun a => by fin_cases a <;> rfl

/-- What a grid point stores, entry (bl, n): the network's output n for image bl of the point's tile, the input read through
    its 28 inner lanes — given that the input block's four outer lanes are zero. -/
theorem out_eq (x0 : Vec Ideal S1024x32 .f32) (x1 : Vec Ideal S5x32x256 .bf16) (x2 : Vec Ideal S1x256 .f32)
    (x3 : Vec Ideal S5x128x256 .bf16) (x4 : Vec Ideal S1x256 .f32) (x5 : Vec Ideal S5x128x128 .bf16) (x6 : Vec Ideal S1x128 .f32)
    (x7 : Vec Ideal S128x128 .bf16) (x8 : Vec Ideal S1x128 .f32) (x9 : Vec Ideal S128x128 .bf16) (x10 : Vec Ideal S1x128 .f32)
    (hpad : ∀ r < 1024, ∀ w < 32, (w < 2 ∨ 30 ≤ w) → nat2 x0 r w = 0)
    (bl : Fin 32) (n : Fin 128) :
    Gen.out0_11 (F := Ideal) x0 x1 x2 x3 x4 x5 x6 x7 x8 x9 x10 (ix2 bl n)
      = logit (wtsOf x1 x2 x3 x4 x5 x6 x7 x8 x9 x10) (fun r w => nat2 x0 r (w + 2)) bl.val n.val := by
  unfold Gen.out0_11
  rw [View.canon_unit_zero hz2]
  have e0 : View.ld x0 Gen.r0_0 = x0 := View.ld_unit_zero hz2 _ x0
  have e2 : View.ld x2 Gen.r0_6 = x2 := View.ld_unit_zero hz2 _ x2
  have e4 : View.ld x4 Gen.r0_6 = x4 := View.ld_unit_zero hz2 _ x4
  have e6 : View.ld x6 Gen.r0_17 = x6 := View.ld_unit_zero hz2 _ x6
  have e7 : View.ld x7 Gen.r0_18 = x7 := View.ld_unit_zero hz2 _ x7
  have e8 : View.ld x8 Gen.r0_17 = x8 := View.ld_unit_zero hz2 _ x8
  have e9 : View.ld x9 Gen.r0_18 = x9 := View.ld_unit_zero hz2 _ x9
  have e10 : View.ld x10 Gen.r0_17 = x10 := View.ld_unit_zero hz2 _ x10
  rw [e0, e2, e4, e6, e7, e8, e9, e10]
  refine (nat2_eq _ bl n).symm.trans ?_
  exact pay1_nat _ x7 x8 x9 x10 (wtsOf x1 x2 x3 x4 x5 x6 x7 x8 x9 x10) (fun r w => nat2 x0 r (w + 2))
    (fun b m hb hm => pay6_nat _ x5 x6 _ _
      (fun j q hj hq => pay5_nat _ _ x3 x4 _ _
        (fun ρ hρ q hq => pay3_nat x0 x1 x2 hpad _ (fun _ _ _ => rfl) (fun _ => rfl) ρ q hρ hq)
        (fun ρ hρ q hq => pay4_nat x0 x1 x2 hpad _ (fun _ _ _ => rfl) (fun _ => rfl) ρ q hρ hq)
        (fun _ _ _ => rfl) (fun _ => rfl) j q hj hq)
      (fun _ _ _ => rfl) (fun _ => rfl) b m hb hm)
    (fun _ _ => rfl) (fun _ => rfl) (fun _ _ => rfl) (fun _ => rfl) bl.val n.val bl.isLt n.isLt

end Cert.ReferenceIdeal.Body

end
-- ==== Proof.RRunHost.lean ====
/-
  The host lines around the reference's launch, read at an index: before it the input is reshaped, zero-padded by two in H
  and in W and flattened to rows of 32 lanes; after it the first ten of the 128 output lanes are kept.
-/
import proofs.«108140_g2000503430470147_pallaspilot1_141_3_alg».proof.Proof.Gen.ReferenceIdeal.Frame
import proofs.«108140_g2000503430470147_pallaspilot1_141_3_alg».proof.Proof.Net
import Idealize.ShloMosaic.Lib.Pipeline.Value
import Idealize.ShloMosaic.Lib.ValueLayout
import Idealize.ShloMosaic.Lib.StableHlo.Run
import Idealize.ShloMosaic.Lib.KernelVsHost

noncomputable section

namespace Cert.ReferenceIdeal.Host

open Idealize.ShloMosaic Idealize.ShloMosaic.TcCoe Idealize.ShloMosaic.ValueIdx Idealize.SL.Sem
open Cert.ReferenceIdeal Cert.ReferenceIdeal.Gen Cert.LeNet

variable (m : (ℓ : Loc nD τ sig) → Buf (Elt Ideal) ℓ)

/-- The array the launch stages as its first window: the images with two zero rows and two zero lanes on every side of each
    28×28 frame, the 32 rows of each padded frame laid one after another. -/
def padded (img : S16384x1x28x28.Idx → EReal) : S524288x32.Idx → EReal :=
  shapeCast S524288x32
    (pad S16384x32x32 ![0, 2, 2] ![0, 2, 2] ![0, 0, 0]
      (shapeCast S16384x28x28 img shapeCasts_S16384x1x28x28_S16384x28x28)
      (sitofp (F := Ideal) .f32 (constantI S_ 32 0#32))
      pads_S16384x28x28_S16384x32x32_000_220_220 h_S_)
    shapeCasts_S16384x32x32_S524288x32

/-- The host lines before the launch leave exactly that array in the first window's buffer. -/
theorem V_main_v2 (c : Dev nD) :
    (V m c main_v2 : S524288x32.Idx → EReal) = padded (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The padding value is zero. -/
theorem padval (i : S_.Idx) : (sitofp (F := Ideal) .f32 (constantI S_ 32 0#32)) i = (0 : EReal) := by
  show (((0#32 : BitVec 32).toInt : ℝ) : EReal) = 0
  simp

/-- The padded array at row r, lane w: the H-padded input one lane to the left by two inside lanes 2 … 29, zero on the four
    outer lanes. -/
theorem padded_apply (img : S16384x1x28x28.Idx → EReal) (r : Fin 524288) (w : Fin 32) :
    padded img (ix2 r w) = if 2 ≤ w.val ∧ w.val < 30 then Xof img r.val (w.val - 2) else 0 := by
  have hr := r.isLt
  have hw := w.isLt
  unfold padded
  refine (shapeCast_apply _ shapeCasts_S16384x32x32_S524288x32 (ix2 r w)
    (ix3 (⟨r.val / 32, by omega⟩ : Fin 16384) (⟨r.val % 32, by omega⟩ : Fin 32) w) ?_).trans ?_
  · rw [Shape.rowMajor_val_three, Shape.rowMajor_val_two]
    show (r.val / 32 * 32 + r.val % 32) * 32 + w.val = r.val * 32 + w.val
    omega
  by_cases hin : (2 ≤ r.val % 32 ∧ r.val % 32 < 30) ∧ (2 ≤ w.val ∧ w.val < 30)
  · rw [if_pos hin.2]
    refine (pad_apply_of_inside _ _ _ _ _ pads_S16384x28x28_S16384x32x32_000_220_220 h_S_ _
      (ix3 (⟨r.val / 32, by omega⟩ : Fin 16384) (⟨r.val % 32 - 2, by omega⟩ : Fin 28) (⟨w.val - 2, by omega⟩ : Fin 28)) ?_).trans ?_
    · intro a
      match a with
      | ⟨0, _⟩ => show r.val / 32 = 0 + r.val / 32 * (0 + 1); omega
      | ⟨1, _⟩ => show r.val % 32 = 2 + (r.val % 32 - 2) * (0 + 1); omega
      | ⟨2, _⟩ => show w.val = 2 + (w.val - 2) * (0 + 1); omega
    refine (shapeCast_apply _ shapeCasts_S16384x1x28x28_S16384x28x28 _
      (ix4 (⟨r.val / 32, by omega⟩ : Fin 16384) (0 : Fin 1) (⟨r.val % 32 - 2, by omega⟩ : Fin 28) (⟨w.val - 2, by omega⟩ : Fin 28)) ?_).trans ?_
    · rw [Shape.rowMajor_val_four, Shape.rowMajor_val_three]
      show ((r.val / 32 * 1 + 0) * 28 + (r.val % 32 - 2)) * 28 + (w.val - 2) = (r.val / 32 * 28 + (r.val % 32 - 2)) * 28 + (w.val - 2)
      omega
    unfold Xof
    rw [dif_pos ⟨hr, by omega, hin.1.1, hin.1.2⟩]
  · have hz : pad S16384x32x32 ![0, 2, 2] ![0, 2, 2] ![0, 0, 0]
        (shapeCast S16384x28x28 img shapeCasts_S16384x1x28x28_S16384x28x28)
        (sitofp (F := Ideal) .f32 (constantI S_ 32 0#32))
        pads_S16384x28x28_S16384x32x32_000_220_220 h_S_
        (ix3 (⟨r.val / 32, by omega⟩ : Fin 16384) (⟨r.val % 32, by omega⟩ : Fin 32) w) = 0 := by
      by_cases hrow : 2 ≤ r.val % 32 ∧ r.val % 32 < 30
      · refine (pad_apply_of_not_inside _ _ _ _ _ pads_S16384x28x28_S16384x32x32_000_220_220 h_S_ _ (2 : Fin 3) ?_).trans (padval _)
        show ¬(2 ≤ w.val ∧ (w.val - 2) % (0 + 1) = 0 ∧ (w.val - 2) / (0 + 1) < 28)
        omega
      · refine (pad_apply_of_not_inside _ _ _ _ _ pads_S16384x28x28_S16384x32x32_000_220_220 h_S_ _ (1 : Fin 3) ?_).trans (padval _)
        show ¬(2 ≤ r.val % 32 ∧ (r.val % 32 - 2) % (0 + 1) = 0 ∧ (r.val % 32 - 2) / (0 + 1) < 28)
        omega
    rw [hz]
    by_cases hwin : 2 ≤ w.val ∧ w.val < 30
    · rw [if_pos hwin]
      unfold Xof
      rw [dif_neg (fun h => hin ⟨⟨h.2.2.1, h.2.2.2⟩, hwin⟩)]
    · rw [if_neg hwin]

/-- The first window's array at row r, lane w. -/
theorem V_main_v2_apply (c : Dev nD) (r : Fin 524288) (w : Fin 32) :
    V m c main_v2 (ix2 r w)
      = if 2 ≤ w.val ∧ w.val < 30 then Xof (m ((c : Thread nD τ).loc main_arg0)) r.val (w.val - 2) else 0 := by
  rw [V_main_v2]
  exact padded_apply _ r w

end Cert.ReferenceIdeal.Host
end
-- ==== Proof.RRun.lean ====
/-
  The reference program, read as a value: from the generated frame run, each grid point's stored block (RBody) laid into the result array, the host lines before the launch read at an index (the input zero-padded in H and W and flattened to rows of 32 lanes) and the slice after it.
-/
import proofs.«108140_g2000503430470147_pallaspilot1_141_3_alg».proof.Proof.Gen.ReferenceIdeal.Frame
import proofs.«108140_g2000503430470147_pallaspilot1_141_3_alg».proof.Proof.Net
import proofs.«108140_g2000503430470147_pallaspilot1_141_3_alg».proof.Proof.RBody
import proofs.«108140_g2000503430470147_pallaspilot1_141_3_alg».proof.Proof.RRunHost
import Idealize.ShloMosaic.Lib.Pipeline.Value
import Idealize.ShloMosaic.Lib.ValueLayout
import Idealize.ShloMosaic.Lib.StableHlo.Run

noncomputable section

namespace Cert.ReferenceIdeal.Val

open Idealize.ShloMosaic Idealize.ShloMosaic.TcCoe Idealize.ShloMosaic.ValueIdx Idealize.SL.Sem
open Cert.ReferenceIdeal Cert.ReferenceIdeal.Gen Cert.LeNet
open Idealize.ShloMosaic.Pipeline (Dat)

variable (m : (ℓ : Loc nD τ sig) → Buf (Elt Ideal) ℓ) (ρ : Dev nD → PrngReg)

/-! ## The windows' blocks -/

/-- The printed index maps over the grid: the input rows and the output rows move with the point, every weight window
    stays on its whole array. -/
theorem idx_facts : ∀ t : Fin cfg0.N, win0_0.index t (0 : Fin 2) = t.val ∧ win0_0.index t (1 : Fin 2) = 0
    ∧ win0_11.index t (0 : Fin 2) = t.val ∧ win0_11.index t (1 : Fin 2) = 0
    ∧ (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0)
    ∧ (∀ a, win0_9.index t a = 0) ∧ (∀ a, win0_10.index t a = 0) :=
  (by decide +kernel : ∀ t : Fin grid0.N, _)

/-- Point t's input block, row r, is row 1024·t + r of the staged array. -/
theorem iblk0_apply (c : Dev nD) (t : Fin cfg0.N) (r : Fin 1024) (w : Fin 32) (R : Fin 524288)
    (hR : R.val = 1024 * t.val + r.val) :
    (iblk m c 0 t : Vec Ideal S1024x32 .f32) (ix2 r w) = V m c main_v2 (ix2 R w) := by
  obtain ⟨e0, e1, -⟩ := idx_facts t
  unfold iblk
  rw [View.read_apply]
  show V m c main_v2 _ = V m c main_v2 _
  refine congrArg (V m c main_v2) ?_
  funext a
  apply Fin.ext
  match a with
  | ⟨0, _⟩ => show win0_0.index t (0 : Fin 2) * 1024 + 1 * r.val = R.val; rw [e0, hR]; omega
  | ⟨1, _⟩ => show win0_0.index t (1 : Fin 2) * 32 + 1 * w.val = w.val; rw [e1]; omega

/-! Each weight window's block, at every point, is the whole argument array. -/

theorem iblk1 (c : Dev nD) (t : Fin cfg0.N) :
    (iblk m c 1 t : Vec Ideal S5x32x256 .bf16) = m ((c : Thread nD τ).loc main_arg1) := by
  have hz : (fun a => win0_1.index t a * main_arg1.ty.shape.size a) = fun _ => 0 :=
    funext fun a => by rw [(idx_facts t).2.2.2.2.1 a, Nat.zero_mul]
  exact (Memref.read_access_unit_zero (Elt Ideal) main_arg1 hz (fun a => by rw [congrFun hz a]; simp) (V m c main_arg1)).trans (V_main_arg1 m c)
theorem iblk2 (c : Dev nD) (t : Fin cfg0.N) :
    (iblk m c 2 t : Vec Ideal S1x256 .f32) = m ((c : Thread nD τ).loc main_arg2) := by
  have hz : (fun a => win0_2.index t a * main_arg2.ty.shape.size a) = fun _ => 0 :=
    funext fun a => by rw [(idx_facts t).2.2.2.2.2.1 a, Nat.zero_mul]
  exact (Memref.read_access_unit_zero (Elt Ideal) main_arg2 hz (fun a => by rw [congrFun hz a]; simp) (V m c main_arg2)).trans (V_main_arg2 m c)
theorem iblk3 (c : Dev nD) (t : Fin cfg0.N) :
    (iblk m c 3 t : Vec Ideal S5x128x256 .bf16) = m ((c : Thread nD τ).loc main_arg3) := by
  have hz : (fun a => win0_3.index t a * main_arg3.ty.shape.size a) = fun _ => 0 :=
    funext fun a => by rw [(idx_facts t).2.2.2.2.2.2.1 a, Nat.zero_mul]
  exact (Memref.read_access_unit_zero (Elt Ideal) main_arg3 hz (fun a => by rw [congrFun hz a]; simp) (V m c main_arg3)).trans (V_main_arg3 m c)
theorem iblk4 (c : Dev nD) (t : Fin cfg0.N) :
    (iblk m c 4 t : Vec Ideal S1x256 .f32) = m ((c : Thread nD τ).loc main_arg4) := by
  have hz : (fun a => win0_4.index t a * main_arg4.ty.shape.size a) = fun _ => 0 :=
    funext fun a => by rw [(idx_facts t).2.2.2.2.2.2.2.1 a, Nat.zero_mul]
  exact (Memref.read_access_unit_zero (Elt Ideal) main_arg4 hz (fun a => by rw [congrFun hz a]; simp) (V m c main_arg4)).trans (V_main_arg4 m c)
theorem iblk5 (c : Dev nD) (t : Fin cfg0.N) :
    (iblk m c 5 t : Vec Ideal S5x128x128 .bf16) = m ((c : Thread nD τ).loc main_arg5) := by
  have hz : (fun a => win0_5.index t a * main_arg5.ty.shape.size a) = fun _ => 0 :=
    funext fun a => by rw [(idx_facts t).2.2.2.2.2.2.2.2.1 a, Nat.zero_mul]
  exact (Memref.read_access_unit_zero (Elt Ideal) main_arg5 hz (fun a => by rw [congrFun hz a]; simp) (V m c main_arg5)).trans (V_main_arg5 m c)
theorem iblk6 (c : Dev nD) (t : Fin cfg0.N) :
    (iblk m c 6 t : Vec Ideal S1x128 .f32) = m ((c : Thread nD τ).loc main_arg6) := by
  have hz : (fun a => win0_6.index t a * main_arg6.ty.shape.size a) = fun _ => 0 :=
    funext fun a => by rw [(idx_facts t).2.2.2.2.2.2.2.2.2.1 a, Nat.zero_mul]
  exact (Memref.read_access_unit_zero (Elt Ideal) main_arg6 hz (fun a => by rw [congrFun hz a]; simp) (V m c main_arg6)).trans (V_main_arg6 m c)
theorem iblk7 (c : Dev nD) (t : Fin cfg0.N) :
    (iblk m c 7 t : Vec Ideal S128x128 .bf16) = m ((c : Thread nD τ).loc main_arg7) := by
  have hz : (fun a => win0_7.index t a * main_arg7.ty.shape.size a) = fun _ => 0 :=
    funext fun a => by rw [(idx_facts t).2.2.2.2.2.2.2.2.2.2.1 a, Nat.zero_mul]
  exact (Memref.read_access_unit_zero (Elt Ideal) main_arg7 hz (fun a => by rw [congrFun hz a]; simp) (V m c main_arg7)).trans (V_main_arg7 m c)
theorem iblk8 (c : Dev nD) (t : Fin cfg0.N) :
    (iblk m c 8 t : Vec Ideal S1x128 .f32) = m ((c : Thread nD τ).loc main_arg8) := by
  have hz : (fun a => win0_8.index t a * main_arg8.ty.shape.size a) = fun _ => 0 :=
    funext fun a => by rw [(idx_facts t).2.2.2.2.2.2.2.2.2.2.2.1 a, Nat.zero_mul]
  exact (Memref.read_access_unit_zero (Elt Ideal) main_arg8 hz (fun a => by rw [congrFun hz a]; simp) (V m c main_arg8)).trans (V_main_arg8 m c)
theorem iblk9 (c : Dev nD) (t : Fin cfg0.N) :
    (iblk m c 9 t : Vec Ideal S128x128 .bf16) = m ((c : Thread nD τ).loc main_arg9) := by
  have hz : (fun a => win0_9.index t a * main_arg9.ty.shape.size a) = fun _ => 0 :=
    funext fun a => by rw [(idx_facts t).2.2.2.2.2.2.2.2.2.2.2.2.1 a, Nat.zero_mul]
  exact (Memref.read_access_unit_zero (Elt Ideal) main_arg9 hz (fun a => by rw [congrFun hz a]; simp) (V m c main_arg9)).trans (V_main_arg9 m c)
theorem iblk10 (c : Dev nD) (t : Fin cfg0.N) :
    (iblk m c 10 t : Vec Ideal S1x128 .f32) = m ((c : Thread nD τ).loc main_arg10) := by
  have hz : (fun a => win0_10.index t a * main_arg10.ty.shape.size a) = fun _ => 0 :=
    funext fun a => by rw [(idx_facts t).2.2.2.2.2.2.2.2.2.2.2.2.2 a, Nat.zero_mul]
  exact (Memref.read_access_unit_zero (Elt Ideal) main_arg10 hz (fun a => by rw [congrFun hz a]; simp) (V m c main_arg10)).trans (V_main_arg10 m c)

/-- Point t's input block at natural coordinates: the H-padded input of the point's 1024 rows, moved two lanes right,
    zero on the four outer lanes. -/
theorem x0_apply (c : Dev nD) (t : Fin cfg0.N) (r w : ℕ) (hr : r < 1024) (hw : w < 32) :
    nat2 (iblk m c 0 t : Vec Ideal S1024x32 .f32) r w
      = if 2 ≤ w ∧ w < 30 then Xof (m ((c : Thread nD τ).loc main_arg0)) (1024 * t.val + r) (w - 2) else 0 := by
  have hN : cfg0.N = 512 := N_0
  have ht : t.val < 512 := hN ▸ t.isLt
  rw [nat2_of_lt _ r w hr hw,
    iblk0_apply m c t ⟨r, hr⟩ ⟨w, hw⟩ (⟨1024 * t.val + r, by omega⟩ : Fin 524288) rfl,
    Cert.ReferenceIdeal.Host.V_main_v2_apply m c (⟨1024 * t.val + r, by omega⟩ : Fin 524288) ⟨w, hw⟩]

/-! ## What a point writes back -/

/-- The result array of the launch: entry (b, n) is the network's output n for image b. -/
def Gfull (c : Dev nD) : S16384x128.Idx → EReal := fun i =>
  logit (wtsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (Xof (m ((c : Thread nD τ).loc main_arg0))) (i 0).val (i 1).val

/-- Point t's stored block, entry (bl, n): the network's output n for image 32·t + bl. -/
theorem blk_eq (c : Dev nD) (t : Fin cfg0.N) (bl : Fin 32) (n : Fin 128) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 bl n)
      = logit (wtsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (Xof (m ((c : Thread nD τ).loc main_arg0))) (32 * t.val + bl.val) n.val := by
  refine (Cert.ReferenceIdeal.Body.out_eq (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun r hr w hw hout => ?_) bl n).trans ?_
  · rw [x0_apply m c t r w hr hw, if_neg (by omega)]
  rw [iblk1 m c t, iblk2 m c t, iblk3 m c t, iblk4 m c t, iblk5 m c t, iblk6 m c t, iblk7 m c t, iblk8 m c t, iblk9 m c t, iblk10 m c t]
  refine logit_congr (fun k hk w hw => ?_) n.val
  have hbl := bl.isLt
  show nat2 (iblk m c 0 t : Vec Ideal S1024x32 .f32) (32 * bl.val + k) (w + 2) = _
  rw [x0_apply m c t (32 * bl.val + k) (w + 2) (by omega) (by omega), if_pos (by omega)]
  have e1 : 1024 * t.val + (32 * bl.val + k) = 32 * (32 * t.val + bl.val) + k := by omega
  have e2 : w + 2 - 2 = w := by omega
  rw [e1, e2]

/-- What point t writes back is its block of the result array. -/
theorem flushed_eq (c : Dev nD) (t : Fin cfg0.N) :
    (dats m 0 c).flushed 11 t = ((cfg0.win 11).blk t).view.read (Elt Ideal) (Gfull m c) := by
  show (cfg0.win 11).cut (grid0.coords t) ((dats m 0 c).after 11 t) = _
  rw [after0_11]
  funext y
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = Gfull m c (((cfg0.win 11).blk t).view.emb y)
  obtain ⟨bl, n, hy⟩ : ∃ (bl : Fin 32) (n : Fin 128), (y : S32x128.Idx) = ix2 bl n := ⟨y 0, y 1, eq_ix2 _⟩
  have hN : cfg0.N = 512 := N_0
  have ht : t.val < 512 := hN ▸ t.isLt
  have hbl := bl.isLt
  obtain ⟨-, -, e0, e1, -⟩ := idx_facts t
  have he : ((cfg0.win 11).blk t).view.emb y = (ix2 (⟨32 * t.val + bl.val, by omega⟩ : Fin 16384) n : S16384x128.Idx) := by
    funext a
    apply Fin.ext
    match a with
    | ⟨0, _⟩ =>
      show win0_11.index t (0 : Fin 2) * 32 + 1 * ((y : S32x128.Idx) 0).val = 32 * t.val + bl.val
      rw [e0, hy]; show t.val * 32 + 1 * bl.val = _; omega
    | ⟨1, _⟩ =>
      show win0_11.index t (1 : Fin 2) * 128 + 1 * ((y : S32x128.Idx) 1).val = n.val
      rw [e1, hy]; show 0 * 128 + 1 * n.val = _; omega
  rw [he]
  refine (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) hy).trans ?_
  exact blk_eq m c t bl n

/-! ## The result array -/

/-- An index of the array is in point t's block iff each coordinate is in the block's range on its axis. -/
theorem mem_blk (t : Fin cfg0.N) (i : S16384x128.Idx) :
    i ∈ ((cfg0.win 11).blk t).view.set ↔ ∀ a : Fin 2, win0_11.index t a * S32x128.size a ≤ (i a).val ∧ (i a).val < win0_11.index t a * S32x128.size a + S32x128.size a := by
  show i ∈ ((View.whole main_v3).slice (win0_11.rect t)).set ↔ _
  rw [View.set_slice_whole, Rect.mem_set_unit]
  exact Iff.rfl

/-- Row b of the array is in the block of point b / 32. -/
theorem cover (i : S16384x128.Idx) :
    ∃ t : Fin cfg0.N, (cfg0.win 11).flush t = true ∧ i ∈ ((cfg0.win 11).blk t).view.set := by
  have hi0 : (i 0).val < 16384 := (i 0).isLt
  have hi1 : (i 1).val < 128 := (i 1).isLt
  have hN : cfg0.N = 512 := N_0
  have ht : (i 0).val / 32 < cfg0.N := by rw [hN]; omega
  refine ⟨⟨(i 0).val / 32, ht⟩, flush0_11 _, ?_⟩
  rw [mem_blk]
  obtain ⟨-, -, e0, e1, -⟩ := idx_facts ⟨(i 0).val / 32, ht⟩
  intro a
  match a with
  | ⟨0, _⟩ =>
    show win0_11.index ⟨(i 0).val / 32, ht⟩ (0 : Fin 2) * 32 ≤ (i 0).val ∧ (i 0).val < win0_11.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_11.index ⟨(i 0).val / 32, ht⟩ (1 : Fin 2) * 128 ≤ (i 1).val ∧ (i 1).val < win0_11.index ⟨(i 0).val / 32, ht⟩ (1 : Fin 2) * 128 + 128
    rw [e1]; omega

/-- The launch's result array after the run. -/
theorem final (c : Dev nD) : (dats m 0 c).arrAt 11 cfg0.N = Gfull m c :=
  (dats m 0 c).arrAt_eq_of_cover 11 (Gfull m c) (fun t _ => flushed_eq m c t) cover

/-! ## The slice after the launch, and the run -/

/-- The host line after the launch keeps the first ten lanes of the launch's result array. -/
theorem tail_eq (c : Dev nD) :
    Pipeline.afterTail₀ cfgs (dats m) 0 (V0 m) [hostOps1] c main_v4
      = extractStridedSlice S16384x10 ![0, 0] ((dats m 0 c).arrAt 11 cfg0.N) slices_S16384x128_S16384x10_0_0 := by
  unfold Pipeline.afterTail₀
  show StableHlo.after hostOps1 _ (Proc.devRef .tc main_v4) = _
  after_results
  show extractStridedSlice S16384x10 ![0, 0]
      (Pipeline.withArrays spec0 c (V0 m c) (fun w => (dats m 0 c).arrAt w cfg0.N) (Proc.devRef .tc (Pipeline.arrRef spec0 11)))
      slices_S16384x128_S16384x10_0_0 = _
  rw [Pipeline.withArrays_arr spec0 launch0.win.arr_inj c (V0 m c) (fun w => (dats m 0 c).arrAt w cfg0.N) 11]

/-- The first ten lanes of the result array are the network's result. -/
theorem slice_eq (c : Dev nD) :
    extractStridedSlice S16384x10 ![0, 0] (Gfull m c) slices_S16384x128_S16384x10_0_0
      = Cert.LeNet.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  have hi0 : (i 0).val < 16384 := (i 0).isLt
  have hi1 : (i 1).val < 10 := (i 1).isLt
  refine (extractStridedSlice_apply _ _ _ i (ix2 (⟨(i 0).val, hi0⟩ : Fin 16384) (⟨(i 1).val, by omega⟩ : Fin 128)) (fun a => ?_)).trans ?_
  · match a with
    | ⟨0, _⟩ => show (i 0).val = 0 + (i 0).val; omega
    | ⟨1, _⟩ => show (i 1).val = 0 + (i 1).val; omega
  · rfl

/-- What the host line after the launch leaves in the program's result buffer. -/
theorem post_v4 (c : Dev nD) :
    Pipeline.afterTail₀ cfgs (dats m) 0 (V0 m) [hostOps1] c main_v4
      = Cert.LeNet.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [tail_eq m c, final m c]
  exact slice_eq m c

/-- The program's run, read: it ends with its result array at the network's output of the argument arrays (first ten of the
    128 output lanes, every image of the batch), the arguments unchanged. -/
theorem run : θ_run (defs (F := Ideal)) (onTc (τ := τ) (main (F := Ideal))) ⟨m, fun _ => 0, ρ⟩ fun r => ∀ c : Dev nD,
      r.2.mem ((c : Thread nD τ).loc main_v4) = Cert.LeNet.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run defs _ _).mono (fun r h c => ?_) (run_main m ρ)
  refine ⟨?_, ?_, ?_, ?_, ?_, ?_, ?_, ?_, ?_, ?_, ?_, ?_⟩
  · exact ((h c).2 main_v4 (Pipeline.mem_restRefs_of main_v4 (by decide) (by decide))).trans (post_v4 m c)
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))
  · exact ((h c).1 4).trans (((dats m 0 c).arrAt_in 4 rfl _).trans ((A_eq m c 4).trans (V_main_arg4 m c)))
  · exact ((h c).1 5).trans (((dats m 0 c).arrAt_in 5 rfl _).trans ((A_eq m c 5).trans (V_main_arg5 m c)))
  · exact ((h c).1 6).trans (((dats m 0 c).arrAt_in 6 rfl _).trans ((A_eq m c 6).trans (V_main_arg6 m c)))
  · exact ((h c).1 7).trans (((dats m 0 c).arrAt_in 7 rfl _).trans ((A_eq m c 7).trans (V_main_arg7 m c)))
  · exact ((h c).1 8).trans (((dats m 0 c).arrAt_in 8 rfl _).trans ((A_eq m c 8).trans (V_main_arg8 m c)))
  · exact ((h c).1 9).trans (((dats m 0 c).arrAt_in 9 rfl _).trans ((A_eq m c 9).trans (V_main_arg9 m c)))
  · exact ((h c).1 10).trans (((dats m 0 c).arrAt_in 10 rfl _).trans ((A_eq m c 10).trans (V_main_arg10 m c)))

end Cert.ReferenceIdeal.Val

end
-- ==== Proof.lean ====
/-
  Two Pallas implementations of the LeNet-5 forward pass compute one function on the extended reals.

  The kernel cuts the batch into tiles of 64 images, compacts the rows after each 2×2 max-pool, and folds the five row taps of
  each convolution into the contraction axis of one to three matrix products; the reference cuts it into tiles of 32, keeps
  every row (so its later stages read rows 2 and then 4 apart), pads the image in W as well as in H, takes the positive part
  before pooling, and picks each image's one valid row with a one-hot matrix product. At the ideal instance a change of float
  format is the identity, so both are the network of Proof/Net.lean: each program's run ends with its result array at
  Cert.LeNet.result of the eleven argument arrays (Proof/KRun.lean, Proof/RRun.lean, over each grid point's stored block
  in Proof/KBody.lean and Proof/RBody.lean), and arguments that agree give equal results. The laws used are those of a
  commutative monoid with zero and of a linear order — reordering finite sums, 0·x = 0, 1·x = x, max with 0 commuting
  with max — so the finiteness of the inputs is never opened. The three frames are the generated ones; the ideal pass
  rewrote nothing, so the kernel's idealization is its own text read at the ideal instance.
-/
import proofs.«108140_g2000503430470147_pallaspilot1_141_3_alg».proof.Defs
import proofs.«108140_g2000503430470147_pallaspilot1_141_3_alg».proof.Proof.Gen.Kernel
import proofs.«108140_g2000503430470147_pallaspilot1_141_3_alg».proof.Proof.Gen.Kernel.Frame
import proofs.«108140_g2000503430470147_pallaspilot1_141_3_alg».proof.Proof.Gen.KernelIdeal
import proofs.«108140_g2000503430470147_pallaspilot1_141_3_alg».proof.Proof.Gen.KernelIdeal.Frame
import proofs.«108140_g2000503430470147_pallaspilot1_141_3_alg».proof.Proof.Gen.ReferenceIdeal
import proofs.«108140_g2000503430470147_pallaspilot1_141_3_alg».proof.Proof.Gen.ReferenceIdeal.Frame
import proofs.«108140_g2000503430470147_pallaspilot1_141_3_alg».proof.Proof.Gen.Pre_finite_inputs
import proofs.«108140_g2000503430470147_pallaspilot1_141_3_alg».proof.Proof.KRun
import proofs.«108140_g2000503430470147_pallaspilot1_141_3_alg».proof.Proof.RRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The ideal pass rewrote no operation. -/
theorem preserves : Cert.preserves_Kernel_KernelIdeal := trivial

/-- Both runs end at the network's output of their own argument arrays; the arrays agree, so the outputs do. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
